-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v78)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v78) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v109) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x64 : Shape := ⟨2, ![50000, 64]⟩
abbrev S2x800000 : Shape := ⟨2, ![2, 800000]⟩
abbrev S50000 : Shape := ⟨1, ![50000]⟩
abbrev S64x64 : Shape := ⟨2, ![64, 64]⟩
abbrev S64 : Shape := ⟨1, ![64]⟩
abbrev S64x1 : Shape := ⟨2, ![64, 1]⟩
abbrev S1 : Shape := ⟨1, ![1]⟩
abbrev S_ : Shape := ⟨0, ![]⟩

class Facts : Prop where
  bcast_S_S50000x64 : S_.BroadcastsInDim S50000x64 (![] : Fin 0 → Fin S50000x64.rank)
  reducesTo_S50000x64_S_d0_1 : S50000x64.ReducesTo [0, 1] S_
  h_S_ : 0 < S_.numel
  bcast_S_S64x64 : S_.BroadcastsInDim S64x64 (![] : Fin 0 → Fin S64x64.rank)
  reducesTo_S64x64_S_d0_1 : S64x64.ReducesTo [0, 1] S_
  bcast_S_S64 : S_.BroadcastsInDim S64 (![] : Fin 0 → Fin S64.rank)
  reducesTo_S64_S_d0 : S64.ReducesTo [0] S_
  bcast_S_S64x1 : S_.BroadcastsInDim S64x1 (![] : Fin 0 → Fin S64x1.rank)
  reducesTo_S64x1_S_d0_1 : S64x1.ReducesTo [0, 1] S_
  bcast_S_S1 : S_.BroadcastsInDim S1 (![] : Fin 0 → Fin S1.rank)
  reducesTo_S1_S_d0 : S1.ReducesTo [0] S_

variable [Facts]

def fn_part1 {F : FTy → Type} [FloatOps F] (main_arg6 : FVec F S64 .f32) (main_arg7 : FVec F S64x1 .f32) (main_arg8 : FVec F S1 .f32) (main_v13 : IVec S_ 1) (main_v16 : IVec S64x64 1) : IVec S_ 1 :=
  let main_c_5 : IVec S_ 1 := constantI S_ 1 1#1
  let main_v17 : IVec S_ 1 := (fun x v => Host.reduce IntOp.andi x v reducesTo_S64x64_S_d0_1 h_S_) main_v16 main_c_5
  let main_v18 : IVec S_ 1 := andi main_v13 main_v17
  let main_v19 : FVec F S64 .f32 := Host.absf main_arg6
  let main_cst_6 : FVec F S_ .f32 := constant S_ .f32 0x7F800000#32
  let main_v20 : FVec F S64 .f32 := broadcastInDim S64 ![] bcast_S_S64 main_cst_6
  let main_v21 : IVec S64 1 := cmpf .olt main_v19 main_v20
  let main_c_7 : IVec S_ 1 := constantI S_ 1 1#1
  let main_v22 : IVec S_ 1 := (fun x v => Host.reduce IntOp.andi x v reducesTo_S64_S_d0 h_S_) main_v21 main_c_7
  let main_v23 : IVec S_ 1 := andi main_v18 main_v22
  let main_v24 : FVec F S64x1 .f32 := Host.absf main_arg7
  let main_cst_8 : FVec F S_ .f32 := constant S_ .f32 0x7F800000#32
  let main_v25 : FVec F S64x1 .f32 := broadcastInDim S64x1 ![] bcast_S_S64x1 main_cst_8
  let main_v26 : IVec S64x1 1 := cmpf .olt main_v24 main_v25
  let main_c_9 : IVec S_ 1 := constantI S_ 1 1#1
  let main_v27 : IVec S_ 1 := (fun x v => Host.reduce IntOp.andi x v reducesTo_S64x1_S_d0_1 h_S_) main_v26 main_c_9
  let main_v28 : IVec S_ 1 := andi main_v23 main_v27
  let main_v29 : FVec F S1 .f32 := Host.absf main_arg8
  let main_cst_10 : FVec F S_ .f32 := constant S_ .f32 0x7F800000#32
  let main_v30 : FVec F S1 .f32 := broadcastInDim S1 ![] bcast_S_S1 main_cst_10
  let main_v31 : IVec S1 1 := cmpf .olt main_v29 main_v30
  let main_c_11 : IVec S_ 1 := constantI S_ 1 1#1
  let main_v32 : IVec S_ 1 := (fun x v => Host.reduce IntOp.andi x v reducesTo_S1_S_d0 h_S_) main_v31 main_c_11
  let main_v33 : IVec S_ 1 := andi main_v28 main_v32
  main_v33

def fn {F : FTy → Type} [FloatOps F] (main_arg0 : FVec F S50000x64 .f32) (main_arg1 : IVec S2x800000 32) (main_arg2 : IVec S50000 32) (main_arg3 : FVec F S64x64 .f32) (main_arg4 : FVec F S64 .f32) (main_arg5 : FVec F S64x64 .f32) (main_arg6 : FVec F S64 .f32) (main_arg7 : FVec F S64x1 .f32) (main_arg8 : FVec F S1 .f32) : IVec S_ 1 :=
  let main_v0 : FVec F S50000x64 .f32 := Host.absf main_arg0
  let main_cst : FVec F S_ .f32 := constant S_ .f32 0x7F800000#32
  let main_v1 : FVec F S50000x64 .f32 := broadcastInDim S50000x64 ![] bcast_S_S50000x64 main_cst
  let main_v2 : IVec S50000x64 1 := cmpf .olt main_v0 main_v1
  let main_c : IVec S_ 1 := constantI S_ 1 1#1
  let main_v3 : IVec S_ 1 := (fun x v => Host.reduce IntOp.andi x v reducesTo_S50000x64_S_d0_1 h_S_) main_v2 main_c
  let main_v4 : FVec F S64x64 .f32 := Host.absf main_arg3
  let main_cst_0 : FVec F S_ .f32 := constant S_ .f32 0x7F800000#32
  let main_v5 : FVec F S64x64 .f32 := broadcastInDim S64x64 ![] bcast_S_S64x64 main_cst_0
  let main_v6 : IVec S64x64 1 := cmpf .olt main_v4 main_v5
  let main_c_1 : IVec S_ 1 := constantI S_ 1 1#1
  let main_v7 : IVec S_ 1 := (fun x v => Host.reduce IntOp.andi x v reducesTo_S64x64_S_d0_1 h_S_) main_v6 main_c_1
  let main_v8 : IVec S_ 1 := andi main_v3 main_v7
  let main_v9 : FVec F S64 .f32 := Host.absf main_arg4
  let main_cst_2 : FVec F S_ .f32 := constant S_ .f32 0x7F800000#32
  let main_v10 : FVec F S64 .f32 := broadcastInDim S64 ![] bcast_S_S64 main_cst_2
  let main_v11 : IVec S64 1 := cmpf .olt main_v9 main_v10
  let main_c_3 : IVec S_ 1 := constantI S_ 1 1#1
  let main_v12 : IVec S_ 1 := (fun x v => Host.reduce IntOp.andi x v reducesTo_S64_S_d0 h_S_) main_v11 main_c_3
  let main_v13 : IVec S_ 1 := andi main_v8 main_v12
  let main_v14 : FVec F S64x64 .f32 := Host.absf main_arg5
  let main_cst_4 : FVec F S_ .f32 := constant S_ .f32 0x7F800000#32
  let main_v15 : FVec F S64x64 .f32 := broadcastInDim S64x64 ![] bcast_S_S64x64 main_cst_4
  let main_v16 : IVec S64x64 1 := cmpf .olt main_v14 main_v15
  fn_part1 (F := F) main_arg6 main_arg7 main_arg8 main_v13 main_v16
-- ==== Kernel.lean ====
abbrev S50000x64 : Shape := ⟨2, ![50000, 64]⟩
abbrev S2x800000 : Shape := ⟨2, ![2, 800000]⟩
abbrev S50000 : Shape := ⟨1, ![50000]⟩
abbrev S64x64 : Shape := ⟨2, ![64, 64]⟩
abbrev S64 : Shape := ⟨1, ![64]⟩
abbrev S64x1 : Shape := ⟨2, ![64, 1]⟩
abbrev S1 : Shape := ⟨1, ![1]⟩
abbrev S1x800000 : Shape := ⟨2, ![1, 800000]⟩
abbrev S800000 : Shape := ⟨1, ![800000]⟩
abbrev S_ : Shape := ⟨0, ![]⟩
abbrev S800000x1 : Shape := ⟨2, ![800000, 1]⟩
abbrev S10000x64 : Shape := ⟨2, ![10000, 64]⟩
abbrev S800000x64 : Shape := ⟨2, ![800000, 64]⟩
abbrev S50000x1 : Shape := ⟨2, ![50000, 1]⟩
abbrev S1x64 : Shape := ⟨2, ![1, 64]⟩
abbrev S10000x1 : Shape := ⟨2, ![10000, 1]⟩
abbrev S1x1 : Shape := ⟨2, ![1, 1]⟩

abbrev nBuf : Space → Nat
  | .hbm => 105
  | .vmem => 42
  | .smem => 0
  | _ => 0

abbrev bufTy : (tb : Table) → Fin (tcTables nBuf tb) → BufTy
  | .hbm, ⟨0, _⟩ => ⟨S50000x64, .f32⟩
  | .hbm, ⟨1, _⟩ => ⟨S2x800000, .i32⟩
  | .hbm, ⟨2, _⟩ => ⟨S50000, .i32⟩
  | .hbm, ⟨3, _⟩ => ⟨S64x64, .f32⟩
  | .hbm, ⟨4, _⟩ => ⟨S64, .f32⟩
  | .hbm, ⟨5, _⟩ => ⟨S64x64, .f32⟩
  | .hbm, ⟨6, _⟩ => ⟨S64, .f32⟩
  | .hbm, ⟨7, _⟩ => ⟨S64x1, .f32⟩
  | .hbm, ⟨8, _⟩ => ⟨S1, .f32⟩
  | .hbm, ⟨9, _⟩ => ⟨S1x800000, .i32⟩
  | .hbm, ⟨10, _⟩ => ⟨S800000, .i32⟩
  | .hbm, ⟨11, _⟩ => ⟨S1x800000, .i32⟩
  | .hbm, ⟨12, _⟩ => ⟨S800000, .i32⟩
  | .hbm, ⟨13, _⟩ => ⟨S_, .f32⟩
  | .hbm, ⟨14, _⟩ => ⟨S800000, .f32⟩
  | .hbm, ⟨15, _⟩ => ⟨S_, .f32⟩
  | .hbm, ⟨16, _⟩ => ⟨S50000, .f32⟩
  | .hbm, ⟨17, _⟩ => ⟨S800000x1, .i32⟩
  | .hbm, ⟨18, _⟩ => ⟨S50000, .f32⟩
  | .hbm, ⟨19, _⟩ => ⟨S_, .f32⟩
  | .hbm, ⟨20, _⟩ => ⟨S50000, .f32⟩
  | .hbm, ⟨21, _⟩ => ⟨S50000, .f32⟩
  | .hbm, ⟨22, _⟩ => ⟨S50000, .f32⟩
  | .hbm, ⟨23, _⟩ => ⟨S_, .i32⟩
  | .hbm, ⟨24, _⟩ => ⟨S800000, .i32⟩
  | .hbm, ⟨25, _⟩ => ⟨S800000, .i1⟩
  | .hbm, ⟨26, _⟩ => ⟨S_, .i32⟩
  | .hbm, ⟨27, _⟩ => ⟨S800000, .i32⟩
  | .hbm, ⟨28, _⟩ => ⟨S800000, .i32⟩
  | .hbm, ⟨29, _⟩ => ⟨S800000, .i32⟩
  | .hbm, ⟨30, _⟩ => ⟨S800000x1, .i32⟩
  | .hbm, ⟨31, _⟩ => ⟨S800000, .f32⟩
  | .hbm, ⟨32, _⟩ => ⟨S_, .i32⟩
  | .hbm, ⟨33, _⟩ => ⟨S800000, .i32⟩
  | .hbm, ⟨34, _⟩ => ⟨S800000, .i1⟩
  | .hbm, ⟨35, _⟩ => ⟨S_, .i32⟩
  | .hbm, ⟨36, _⟩ => ⟨S800000, .i32⟩
  | .hbm, ⟨37, _⟩ => ⟨S800000, .i32⟩
  | .hbm, ⟨38, _⟩ => ⟨S800000, .i32⟩
  | .hbm, ⟨39, _⟩ => ⟨S800000x1, .i32⟩
  | .hbm, ⟨40, _⟩ => ⟨S800000, .f32⟩
  | .hbm, ⟨41, _⟩ => ⟨S800000, .f32⟩
  | .hbm, ⟨42, _⟩ => ⟨S50000, .f32⟩
  | .hbm, ⟨43, _⟩ => ⟨S50000x64, .f32⟩
  | .hbm, ⟨44, _⟩ => ⟨S_, .i32⟩
  | .hbm, ⟨45, _⟩ => ⟨S800000, .i32⟩
  | .hbm, ⟨46, _⟩ => ⟨S800000, .i1⟩
  | .hbm, ⟨47, _⟩ => ⟨S_, .i32⟩
  | .hbm, ⟨48, _⟩ => ⟨S800000, .i32⟩
  | .hbm, ⟨49, _⟩ => ⟨S800000, .i32⟩
  | .hbm, ⟨50, _⟩ => ⟨S800000, .i32⟩
  | .hbm, ⟨51, _⟩ => ⟨S800000x1, .i32⟩
  | .hbm, ⟨52, _⟩ => ⟨S800000x64, .f32⟩
  | .hbm, ⟨53, _⟩ => ⟨S800000x1, .f32⟩
  | .hbm, ⟨54, _⟩ => ⟨S800000x64, .f32⟩
  | .hbm, ⟨55, _⟩ => ⟨S800000x64, .f32⟩
  | .hbm, ⟨56, _⟩ => ⟨S_, .f32⟩
  | .hbm, ⟨57, _⟩ => ⟨S50000x64, .f32⟩
  | .hbm, ⟨58, _⟩ => ⟨S800000x1, .i32⟩
  | .hbm, ⟨59, _⟩ => ⟨S50000x64, .f32⟩
  | .hbm, ⟨60, _⟩ => ⟨S50000x1, .f32⟩
  | .hbm, ⟨61, _⟩ => ⟨S1x64, .f32⟩
  | .hbm, ⟨62, _⟩ => ⟨S50000x64, .f32⟩
  | .hbm, ⟨63, _⟩ => ⟨S50000x64, .f32⟩
  | .hbm, ⟨64, _⟩ => ⟨S_, .i32⟩
  | .hbm, ⟨65, _⟩ => ⟨S800000, .i32⟩
  | .hbm, ⟨66, _⟩ => ⟨S800000, .i1⟩
  | .hbm, ⟨67, _⟩ => ⟨S_, .i32⟩
  | .hbm, ⟨68, _⟩ => ⟨S800000, .i32⟩
  | .hbm, ⟨69, _⟩ => ⟨S800000, .i32⟩
  | .hbm, ⟨70, _⟩ => ⟨S800000, .i32⟩
  | .hbm, ⟨71, _⟩ => ⟨S800000x1, .i32⟩
  | .hbm, ⟨72, _⟩ => ⟨S800000x64, .f32⟩
  | .hbm, ⟨73, _⟩ => ⟨S800000x1, .f32⟩
  | .hbm, ⟨74, _⟩ => ⟨S800000x64, .f32⟩
  | .hbm, ⟨75, _⟩ => ⟨S800000x64, .f32⟩
  | .hbm, ⟨76, _⟩ => ⟨S_, .f32⟩
  | .hbm, ⟨77, _⟩ => ⟨S50000x64, .f32⟩
  | .hbm, ⟨78, _⟩ => ⟨S800000x1, .i32⟩
  | .hbm, ⟨79, _⟩ => ⟨S50000x64, .f32⟩
  | .hbm, ⟨80, _⟩ => ⟨S50000x1, .f32⟩
  | .hbm, ⟨81, _⟩ => ⟨S1x64, .f32⟩
  | .hbm, ⟨82, _⟩ => ⟨S50000x64, .f32⟩
  | .hbm, ⟨83, _⟩ => ⟨S50000x1, .f32⟩
  | .hbm, ⟨84, _⟩ => ⟨S_, .i32⟩
  | .hbm, ⟨85, _⟩ => ⟨S800000, .i32⟩
  | .hbm, ⟨86, _⟩ => ⟨S800000, .i1⟩
  | .hbm, ⟨87, _⟩ => ⟨S_, .i32⟩
  | .hbm, ⟨88, _⟩ => ⟨S800000, .i32⟩
  | .hbm, ⟨89, _⟩ => ⟨S800000, .i32⟩
  | .hbm, ⟨90, _⟩ => ⟨S800000, .i32⟩
  | .hbm, ⟨91, _⟩ => ⟨S800000x1, .i32⟩
  | .hbm, ⟨92, _⟩ => ⟨S800000x1, .f32⟩
  | .hbm, ⟨93, _⟩ => ⟨S800000x1, .f32⟩
  | .hbm, ⟨94, _⟩ => ⟨S800000x1, .f32⟩
  | .hbm, ⟨95, _⟩ => ⟨S_, .f32⟩
  | .hbm, ⟨96, _⟩ => ⟨S50000x1, .f32⟩
  | .hbm, ⟨97, _⟩ => ⟨S800000x1, .i32⟩
  | .hbm, ⟨98, _⟩ => ⟨S50000x1, .f32⟩
  | .hbm, ⟨99, _⟩ => ⟨S50000x1, .f32⟩
  | .hbm, ⟨100, _⟩ => ⟨S1x1, .f32⟩
  | .hbm, ⟨101, _⟩ => ⟨S50000x1, .f32⟩
  | .hbm, ⟨102, _⟩ => ⟨S_, .f32⟩
  | .hbm, ⟨103, _⟩ => ⟨S50000x1, .f32⟩
  | .hbm, ⟨104, _⟩ => ⟨S50000x1, .f32⟩
  | .local _ .vmem, ⟨0, _⟩ => ⟨S10000x64, .f32⟩
  | .local _ .vmem, ⟨1, _⟩ => ⟨S10000x64, .f32⟩
  | .local _ .vmem, ⟨2, _⟩ => ⟨S64x64, .f32⟩
  | .local _ .vmem, ⟨3, _⟩ => ⟨S10000x64, .f32⟩
  | .local _ .vmem, ⟨4, _⟩ => ⟨S10000x64, .f32⟩
  | .local _ .vmem, ⟨5, _⟩ => ⟨S10000x64, .f32⟩
  | .local _ .vmem, ⟨6, _⟩ => ⟨S10000x64, .f32⟩
  | .local _ .vmem, ⟨7, _⟩ => ⟨S10000x64, .f32⟩
  | .local _ .vmem, ⟨8, _⟩ => ⟨S10000x64, .f32⟩
  | .local _ .vmem, ⟨9, _⟩ => ⟨S10000x1, .f32⟩
  | .local _ .vmem, ⟨10, _⟩ => ⟨S10000x1, .f32⟩
  | .local _ .vmem, ⟨11, _⟩ => ⟨S1x64, .f32⟩
  | .local _ .vmem, ⟨12, _⟩ => ⟨S10000x64, .f32⟩
  | .local _ .vmem, ⟨13, _⟩ => ⟨S10000x64, .f32⟩
  | .local _ .vmem, ⟨14, _⟩ => ⟨S10000x64, .f32⟩
  | .local _ .vmem, ⟨15, _⟩ => ⟨S10000x64, .f32⟩
  | .local _ .vmem, ⟨16, _⟩ => ⟨S64x64, .f32⟩
  | .local _ .vmem, ⟨17, _⟩ => ⟨S10000x64, .f32⟩
  | .local _ .vmem, ⟨18, _⟩ => ⟨S10000x64, .f32⟩
  | .local _ .vmem, ⟨19, _⟩ => ⟨S10000x64, .f32⟩
  | .local _ .vmem, ⟨20, _⟩ => ⟨S10000x64, .f32⟩
  | .local _ .vmem, ⟨21, _⟩ => ⟨S10000x64, .f32⟩
  | .local _ .vmem, ⟨22, _⟩ => ⟨S10000x64, .f32⟩
  | .local _ .vmem, ⟨23, _⟩ => ⟨S10000x1, .f32⟩
  | .local _ .vmem, ⟨24, _⟩ => ⟨S10000x1, .f32⟩
  | .local _ .vmem, ⟨25, _⟩ => ⟨S1x64, .f32⟩
  | .local _ .vmem, ⟨26, _⟩ => ⟨S10000x64, .f32⟩
  | .local _ .vmem, ⟨27, _⟩ => ⟨S10000x64, .f32⟩
  | .local _ .vmem, ⟨28, _⟩ => ⟨S10000x64, .f32⟩
  | .local _ .vmem, ⟨29, _⟩ => ⟨S10000x64, .f32⟩
  | .local _ .vmem, ⟨30, _⟩ => ⟨S64x1, .f32⟩
  | .local _ .vmem, ⟨31, _⟩ => ⟨S10000x1, .f32⟩
  | .local _ .vmem, ⟨32, _⟩ => ⟨S10000x1, .f32⟩
  | .local _ .vmem, ⟨33, _⟩ => ⟨S10000x1, .f32⟩
  | .local _ .vmem, ⟨34, _⟩ => ⟨S10000x1, .f32⟩
  | .local _ .vmem, ⟨35, _⟩ => ⟨S10000x1, .f32⟩
  | .local _ .vmem, ⟨36, _⟩ => ⟨S10000x1, .f32⟩
  | .local _ .vmem, ⟨37, _⟩ => ⟨S10000x1, .f32⟩
  | .local _ .vmem, ⟨38, _⟩ => ⟨S10000x1, .f32⟩
  | .local _ .vmem, ⟨39, _⟩ => ⟨S1x1, .f32⟩
  | .local _ .vmem, ⟨40, _⟩ => ⟨S10000x1, .f32⟩
  | .local _ .vmem, ⟨41, _⟩ => ⟨S10000x1, .f32⟩
  | _, _ => ⟨S50000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | _, _ => false

abbrev semScoped : Fin 0 → Bool
  | ⟨_, h⟩ => absurd h (Nat.not_lt_zero _)

abbrev dmaSemScoped : Fin 42 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | _ => false

abbrev sig : RefSig :=
  ofTc nBuf bufTy 0 42 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_cst : Ref sig .tc := ⟨.hbm, 13, rfl⟩
abbrev main_v4 : Ref sig .tc := ⟨.hbm, 14, rfl⟩
abbrev main_cst_0 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_cst_1 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_c : Ref sig .tc := ⟨.hbm, 23, rfl⟩
abbrev main_v11 : Ref sig .tc := ⟨.hbm, 24, rfl⟩
abbrev main_v12 : Ref sig .tc := ⟨.hbm, 25, rfl⟩
abbrev main_c_2 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_c_3 : Ref sig .tc := ⟨.hbm, 32, rfl⟩
abbrev main_v18 : Ref sig .tc := ⟨.hbm, 33, rfl⟩
abbrev main_v19 : Ref sig .tc := ⟨.hbm, 34, rfl⟩
abbrev main_c_4 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_c_5 : Ref sig .tc := ⟨.hbm, 44, rfl⟩
abbrev main_v28 : Ref sig .tc := ⟨.hbm, 45, rfl⟩
abbrev main_v29 : Ref sig .tc := ⟨.hbm, 46, rfl⟩
abbrev main_c_6 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_cst_7 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_c_8 : Ref sig .tc := ⟨.hbm, 64, rfl⟩
abbrev main_v45 : Ref sig .tc := ⟨.hbm, 65, rfl⟩
abbrev main_v46 : Ref sig .tc := ⟨.hbm, 66, rfl⟩
abbrev main_c_9 : Ref sig .tc := ⟨.hbm, 67, rfl⟩
abbrev main_v47 : Ref sig .tc := ⟨.hbm, 68, rfl⟩
abbrev main_v48 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev main_v52 : Ref sig .tc := ⟨.hbm, 73, rfl⟩
abbrev main_v53 : Ref sig .tc := ⟨.hbm, 74, rfl⟩
abbrev main_v54 : Ref sig .tc := ⟨.hbm, 75, rfl⟩
abbrev main_cst_10 : Ref sig .tc := ⟨.hbm, 76, rfl⟩
abbrev main_v55 : Ref sig .tc := ⟨.hbm, 77, rfl⟩
abbrev main_v56 : Ref sig .tc := ⟨.hbm, 78, rfl⟩
abbrev main_v57 : Ref sig .tc := ⟨.hbm, 79, rfl⟩
abbrev main_v58 : Ref sig .tc := ⟨.hbm, 80, rfl⟩
abbrev main_v59 : Ref sig .tc := ⟨.hbm, 81, rfl⟩
abbrev main_v60 : Ref sig .tc := ⟨.hbm, 82, rfl⟩
abbrev main_v61 : Ref sig .tc := ⟨.hbm, 83, rfl⟩
abbrev main_c_11 : Ref sig .tc := ⟨.hbm, 84, rfl⟩
abbrev main_v62 : Ref sig .tc := ⟨.hbm, 85, rfl⟩
abbrev main_v63 : Ref sig .tc := ⟨.hbm, 86, rfl⟩
abbrev main_c_12 : Ref sig .tc := ⟨.hbm, 87, rfl⟩
abbrev main_v64 : Ref sig .tc := ⟨.hbm, 88, rfl⟩
abbrev main_v65 : Ref sig .tc := ⟨.hbm, 89, rfl⟩
abbrev main_v66 : Ref sig .tc := ⟨.hbm, 90, rfl⟩
abbrev main_v67 : Ref sig .tc := ⟨.hbm, 91, rfl⟩
abbrev main_v68 : Ref sig .tc := ⟨.hbm, 92, rfl⟩
abbrev main_v69 : Ref sig .tc := ⟨.hbm, 93, rfl⟩
abbrev main_v70 : Ref sig .tc := ⟨.hbm, 94, rfl⟩
abbrev main_cst_13 : Ref sig .tc := ⟨.hbm, 95, rfl⟩
abbrev main_v71 : Ref sig .tc := ⟨.hbm, 96, rfl⟩
abbrev main_v72 : Ref sig .tc := ⟨.hbm, 97, rfl⟩
abbrev main_v73 : Ref sig .tc := ⟨.hbm, 98, rfl⟩
abbrev main_v74 : Ref sig .tc := ⟨.hbm, 99, rfl⟩
abbrev main_v75 : Ref sig .tc := ⟨.hbm, 100, rfl⟩
abbrev main_v76 : Ref sig .tc := ⟨.hbm, 101, rfl⟩
abbrev main_cst_14 : Ref sig .tc := ⟨.hbm, 102, rfl⟩
abbrev main_v77 : Ref sig .tc := ⟨.hbm, 103, rfl⟩
abbrev main_v78 : Ref sig .tc := ⟨.hbm, 104, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg1_1 : Ref sig .tc := ⟨.vmem, 8, rfl⟩
abbrev cc1_stg2_0 : Ref sig .tc := ⟨.vmem, 9, rfl⟩
abbrev cc1_stg2_1 : Ref sig .tc := ⟨.vmem, 10, rfl⟩
abbrev cc1_stg3_0 : Ref sig .tc := ⟨.vmem, 11, rfl⟩
abbrev cc1_stg4_0 : Ref sig .tc := ⟨.vmem, 12, rfl⟩
abbrev cc1_stg4_1 : Ref sig .tc := ⟨.vmem, 13, rfl⟩
abbrev cc2_stg0_0 : Ref sig .tc := ⟨.vmem, 14, rfl⟩
abbrev cc2_stg0_1 : Ref sig .tc := ⟨.vmem, 15, rfl⟩
abbrev cc2_stg1_0 : Ref sig .tc := ⟨.vmem, 16, rfl⟩
abbrev cc2_stg2_0 : Ref sig .tc := ⟨.vmem, 17, rfl⟩
abbrev cc2_stg2_1 : Ref sig .tc := ⟨.vmem, 18, rfl⟩
abbrev cc3_stg0_0 : Ref sig .tc := ⟨.vmem, 19, rfl⟩
abbrev cc3_stg0_1 : Ref sig .tc := ⟨.vmem, 20, rfl⟩
abbrev cc3_stg1_0 : Ref sig .tc := ⟨.vmem, 21, rfl⟩
abbrev cc3_stg1_1 : Ref sig .tc := ⟨.vmem, 22, rfl⟩
abbrev cc3_stg2_0 : Ref sig .tc := ⟨.vmem, 23, rfl⟩
abbrev cc3_stg2_1 : Ref sig .tc := ⟨.vmem, 24, rfl⟩
abbrev cc3_stg3_0 : Ref sig .tc := ⟨.vmem, 25, rfl⟩
abbrev cc3_stg4_0 : Ref sig .tc := ⟨.vmem, 26, rfl⟩
abbrev cc3_stg4_1 : Ref sig .tc := ⟨.vmem, 27, rfl⟩
abbrev cc4_stg0_0 : Ref sig .tc := ⟨.vmem, 28, rfl⟩
abbrev cc4_stg0_1 : Ref sig .tc := ⟨.vmem, 29, rfl⟩
abbrev cc4_stg1_0 : Ref sig .tc := ⟨.vmem, 30, rfl⟩
abbrev cc4_stg2_0 : Ref sig .tc := ⟨.vmem, 31, rfl⟩
abbrev cc4_stg2_1 : Ref sig .tc := ⟨.vmem, 32, rfl⟩
abbrev cc5_stg0_0 : Ref sig .tc := ⟨.vmem, 33, rfl⟩
abbrev cc5_stg0_1 : Ref sig .tc := ⟨.vmem, 34, rfl⟩
abbrev cc5_stg1_0 : Ref sig .tc := ⟨.vmem, 35, rfl⟩
abbrev cc5_stg1_1 : Ref sig .tc := ⟨.vmem, 36, rfl⟩
abbrev cc5_stg2_0 : Ref sig .tc := ⟨.vmem, 37, rfl⟩
abbrev cc5_stg2_1 : Ref sig .tc := ⟨.vmem, 38, rfl⟩
abbrev cc5_stg3_0 : Ref sig .tc := ⟨.vmem, 39, rfl⟩
abbrev cc5_stg4_0 : Ref sig .tc := ⟨.vmem, 40, rfl⟩
abbrev cc5_stg4_1 : Ref sig .tc := ⟨.vmem, 41, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem1_1 : DmaSem sig := 8
abbrev cc1_sem2_0 : DmaSem sig := 9
abbrev cc1_sem2_1 : DmaSem sig := 10
abbrev cc1_sem3_0 : DmaSem sig := 11
abbrev cc1_sem4_0 : DmaSem sig := 12
abbrev cc1_sem4_1 : DmaSem sig := 13
abbrev cc2_sem0_0 : DmaSem sig := 14
abbrev cc2_sem0_1 : DmaSem sig := 15
abbrev cc2_sem1_0 : DmaSem sig := 16
abbrev cc2_sem2_0 : DmaSem sig := 17
abbrev cc2_sem2_1 : DmaSem sig := 18
abbrev cc3_sem0_0 : DmaSem sig := 19
abbrev cc3_sem0_1 : DmaSem sig := 20
abbrev cc3_sem1_0 : DmaSem sig := 21
abbrev cc3_sem1_1 : DmaSem sig := 22
abbrev cc3_sem2_0 : DmaSem sig := 23
abbrev cc3_sem2_1 : DmaSem sig := 24
abbrev cc3_sem3_0 : DmaSem sig := 25
abbrev cc3_sem4_0 : DmaSem sig := 26
abbrev cc3_sem4_1 : DmaSem sig := 27
abbrev cc4_sem0_0 : DmaSem sig := 28
abbrev cc4_sem0_1 : DmaSem sig := 29
abbrev cc4_sem1_0 : DmaSem sig := 30
abbrev cc4_sem2_0 : DmaSem sig := 31
abbrev cc4_sem2_1 : DmaSem sig := 32
abbrev cc5_sem0_0 : DmaSem sig := 33
abbrev cc5_sem0_1 : DmaSem sig := 34
abbrev cc5_sem1_0 : DmaSem sig := 35
abbrev cc5_sem1_1 : DmaSem sig := 36
abbrev cc5_sem2_0 : DmaSem sig := 37
abbrev cc5_sem2_1 : DmaSem sig := 38
abbrev cc5_sem3_0 : DmaSem sig := 39
abbrev cc5_sem4_0 : DmaSem sig := 40
abbrev cc5_sem4_1 : DmaSem sig := 41

abbrev nD : Nat := 1
abbrev τ : Topo := Topo.v7x

variable {F : FTy → Type} [FloatOps F]

abbrev grid0 : Pipeline.Grid := ⟨1, ![5], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S10000x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S64x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S10000x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![5], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S10000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S10000x64 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S10000x1 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S1x64 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 2 → Memref sig .tc .vmem S10000x64 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev grid2 : Pipeline.Grid := ⟨1, ![5], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S10000x64 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S64x64 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S10000x64 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev grid3 : Pipeline.Grid := ⟨1, ![5], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S10000x64 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S10000x64 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 2 → Memref sig .tc .vmem S10000x1 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev stage3_3 : Fin 1 → Memref sig .tc .vmem S1x64 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 2 → Memref sig .tc .vmem S10000x64 .f32 := fun | 0 => Memref.whole cc3_stg4_0 | 1 => Memref.whole cc3_stg4_1 | ⟨_ + 2, h⟩ => absurd h (Nat.not_lt.2 (Nat.le_add_left _ _))
abbrev sem3_4 : Fin 2 → DmaSem sig := fun | 0 => cc3_sem4_0 | 1 => cc3_sem4_1 | ⟨_ + 2, h⟩ => absurd h (Nat.not_lt.2 (Nat.le_add_left _ _))
abbrev reads3_4 : Fin grid3.rank → Bool := ![true]

abbrev grid4 : Pipeline.Grid := ⟨1, ![5], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_2 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S10000x64 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 1 → Memref sig .tc .vmem S64x1 .f32 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 2 → Memref sig .tc .vmem S10000x1 .f32 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true]

abbrev grid5 : Pipeline.Grid := ⟨1, ![5], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_2 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_3 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_4 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S10000x1 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 2 → Memref sig .tc .vmem S10000x1 .f32 := fun | 0 => Memref.whole cc5_stg1_0 | 1 => Memref.whole cc5_stg1_1 | ⟨_ + 2, h⟩ => absurd h (Nat.not_lt.2 (Nat.le_add_left _ _))
abbrev sem5_1 : Fin 2 → DmaSem sig := fun | 0 => cc5_sem1_0 | 1 => cc5_sem1_1 | ⟨_ + 2, h⟩ => absurd h (Nat.not_lt.2 (Nat.le_add_left _ _))
abbrev reads5_1 : Fin grid5.rank → Bool := ![true]

abbrev stage5_2 : Fin 2 → Memref sig .tc .vmem S10000x1 .f32 := fun | 0 => Memref.whole cc5_stg2_0 | 1 => Memref.whole cc5_stg2_1 | ⟨_ + 2, h⟩ => absurd h (Nat.not_lt.2 (Nat.le_add_left _ _))
abbrev sem5_2 : Fin 2 → DmaSem sig := fun | 0 => cc5_sem2_0 | 1 => cc5_sem2_1 | ⟨_ + 2, h⟩ => absurd h (Nat.not_lt.2 (Nat.le_add_left _ _))
abbrev reads5_2 : Fin grid5.rank → Bool := ![true]

abbrev stage5_3 : Fin 1 → Memref sig .tc .vmem S1x1 .f32 := fun | 0 => Memref.whole cc5_stg3_0 | ⟨_ + 1, h⟩ => absurd h (Nat.not_lt.2 (Nat.le_add_left _ _))
abbrev sem5_3 : Fin 1 → DmaSem sig := fun | 0 => cc5_sem3_0 | ⟨_ + 1, h⟩ => absurd h (Nat.not_lt.2 (Nat.le_add_left _ _))
abbrev reads5_3 : Fin grid5.rank → Bool := ![false]

abbrev stage5_4 : Fin 2 → Memref sig .tc .vmem S10000x1 .f32 := fun | 0 => Memref.whole cc5_stg4_0 | 1 => Memref.whole cc5_stg4_1 | ⟨_ + 2, h⟩ => absurd h (Nat.not_lt.2 (Nat.le_add_left _ _))
abbrev sem5_4 : Fin 2 → DmaSem sig := fun | 0 => cc5_sem4_0 | 1 => cc5_sem4_1 | ⟨_ + 2, h⟩ => absurd h (Nat.not_lt.2 (Nat.le_add_left _ _))
abbrev reads5_4 : Fin grid5.rank → Bool := ![true]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S_S50000 : S_.BroadcastsInDim S50000 (![] : Fin 0 → Fin S50000.rank)
  bcast_S800000_S800000x1_0 : S800000.BroadcastsInDim S800000x1 (![0] : Fin 1 → Fin S800000x1.rank)
  inb_S10000x64_S10000x64_0_0 : ∀ a, (![0, 0] : Fin 2 → Nat) a + S10000x64.size a ≤ S10000x64.size a
  h_S10000x64 : 0 < S10000x64.numel
  bitsLt_bf16_f32 : FTy.bits .bf16 < FTy.bits .f32
  inb_S64x64_S64x64_0_0 : ∀ a, (![0, 0] : Fin 2 → Nat) a + S64x64.size a ≤ S64x64.size a
  h_S64x64 : 0 < S64x64.numel
  bcast_S800000x1_S800000x64_0_1 : S800000x1.BroadcastsInDim S800000x64 (![0, 1] : Fin 2 → Fin S800000x64.rank)
  bcast_S_S50000x64 : S_.BroadcastsInDim S50000x64 (![] : Fin 0 → Fin S50000x64.rank)
  shapeCasts_S50000_S50000x1 : S50000.ShapeCasts S50000x1
  shapeCasts_S64_S1x64 : S64.ShapeCasts S1x64
  shapeCasts_S10000x64_S10000x64 : S10000x64.ShapeCasts S10000x64
  inb_S10000x1_S10000x1_0_0 : ∀ a, (![0, 0] : Fin 2 → Nat) a + S10000x1.size a ≤ S10000x1.size a
  h_S10000x1 : 0 < S10000x1.numel
  shapeCasts_S10000x1_S10000x1 : S10000x1.ShapeCasts S10000x1
  broadcasts_S10000x1_S10000x64 : S10000x1.Broadcasts S10000x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S10000x64 : S1x64.Broadcasts S10000x64
  inb_S64x1_S64x1_0_0 : ∀ a, (![0, 0] : Fin 2 → Nat) a + S64x1.size a ≤ S64x1.size a
  h_S64x1 : 0 < S64x1.numel
  bcast_S_S50000x1 : S_.BroadcastsInDim S50000x1 (![] : Fin 0 → Fin S50000x1.rank)
  shapeCasts_S1_S1x1 : S1.ShapeCasts S1x1
  inb_S1x1_S1x1_0_0 : ∀ a, (![0, 0] : Fin 2 → Nat) a + S1x1.size a ≤ S1x1.size a
  h_S1x1 : 0 < S1x1.numel
  shapeCasts_S1x1_S1x1 : S1x1.ShapeCasts S1x1
  broadcasts_S1x1_S10000x1 : S1x1.Broadcasts S10000x1
  scatter_S50000_S800000x1_S800000_n_0_0_1_wf : ScatterDims.WF S50000 S800000x1 S800000 [] [0] [0] 1
  gather_S50000_S800000x1_S800000_n_0_n_n_0_1_1_wf : GatherDims.WF S50000 S800000x1 S800000 [] [0] [] [0] [] 1 ![1]
  dot_S10000x64_S64x64_S10000x64_1_0_0_1_n_n_wf : DotDims.WF S10000x64 S64x64 S10000x64 [1] [0] [0] [1] [] []
  gather_S50000x64_S800000x1_S800000x64_1_0_n_n_0_1_164_wf : GatherDims.WF S50000x64 S800000x1 S800000x64 [1] [0] [] [0] [] 1 ![1, 64]
  scatter_S50000x64_S800000x1_S800000x64_1_0_0_1_wf : ScatterDims.WF S50000x64 S800000x1 S800000x64 [1] [0] [0] 1
  dot_S10000x64_S64x1_S10000x1_1_0_0_1_n_n_wf : DotDims.WF S10000x64 S64x1 S10000x1 [1] [0] [0] [1] [] []
  gather_S50000x1_S800000x1_S800000x1_1_0_n_n_0_1_11_wf : GatherDims.WF S50000x1 S800000x1 S800000x1 [1] [0] [] [0] [] 1 ![1, 1]
  scatter_S50000x1_S800000x1_S800000x1_1_0_0_1_wf : ScatterDims.WF S50000x1 S800000x1 S800000x1 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S10000x64.size a ≤ S50000x64.size a
  hwx0_0 : ∀ i : grid0.Coords, EltTy.bits .f32 = 32 ∨ (Rect.block (s := S50000x64) S10000x64.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S64x64.size a ≤ S64x64.size a
  hwx0_1 : ∀ i : grid0.Coords, EltTy.bits .f32 = 32 ∨ (Rect.block (s := S64x64) S64x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S10000x64.size a ≤ S50000x64.size a
  hwx0_2 : ∀ i : grid0.Coords, EltTy.bits .f32 = 32 ∨ (Rect.block (s := S50000x64) S10000x64.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S10000x64.size a ≤ S50000x64.size a
  hwx1_0 : ∀ i : grid1.Coords, EltTy.bits .f32 = 32 ∨ (Rect.block (s := S50000x64) S10000x64.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S10000x64.size a ≤ S50000x64.size a
  hwx1_1 : ∀ i : grid1.Coords, EltTy.bits .f32 = 32 ∨ (Rect.block (s := S50000x64) S10000x64.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S10000x1.size a ≤ S50000x1.size a
  hwx1_2 : ∀ i : grid1.Coords, EltTy.bits .f32 = 32 ∨ (Rect.block (s := S50000x1) S10000x1.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x64.size a ≤ S1x64.size a
  hwx1_3 : ∀ i : grid1.Coords, EltTy.bits .f32 = 32 ∨ (Rect.block (s := S1x64) S1x64.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S10000x64.size a ≤ S50000x64.size a
  hwx1_4 : ∀ i : grid1.Coords, EltTy.bits .f32 = 32 ∨ (Rect.block (s := S50000x64) S10000x64.size (cc1_transform_4 i) (hinb1_4 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S10000x64.size a ≤ S50000x64.size a
  hwx2_0 : ∀ i : grid2.Coords, EltTy.bits .f32 = 32 ∨ (Rect.block (s := S50000x64) S10000x64.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S64x64.size a ≤ S64x64.size a
  hwx2_1 : ∀ i : grid2.Coords, EltTy.bits .f32 = 32 ∨ (Rect.block (s := S64x64) S64x64.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S10000x64.size a ≤ S50000x64.size a
  hwx2_2 : ∀ i : grid2.Coords, EltTy.bits .f32 = 32 ∨ (Rect.block (s := S50000x64) S10000x64.size (cc2_transform_2 i) (hinb2_2 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S10000x64.size a ≤ S50000x64.size a
  hwx3_0 : ∀ i : grid3.Coords, EltTy.bits .f32 = 32 ∨ (Rect.block (s := S50000x64) S10000x64.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S10000x64.size a ≤ S50000x64.size a
  hwx3_1 : ∀ i : grid3.Coords, EltTy.bits .f32 = 32 ∨ (Rect.block (s := S50000x64) S10000x64.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S10000x1.size a ≤ S50000x1.size a
  hwx3_2 : ∀ i : grid3.Coords, EltTy.bits .f32 = 32 ∨ (Rect.block (s := S50000x1) S10000x1.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S1x64.size a ≤ S1x64.size a
  hwx3_3 : ∀ i : grid3.Coords, EltTy.bits .f32 = 32 ∨ (Rect.block (s := S1x64) S1x64.size (cc3_transform_3 i) (hinb3_3 i)).WholeWords (EltTy.packing .f32)
  hstage3_4 : ∀ j, (stage3_4 j).IsWhole
  nbuf3_4 : grid3.bufCount reads3_4 false = 2
  hreads3_4 : ∀ i i' : grid3.Coords, (∀ a, reads3_4 a = true → i a = i' a) → cc3_transform_4 i = cc3_transform_4 i'
  hinb3_4 : ∀ (i : grid3.Coords) a, (cc3_transform_4 i a + 1) * S10000x64.size a ≤ S50000x64.size a
  hwx3_4 : ∀ i : grid3.Coords, EltTy.bits .f32 = 32 ∨ (Rect.block (s := S50000x64) S10000x64.size (cc3_transform_4 i) (hinb3_4 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S10000x64.size a ≤ S50000x64.size a
  hwx4_0 : ∀ i : grid4.Coords, EltTy.bits .f32 = 32 ∨ (Rect.block (s := S50000x64) S10000x64.size (cc4_transform_0 i) (hinb4_0 i)).WholeWords (EltTy.packing .f32)
  hstage4_1 : ∀ j, (stage4_1 j).IsWhole
  nbuf4_1 : grid4.bufCount reads4_1 true = 1
  hreads4_1 : ∀ i i' : grid4.Coords, (∀ a, reads4_1 a = true → i a = i' a) → cc4_transform_1 i = cc4_transform_1 i'
  hinb4_1 : ∀ (i : grid4.Coords) a, (cc4_transform_1 i a + 1) * S64x1.size a ≤ S64x1.size a
  hwx4_1 : ∀ i : grid4.Coords, EltTy.bits .f32 = 32 ∨ (Rect.block (s := S64x1) S64x1.size (cc4_transform_1 i) (hinb4_1 i)).WholeWords (EltTy.packing .f32)
  hstage4_2 : ∀ j, (stage4_2 j).IsWhole
  nbuf4_2 : grid4.bufCount reads4_2 false = 2
  hreads4_2 : ∀ i i' : grid4.Coords, (∀ a, reads4_2 a = true → i a = i' a) → cc4_transform_2 i = cc4_transform_2 i'
  hinb4_2 : ∀ (i : grid4.Coords) a, (cc4_transform_2 i a + 1) * S10000x1.size a ≤ S50000x1.size a
  hwx4_2 : ∀ i : grid4.Coords, EltTy.bits .f32 = 32 ∨ (Rect.block (s := S50000x1) S10000x1.size (cc4_transform_2 i) (hinb4_2 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S10000x1.size a ≤ S50000x1.size a
  hwx5_0 : ∀ i : grid5.Coords, EltTy.bits .f32 = 32 ∨ (Rect.block (s := S50000x1) S10000x1.size (cc5_transform_0 i) (hinb5_0 i)).WholeWords (EltTy.packing .f32)
  hstage5_1 : ∀ j, (stage5_1 j).IsWhole
  nbuf5_1 : grid5.bufCount reads5_1 false = 2
  hreads5_1 : ∀ i i' : grid5.Coords, (∀ a, reads5_1 a = true → i a = i' a) → cc5_transform_1 i = cc5_transform_1 i'
  hinb5_1 : ∀ (i : grid5.Coords) a, (cc5_transform_1 i a + 1) * S10000x1.size a ≤ S50000x1.size a
  hwx5_1 : ∀ i : grid5.Coords, EltTy.bits .f32 = 32 ∨ (Rect.block (s := S50000x1) S10000x1.size (cc5_transform_1 i) (hinb5_1 i)).WholeWords (EltTy.packing .f32)
  hstage5_2 : ∀ j, (stage5_2 j).IsWhole
  nbuf5_2 : grid5.bufCount reads5_2 false = 2
  hreads5_2 : ∀ i i' : grid5.Coords, (∀ a, reads5_2 a = true → i a = i' a) → cc5_transform_2 i = cc5_transform_2 i'
  hinb5_2 : ∀ (i : grid5.Coords) a, (cc5_transform_2 i a + 1) * S10000x1.size a ≤ S50000x1.size a
  hwx5_2 : ∀ i : grid5.Coords, EltTy.bits .f32 = 32 ∨ (Rect.block (s := S50000x1) S10000x1.size (cc5_transform_2 i) (hinb5_2 i)).WholeWords (EltTy.packing .f32)
  hstage5_3 : ∀ j, (stage5_3 j).IsWhole
  nbuf5_3 : grid5.bufCount reads5_3 true = 1
  hreads5_3 : ∀ i i' : grid5.Coords, (∀ a, reads5_3 a = true → i a = i' a) → cc5_transform_3 i = cc5_transform_3 i'
  hinb5_3 : ∀ (i : grid5.Coords) a, (cc5_transform_3 i a + 1) * S1x1.size a ≤ S1x1.size a
  hwx5_3 : ∀ i : grid5.Coords, EltTy.bits .f32 = 32 ∨ (Rect.block (s := S1x1) S1x1.size (cc5_transform_3 i) (hinb5_3 i)).WholeWords (EltTy.packing .f32)
  hstage5_4 : ∀ j, (stage5_4 j).IsWhole
  nbuf5_4 : grid5.bufCount reads5_4 false = 2
  hreads5_4 : ∀ i i' : grid5.Coords, (∀ a, reads5_4 a = true → i a = i' a) → cc5_transform_4 i = cc5_transform_4 i'
  hinb5_4 : ∀ (i : grid5.Coords) a, (cc5_transform_4 i a + 1) * S10000x1.size a ≤ S50000x1.size a
  hwx5_4 : ∀ i : grid5.Coords, EltTy.bits .f32 = 32 ∨ (Rect.block (s := S50000x1) S10000x1.size (cc5_transform_4 i) (hinb5_4 i)).WholeWords (EltTy.packing .f32)

variable [Facts₀]

def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def gather_S50000_S800000x1_S800000_n_0_n_n_0_1_1 : GatherDims S50000 S800000x1 S800000 where
  offsetDims := []
  collapsedSliceDims := [0]
  operandBatchingDims := []
  startIndicesBatchingDims := []
  startIndexMap := [0]
  indexVectorDim := 1
  sliceSizes := ![1]
  wf := gather_S50000_S800000x1_S800000_n_0_n_n_0_1_1_wf
def dot_S10000x64_S64x64_S10000x64_1_0_0_1_n_n : DotDims S10000x64 S64x64 S10000x64 where
  lhsContracting := [1]
  rhsContracting := [0]
  lhsNonContracting := [0]
  rhsNonContracting := [1]
  lhsBatch := []
  rhsBatch := []
  wf := dot_S10000x64_S64x64_S10000x64_1_0_0_1_n_n_wf
def gather_S50000x64_S800000x1_S800000x64_1_0_n_n_0_1_164 : GatherDims S50000x64 S800000x1 S800000x64 where
  offsetDims := [1]
  collapsedSliceDims := [0]
  operandBatchingDims := []
  startIndicesBatchingDims := []
  startIndexMap := [0]
  indexVectorDim := 1
  sliceSizes := ![1, 64]
  wf := gather_S50000x64_S800000x1_S800000x64_1_0_n_n_0_1_164_wf
def scatter_S50000x64_S800000x1_S800000x64_1_0_0_1 : ScatterDims S50000x64 S800000x1 S800000x64 where
  updateWindowDims := [1]
  insertedWindowDims := [0]
  scatterDimsToOperandDims := [0]
  indexVectorDim := 1
  wf := scatter_S50000x64_S800000x1_S800000x64_1_0_0_1_wf
def dot_S10000x64_S64x1_S10000x1_1_0_0_1_n_n : DotDims S10000x64 S64x1 S10000x1 where
  lhsContracting := [1]
  rhsContracting := [0]
  lhsNonContracting := [0]
  rhsNonContracting := [1]
  lhsBatch := []
  rhsBatch := []
  wf := dot_S10000x64_S64x1_S10000x1_1_0_0_1_n_n_wf
def gather_S50000x1_S800000x1_S800000x1_1_0_n_n_0_1_11 : GatherDims S50000x1 S800000x1 S800000x1 where
  offsetDims := [1]
  collapsedSliceDims := [0]
  operandBatchingDims := []
  startIndicesBatchingDims := []
  startIndexMap := [0]
  indexVectorDim := 1
  sliceSizes := ![1, 1]
  wf := gather_S50000x1_S800000x1_S800000x1_1_0_n_n_0_1_11_wf
def scatter_S50000x1_S800000x1_S800000x1_1_0_0_1 : ScatterDims S50000x1 S800000x1 S800000x1 where
  updateWindowDims := [1]
  insertedWindowDims := [0]
  scatterDimsToOperandDims := [0]
  indexVectorDim := 1
  wf := scatter_S50000x1_S800000x1_S800000x1_1_0_0_1_wf

abbrev win0_0 : Pipeline.Window sig grid0 :=
  Pipeline.Window.ofSpec (Memref.whole main_arg0) S10000x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg3) S64x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v27) S10000x64.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v40) S10000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v27) S10000x64.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v41) S10000x1.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v42) S1x64.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v43) S10000x64.size cc1_transform_4 reads1_4 true false 2 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

abbrev win2_0 : Pipeline.Window sig grid2 :=
  Pipeline.Window.ofSpec (Memref.whole main_v43) S10000x64.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg5) S64x64.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v44) S10000x64.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev win3_0 : Pipeline.Window sig grid3 :=
  Pipeline.Window.ofSpec (Memref.whole main_v57) S10000x64.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v44) S10000x64.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v58) S10000x1.size cc3_transform_2 reads3_2 false false 2 stage3_2 sem3_2
    hrank3 hreads3_2 hinb3_2 nbuf3_2 (Memref.isWhole_whole _) hwx3_2 hstage3_2

abbrev win3_3 : Pipeline.Window sig grid3 :=
  Pipeline.Window.ofSpec (Memref.whole main_v59) S1x64.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_v60) S10000x64.size cc3_transform_4 reads3_4 true false 2 stage3_4 sem3_4
    hrank3 hreads3_4 hinb3_4 nbuf3_4 (Memref.isWhole_whole _) hwx3_4 hstage3_4

abbrev win3 : Fin 5 → Pipeline.Window sig grid3 := fun | 0 => win3_0 | 1 => win3_1 | 2 => win3_2 | 3 => win3_3 | 4 => win3_4 | ⟨_ + 5, h⟩ => absurd h (Nat.not_lt.2 (Nat.le_add_left _ _))
abbrev spec3 : Fin 5 → Pipeline.WinSpec sig grid3.rank := fun w => (win3 w).toWinSpec

abbrev win4_0 : Pipeline.Window sig grid4 :=
  Pipeline.Window.ofSpec (Memref.whole main_v60) S10000x64.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_arg7) S64x1.size cc4_transform_1 reads4_1 false true 1 stage4_1 sem4_1
    hrank4 hreads4_1 hinb4_1 nbuf4_1 (Memref.isWhole_whole _) hwx4_1 hstage4_1

abbrev win4_2 : Pipeline.Window sig grid4 :=
  Pipeline.Window.ofSpec (Memref.whole main_v61) S10000x1.size cc4_transform_2 reads4_2 true false 2 stage4_2 sem4_2
    hrank4 hreads4_2 hinb4_2 nbuf4_2 (Memref.isWhole_whole _) hwx4_2 hstage4_2

abbrev win4 : Fin 3 → Pipeline.Window sig grid4 := fun | 0 => win4_0 | 1 => win4_1 | 2 => win4_2 | ⟨_ + 3, h⟩ => absurd h (Nat.not_lt.2 (Nat.le_add_left _ _))
abbrev spec4 : Fin 3 → Pipeline.WinSpec sig grid4.rank := fun w => (win4 w).toWinSpec

abbrev win5_0 : Pipeline.Window sig grid5 :=
  Pipeline.Window.ofSpec (Memref.whole main_v73) S10000x1.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_v61) S10000x1.size cc5_transform_1 reads5_1 false false 2 stage5_1 sem5_1
    hrank5 hreads5_1 hinb5_1 nbuf5_1 (Memref.isWhole_whole _) hwx5_1 hstage5_1

abbrev win5_2 : Pipeline.Window sig grid5 :=
  Pipeline.Window.ofSpec (Memref.whole main_v74) S10000x1.size cc5_transform_2 reads5_2 false false 2 stage5_2 sem5_2
    hrank5 hreads5_2 hinb5_2 nbuf5_2 (Memref.isWhole_whole _) hwx5_2 hstage5_2

abbrev win5_3 : Pipeline.Window sig grid5 :=
  Pipeline.Window.ofSpec (Memref.whole main_v75) S1x1.size cc5_transform_3 reads5_3 false true 1 stage5_3 sem5_3
    hrank5 hreads5_3 hinb5_3 nbuf5_3 (Memref.isWhole_whole _) hwx5_3 hstage5_3

abbrev win5_4 : Pipeline.Window sig grid5 :=
  Pipeline.Window.ofSpec (Memref.whole main_v76) S10000x1.size cc5_transform_4 reads5_4 true false 2 stage5_4 sem5_4
    hrank5 hreads5_4 hinb5_4 nbuf5_4 (Memref.isWhole_whole _) hwx5_4 hstage5_4

abbrev win5 : Fin 5 → Pipeline.Window sig grid5 := fun | 0 => win5_0 | 1 => win5_1 | 2 => win5_2 | 3 => win5_3 | 4 => win5_4 | ⟨_ + 5, h⟩ => absurd h (Nat.not_lt.2 (Nat.le_add_left _ _))
abbrev spec5 : Fin 5 → Pipeline.WinSpec sig grid5.rank := fun w => (win5 w).toWinSpec

class Facts : Prop extends Facts₀ where

variable [Facts]
-- ==== ReferenceIdeal.lean ====
abbrev S50000x64 : Shape := ⟨2, ![50000, 64]⟩
abbrev S2x800000 : Shape := ⟨2, ![2, 800000]⟩
abbrev S50000 : Shape := ⟨1, ![50000]⟩
abbrev S64x64 : Shape := ⟨2, ![64, 64]⟩
abbrev S64 : Shape := ⟨1, ![64]⟩
abbrev S64x1 : Shape := ⟨2, ![64, 1]⟩
abbrev S1 : Shape := ⟨1, ![1]⟩
abbrev S1x800000 : Shape := ⟨2, ![1, 800000]⟩
abbrev S800000 : Shape := ⟨1, ![800000]⟩
abbrev S_ : Shape := ⟨0, ![]⟩
abbrev S800000x1 : Shape := ⟨2, ![800000, 1]⟩
abbrev S800000x64 : Shape := ⟨2, ![800000, 64]⟩
abbrev S50000x1 : Shape := ⟨2, ![50000, 1]⟩
abbrev S1x64 : Shape := ⟨2, ![1, 64]⟩
abbrev S1x1 : Shape := ⟨2, ![1, 1]⟩

abbrev nBuf : Space → Nat
  | .hbm => 143
  | .vmem => 0
  | .smem => 0
  | _ => 0

abbrev hbmTy0_0 (i : Nat) : BufTy := match i % 128 with
  | 0 => ⟨S50000x64, .f32⟩
  | 1 => ⟨S2x800000, .i32⟩
  | 2 => ⟨S50000, .i32⟩
  | 3 => ⟨S64x64, .f32⟩
  | 4 => ⟨S64, .f32⟩
  | 5 => ⟨S64x64, .f32⟩
  | 6 => ⟨S64, .f32⟩
  | 7 => ⟨S64x1, .f32⟩
  | 8 => ⟨S1, .f32⟩
  | 9 => ⟨S1x800000, .i32⟩
  | 10 => ⟨S800000, .i32⟩
  | 11 => ⟨S1x800000, .i32⟩
  | 12 => ⟨S800000, .i32⟩
  | 13 => ⟨S_, .f32⟩
  | 14 => ⟨S800000, .f32⟩
  | 15 => ⟨S_, .f32⟩
  | 16 => ⟨S50000, .f32⟩
  | 17 => ⟨S800000x1, .i32⟩
  | 18 => ⟨S50000, .f32⟩
  | 19 => ⟨S_, .f32⟩
  | 20 => ⟨S50000, .f32⟩
  | 21 => ⟨S50000, .f32⟩
  | 22 => ⟨S50000, .f32⟩
  | 23 => ⟨S_, .i32⟩
  | 24 => ⟨S800000, .i32⟩
  | 25 => ⟨S800000, .i1⟩
  | 26 => ⟨S_, .i32⟩
  | 27 => ⟨S800000, .i32⟩
  | 28 => ⟨S800000, .i32⟩
  | 29 => ⟨S800000, .i32⟩
  | 30 => ⟨S800000x1, .i32⟩
  | 31 => ⟨S800000, .f32⟩
  | 32 => ⟨S_, .i32⟩
  | 33 => ⟨S800000, .i32⟩
  | 34 => ⟨S800000, .i1⟩
  | 35 => ⟨S_, .i32⟩
  | 36 => ⟨S800000, .i32⟩
  | 37 => ⟨S800000, .i32⟩
  | 38 => ⟨S800000, .i32⟩
  | 39 => ⟨S800000x1, .i32⟩
  | 40 => ⟨S800000, .f32⟩
  | 41 => ⟨S800000, .f32⟩
  | 42 => ⟨S50000, .f32⟩
  | 43 => ⟨S50000x64, .f32⟩
  | 44 => ⟨S_, .i32⟩
  | 45 => ⟨S800000, .i32⟩
  | 46 => ⟨S800000, .i1⟩
  | 47 => ⟨S_, .i32⟩
  | 48 => ⟨S800000, .i32⟩
  | 49 => ⟨S800000, .i32⟩
  | 50 => ⟨S800000, .i32⟩
  | 51 => ⟨S800000x1, .i32⟩
  | 52 => ⟨S800000x64, .f32⟩
  | 53 => ⟨S800000x1, .f32⟩
  | 54 => ⟨S800000x64, .f32⟩
  | 55 => ⟨S800000x64, .f32⟩
  | 56 => ⟨S_, .f32⟩
  | 57 => ⟨S50000x64, .f32⟩
  | 58 => ⟨S800000x1, .i32⟩
  | 59 => ⟨S50000x64, .f32⟩
  | 60 => ⟨S50000x1, .f32⟩
  | 61 => ⟨S50000x64, .f32⟩
  | 62 => ⟨S50000x64, .f32⟩
  | 63 => ⟨S50000x64, .f32⟩
  | 64 => ⟨S1x64, .f32⟩
  | 65 => ⟨S50000x64, .f32⟩
  | 66 => ⟨S50000x64, .f32⟩
  | 67 => ⟨S50000x64, .f32⟩
  | 68 => ⟨S50000x64, .f32⟩
  | 69 => ⟨S_, .f32⟩
  | 70 => ⟨S50000x64, .f32⟩
  | 71 => ⟨S50000x64, .f32⟩
  | 72 => ⟨S_, .f32⟩
  | 73 => ⟨S50000x64, .f32⟩
  | 74 => ⟨S50000x64, .f32⟩
  | 75 => ⟨S50000x64, .f32⟩
  | 76 => ⟨S_, .i32⟩
  | 77 => ⟨S800000, .i32⟩
  | 78 => ⟨S800000, .i1⟩
  | 79 => ⟨S_, .i32⟩
  | 80 => ⟨S800000, .i32⟩
  | 81 => ⟨S800000, .i32⟩
  | 82 => ⟨S800000, .i32⟩
  | 83 => ⟨S800000x1, .i32⟩
  | 84 => ⟨S800000x64, .f32⟩
  | 85 => ⟨S800000x1, .f32⟩
  | 86 => ⟨S800000x64, .f32⟩
  | 87 => ⟨S800000x64, .f32⟩
  | 88 => ⟨S_, .f32⟩
  | 89 => ⟨S50000x64, .f32⟩
  | 90 => ⟨S800000x1, .i32⟩
  | 91 => ⟨S50000x64, .f32⟩
  | 92 => ⟨S50000x1, .f32⟩
  | 93 => ⟨S50000x64, .f32⟩
  | 94 => ⟨S50000x64, .f32⟩
  | 95 => ⟨S50000x64, .f32⟩
  | 96 => ⟨S1x64, .f32⟩
  | 97 => ⟨S50000x64, .f32⟩
  | 98 => ⟨S50000x64, .f32⟩
  | 99 => ⟨S50000x64, .f32⟩
  | 100 => ⟨S50000x64, .f32⟩
  | 101 => ⟨S_, .f32⟩
  | 102 => ⟨S50000x64, .f32⟩
  | 103 => ⟨S50000x64, .f32⟩
  | 104 => ⟨S_, .f32⟩
  | 105 => ⟨S50000x64, .f32⟩
  | 106 => ⟨S50000x64, .f32⟩
  | 107 => ⟨S50000x1, .f32⟩
  | 108 => ⟨S_, .i32⟩
  | 109 => ⟨S800000, .i32⟩
  | 110 => ⟨S800000, .i1⟩
  | 111 => ⟨S_, .i32⟩
  | 112 => ⟨S800000, .i32⟩
  | 113 => ⟨S800000, .i32⟩
  | 114 => ⟨S800000, .i32⟩
  | 115 => ⟨S800000x1, .i32⟩
  | 116 => ⟨S800000x1, .f32⟩
  | 117 => ⟨S800000x1, .f32⟩
  | 118 => ⟨S800000x1, .f32⟩
  | 119 => ⟨S_, .f32⟩
  | 120 => ⟨S50000x1, .f32⟩
  | 121 => ⟨S800000x1, .i32⟩
  | 122 => ⟨S50000x1, .f32⟩
  | 123 => ⟨S50000x1, .f32⟩
  | 124 => ⟨S50000x1, .f32⟩
  | 125 => ⟨S50000x1, .f32⟩
  | 126 => ⟨S1x1, .f32⟩
  | 127 => ⟨S50000x1, .f32⟩
  | _ => ⟨S50000x64, .f32⟩

abbrev hbmTy0_1 (i : Nat) : BufTy := match i % 128 with
  | 0 => ⟨S50000x1, .f32⟩
  | 1 => ⟨S_, .f32⟩
  | 2 => ⟨S50000x1, .f32⟩
  | 3 => ⟨S50000x1, .f32⟩
  | 4 => ⟨S50000x1, .f32⟩
  | 5 => ⟨S50000x1, .f32⟩
  | 6 => ⟨S_, .f32⟩
  | 7 => ⟨S50000x1, .f32⟩
  | 8 => ⟨S50000x1, .f32⟩
  | 9 => ⟨S_, .f32⟩
  | 10 => ⟨S50000x1, .f32⟩
  | 11 => ⟨S50000x1, .f32⟩
  | 12 => ⟨S_, .f32⟩
  | 13 => ⟨S50000x1, .f32⟩
  | 14 => ⟨S50000x1, .f32⟩
  | _ => ⟨S50000x64, .f32⟩

abbrev hbmTy (i : Nat) : BufTy := match i / 128 with
  | 0 => hbmTy0_0 i
  | 1 => hbmTy0_1 i
  | _ => ⟨S50000x64, .f32⟩

abbrev bufTy : (tb : Table) → Fin (tcTables nBuf tb) → BufTy
  | .hbm, ⟨i, _⟩ => hbmTy i
  | _, _ => ⟨S50000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_cst : Ref sig .tc := ⟨.hbm, 13, rfl⟩
abbrev main_v4 : Ref sig .tc := ⟨.hbm, 14, rfl⟩
abbrev main_cst_0 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_cst_1 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_c : Ref sig .tc := ⟨.hbm, 23, rfl⟩
abbrev main_v11 : Ref sig .tc := ⟨.hbm, 24, rfl⟩
abbrev main_v12 : Ref sig .tc := ⟨.hbm, 25, rfl⟩
abbrev main_c_2 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_c_3 : Ref sig .tc := ⟨.hbm, 32, rfl⟩
abbrev main_v18 : Ref sig .tc := ⟨.hbm, 33, rfl⟩
abbrev main_v19 : Ref sig .tc := ⟨.hbm, 34, rfl⟩
abbrev main_c_4 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_c_5 : Ref sig .tc := ⟨.hbm, 44, rfl⟩
abbrev main_v28 : Ref sig .tc := ⟨.hbm, 45, rfl⟩
abbrev main_v29 : Ref sig .tc := ⟨.hbm, 46, rfl⟩
abbrev main_c_6 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_cst_7 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_v47 : Ref sig .tc := ⟨.hbm, 66, rfl⟩
abbrev main_v48 : Ref sig .tc := ⟨.hbm, 67, rfl⟩
abbrev main_v49 : Ref sig .tc := ⟨.hbm, 68, rfl⟩
abbrev main_cst_8 : Ref sig .tc := ⟨.hbm, 69, rfl⟩
abbrev main_v50 : Ref sig .tc := ⟨.hbm, 70, rfl⟩
abbrev main_v51 : Ref sig .tc := ⟨.hbm, 71, rfl⟩
abbrev main_cst_9 : Ref sig .tc := ⟨.hbm, 72, rfl⟩
abbrev main_v52 : Ref sig .tc := ⟨.hbm, 73, rfl⟩
abbrev main_v53 : Ref sig .tc := ⟨.hbm, 74, rfl⟩
abbrev main_v54 : Ref sig .tc := ⟨.hbm, 75, rfl⟩
abbrev main_c_10 : Ref sig .tc := ⟨.hbm, 76, rfl⟩
abbrev main_v55 : Ref sig .tc := ⟨.hbm, 77, rfl⟩
abbrev main_v56 : Ref sig .tc := ⟨.hbm, 78, rfl⟩
abbrev main_c_11 : Ref sig .tc := ⟨.hbm, 79, rfl⟩
abbrev main_v57 : Ref sig .tc := ⟨.hbm, 80, rfl⟩
abbrev main_v58 : Ref sig .tc := ⟨.hbm, 81, rfl⟩
abbrev main_v59 : Ref sig .tc := ⟨.hbm, 82, rfl⟩
abbrev main_v60 : Ref sig .tc := ⟨.hbm, 83, rfl⟩
abbrev main_v61 : Ref sig .tc := ⟨.hbm, 84, rfl⟩
abbrev main_v62 : Ref sig .tc := ⟨.hbm, 85, rfl⟩
abbrev main_v63 : Ref sig .tc := ⟨.hbm, 86, rfl⟩
abbrev main_v64 : Ref sig .tc := ⟨.hbm, 87, rfl⟩
abbrev main_cst_12 : Ref sig .tc := ⟨.hbm, 88, rfl⟩
abbrev main_v65 : Ref sig .tc := ⟨.hbm, 89, rfl⟩
abbrev main_v66 : Ref sig .tc := ⟨.hbm, 90, rfl⟩
abbrev main_v67 : Ref sig .tc := ⟨.hbm, 91, rfl⟩
abbrev main_v68 : Ref sig .tc := ⟨.hbm, 92, rfl⟩
abbrev main_v69 : Ref sig .tc := ⟨.hbm, 93, rfl⟩
abbrev main_v70 : Ref sig .tc := ⟨.hbm, 94, rfl⟩
abbrev main_v71 : Ref sig .tc := ⟨.hbm, 95, rfl⟩
abbrev main_v72 : Ref sig .tc := ⟨.hbm, 96, rfl⟩
abbrev main_v73 : Ref sig .tc := ⟨.hbm, 97, rfl⟩
abbrev main_v74 : Ref sig .tc := ⟨.hbm, 98, rfl⟩
abbrev main_v75 : Ref sig .tc := ⟨.hbm, 99, rfl⟩
abbrev main_v76 : Ref sig .tc := ⟨.hbm, 100, rfl⟩
abbrev main_cst_13 : Ref sig .tc := ⟨.hbm, 101, rfl⟩
abbrev main_v77 : Ref sig .tc := ⟨.hbm, 102, rfl⟩
abbrev main_v78 : Ref sig .tc := ⟨.hbm, 103, rfl⟩
abbrev main_cst_14 : Ref sig .tc := ⟨.hbm, 104, rfl⟩
abbrev main_v79 : Ref sig .tc := ⟨.hbm, 105, rfl⟩
abbrev main_v80 : Ref sig .tc := ⟨.hbm, 106, rfl⟩
abbrev main_v81 : Ref sig .tc := ⟨.hbm, 107, rfl⟩
abbrev main_c_15 : Ref sig .tc := ⟨.hbm, 108, rfl⟩
abbrev main_v82 : Ref sig .tc := ⟨.hbm, 109, rfl⟩
abbrev main_v83 : Ref sig .tc := ⟨.hbm, 110, rfl⟩
abbrev main_c_16 : Ref sig .tc := ⟨.hbm, 111, rfl⟩
abbrev main_v84 : Ref sig .tc := ⟨.hbm, 112, rfl⟩
abbrev main_v85 : Ref sig .tc := ⟨.hbm, 113, rfl⟩
abbrev main_v86 : Ref sig .tc := ⟨.hbm, 114, rfl⟩
abbrev main_v87 : Ref sig .tc := ⟨.hbm, 115, rfl⟩
abbrev main_v88 : Ref sig .tc := ⟨.hbm, 116, rfl⟩
abbrev main_v89 : Ref sig .tc := ⟨.hbm, 117, rfl⟩
abbrev main_v90 : Ref sig .tc := ⟨.hbm, 118, rfl⟩
abbrev main_cst_17 : Ref sig .tc := ⟨.hbm, 119, rfl⟩
abbrev main_v91 : Ref sig .tc := ⟨.hbm, 120, rfl⟩
abbrev main_v92 : Ref sig .tc := ⟨.hbm, 121, rfl⟩
abbrev main_v93 : Ref sig .tc := ⟨.hbm, 122, rfl⟩
abbrev main_v94 : Ref sig .tc := ⟨.hbm, 123, rfl⟩
abbrev main_v95 : Ref sig .tc := ⟨.hbm, 124, rfl⟩
abbrev main_v96 : Ref sig .tc := ⟨.hbm, 125, rfl⟩
abbrev main_v97 : Ref sig .tc := ⟨.hbm, 126, rfl⟩
abbrev main_v98 : Ref sig .tc := ⟨.hbm, 127, rfl⟩
abbrev main_v99 : Ref sig .tc := ⟨.hbm, 128, rfl⟩
abbrev main_cst_18 : Ref sig .tc := ⟨.hbm, 129, rfl⟩
abbrev main_v100 : Ref sig .tc := ⟨.hbm, 130, rfl⟩
abbrev main_v101 : Ref sig .tc := ⟨.hbm, 131, rfl⟩
abbrev main_v102 : Ref sig .tc := ⟨.hbm, 132, rfl⟩
abbrev main_v103 : Ref sig .tc := ⟨.hbm, 133, rfl⟩
abbrev main_cst_19 : Ref sig .tc := ⟨.hbm, 134, rfl⟩
abbrev main_v104 : Ref sig .tc := ⟨.hbm, 135, rfl⟩
abbrev main_v105 : Ref sig .tc := ⟨.hbm, 136, rfl⟩
abbrev main_cst_20 : Ref sig .tc := ⟨.hbm, 137, rfl⟩
abbrev main_v106 : Ref sig .tc := ⟨.hbm, 138, rfl⟩
abbrev main_v107 : Ref sig .tc := ⟨.hbm, 139, rfl⟩
abbrev main_cst_21 : Ref sig .tc := ⟨.hbm, 140, rfl⟩
abbrev main_v108 : Ref sig .tc := ⟨.hbm, 141, rfl⟩
abbrev main_v109 : Ref sig .tc := ⟨.hbm, 142, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S_S50000 : S_.BroadcastsInDim S50000 (![] : Fin 0 → Fin S50000.rank)
  bcast_S800000_S800000x1_0 : S800000.BroadcastsInDim S800000x1 (![0] : Fin 1 → Fin S800000x1.rank)
  bcast_S800000x1_S800000x64_0_1 : S800000x1.BroadcastsInDim S800000x64 (![0, 1] : Fin 2 → Fin S800000x64.rank)
  bcast_S_S50000x64 : S_.BroadcastsInDim S50000x64 (![] : Fin 0 → Fin S50000x64.rank)
  bcast_S50000_S50000x1_0 : S50000.BroadcastsInDim S50000x1 (![0] : Fin 1 → Fin S50000x1.rank)
  bcast_S50000x1_S50000x64_0_1 : S50000x1.BroadcastsInDim S50000x64 (![0, 1] : Fin 2 → Fin S50000x64.rank)
  bcast_S64_S1x64_1 : S64.BroadcastsInDim S1x64 (![1] : Fin 1 → Fin S1x64.rank)
  bcast_S1x64_S50000x64_0_1 : S1x64.BroadcastsInDim S50000x64 (![0, 1] : Fin 2 → Fin S50000x64.rank)
  bcast_S_S50000x1 : S_.BroadcastsInDim S50000x1 (![] : Fin 0 → Fin S50000x1.rank)
  bcast_S1_S1x1_1 : S1.BroadcastsInDim S1x1 (![1] : Fin 1 → Fin S1x1.rank)
  bcast_S1x1_S50000x1_0_1 : S1x1.BroadcastsInDim S50000x1 (![0, 1] : Fin 2 → Fin S50000x1.rank)
  scatter_S50000_S800000x1_S800000_n_0_0_1_wf : ScatterDims.WF S50000 S800000x1 S800000 [] [0] [0] 1
  gather_S50000_S800000x1_S800000_n_0_n_n_0_1_1_wf : GatherDims.WF S50000 S800000x1 S800000 [] [0] [] [0] [] 1 ![1]
  dot_S50000x64_S64x64_S50000x64_1_0_0_1_n_n_wf : DotDims.WF S50000x64 S64x64 S50000x64 [1] [0] [0] [1] [] []
  gather_S50000x64_S800000x1_S800000x64_1_0_n_n_0_1_164_wf : GatherDims.WF S50000x64 S800000x1 S800000x64 [1] [0] [] [0] [] 1 ![1, 64]
  scatter_S50000x64_S800000x1_S800000x64_1_0_0_1_wf : ScatterDims.WF S50000x64 S800000x1 S800000x64 [1] [0] [0] 1
  dot_S50000x64_S64x1_S50000x1_1_0_0_1_n_n_wf : DotDims.WF S50000x64 S64x1 S50000x1 [1] [0] [0] [1] [] []
  gather_S50000x1_S800000x1_S800000x1_1_0_n_n_0_1_11_wf : GatherDims.WF S50000x1 S800000x1 S800000x1 [1] [0] [] [0] [] 1 ![1, 1]
  scatter_S50000x1_S800000x1_S800000x1_1_0_0_1_wf : ScatterDims.WF S50000x1 S800000x1 S800000x1 [1] [0] [0] 1

variable [Facts₀]

def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def gather_S50000_S800000x1_S800000_n_0_n_n_0_1_1 : GatherDims S50000 S800000x1 S800000 where
  offsetDims := []
  collapsedSliceDims := [0]
  operandBatchingDims := []
  startIndicesBatchingDims := []
  startIndexMap := [0]
  indexVectorDim := 1
  sliceSizes := ![1]
  wf := gather_S50000_S800000x1_S800000_n_0_n_n_0_1_1_wf
def dot_S50000x64_S64x64_S50000x64_1_0_0_1_n_n : DotDims S50000x64 S64x64 S50000x64 where
  lhsContracting := [1]
  rhsContracting := [0]
  lhsNonContracting := [0]
  rhsNonContracting := [1]
  lhsBatch := []
  rhsBatch := []
  wf := dot_S50000x64_S64x64_S50000x64_1_0_0_1_n_n_wf
def gather_S50000x64_S800000x1_S800000x64_1_0_n_n_0_1_164 : GatherDims S50000x64 S800000x1 S800000x64 where
  offsetDims := [1]
  collapsedSliceDims := [0]
  operandBatchingDims := []
  startIndicesBatchingDims := []
  startIndexMap := [0]
  indexVectorDim := 1
  sliceSizes := ![1, 64]
  wf := gather_S50000x64_S800000x1_S800000x64_1_0_n_n_0_1_164_wf
def scatter_S50000x64_S800000x1_S800000x64_1_0_0_1 : ScatterDims S50000x64 S800000x1 S800000x64 where
  updateWindowDims := [1]
  insertedWindowDims := [0]
  scatterDimsToOperandDims := [0]
  indexVectorDim := 1
  wf := scatter_S50000x64_S800000x1_S800000x64_1_0_0_1_wf
def dot_S50000x64_S64x1_S50000x1_1_0_0_1_n_n : DotDims S50000x64 S64x1 S50000x1 where
  lhsContracting := [1]
  rhsContracting := [0]
  lhsNonContracting := [0]
  rhsNonContracting := [1]
  lhsBatch := []
  rhsBatch := []
  wf := dot_S50000x64_S64x1_S50000x1_1_0_0_1_n_n_wf
def gather_S50000x1_S800000x1_S800000x1_1_0_n_n_0_1_11 : GatherDims S50000x1 S800000x1 S800000x1 where
  offsetDims := [1]
  collapsedSliceDims := [0]
  operandBatchingDims := []
  startIndicesBatchingDims := []
  startIndexMap := [0]
  indexVectorDim := 1
  sliceSizes := ![1, 1]
  wf := gather_S50000x1_S800000x1_S800000x1_1_0_n_n_0_1_11_wf
def scatter_S50000x1_S800000x1_S800000x1_1_0_0_1 : ScatterDims S50000x1 S800000x1 S800000x1 where
  updateWindowDims := [1]
  insertedWindowDims := [0]
  scatterDimsToOperandDims := [0]
  indexVectorDim := 1
  wf := scatter_S50000x1_S800000x1_S800000x1_1_0_0_1_wf

class Facts : Prop extends Facts₀ where

variable [Facts]
-- ==== Proof.KernelRun.lean ====
/-
  The idealized kernel's run with its result named.

  @main is eleven segments: five stretches of host operations and six pipelined regions. The contents of the
  TensorCore's buffers at each segment boundary are a fold from the launch memory (the frame module's `W0` … `W11`): a
  host stretch applies its operations, a region leaves its input arrays as entered and its output array at what its
  write-backs leave. Every weakly fair execution ends with every unscoped buffer at the last boundary's contents; read
  at the result buffer and at the nine arguments this is the statement below. The proof is the frame's launch over the
  same segments with the final state read at one more buffer.
-/
import proofs.«146808_j25752623907304_2_alg».proof.Proof.Gen.KernelIdeal.Frame

set_option maxRecDepth 16384

noncomputable section

namespace Cert.KernelIdeal.KRun

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of @main terminates, nothing faulting, with the result buffer at the last boundary's
    contents and the nine argument arrays as launched. -/
theorem run_named : θ_run defs (onTc (τ := τ) (main (F := F))) ⟨m, fun _ => 0, ρ⟩ (fun r => ∀ c : Dev nD,
      r.2.mem ((c.tc : Thread nD τ).loc main_v78) = W11 m ρ c (Proc.devRef .tc main_v78)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W11 m ρ c b)
    (hfin := fun c s' => by
      iintro ⟨⟨Hh, -⟩, HSI⟩
      unfold StableHlo.held
      imodintro
      iapply (pointsTo_read_all (Pipeline.ucRefs τ sig) (fun b => (((c : Thread nD τ)).1, b)) (W11 m ρ c) s')
      isplitl [Hh] <;> iassumption)
    (hQ := fun s h c =>
      ⟨h c _ (mem_uc main_v78 (by decide)),
       (h c _ (mem_uc main_arg0 (by decide))).trans (W11_main_arg0 m ρ c),
       (h c _ (mem_uc main_arg1 (by decide))).trans (W11_main_arg1 m ρ c),
       (h c _ (mem_uc main_arg2 (by decide))).trans (W11_main_arg2 m ρ c),
       (h c _ (mem_uc main_arg3 (by decide))).trans (W11_main_arg3 m ρ c),
       (h c _ (mem_uc main_arg4 (by decide))).trans (W11_main_arg4 m ρ c),
       (h c _ (mem_uc main_arg5 (by decide))).trans (W11_main_arg5 m ρ c),
       (h c _ (mem_uc main_arg6 (by decide))).trans (W11_main_arg6 m ρ c),
       (h c _ (mem_uc main_arg7 (by decide))).trans (W11_main_arg7 m ρ c),
       (h c _ (mem_uc main_arg8 (by decide))).trans (W11_main_arg8 m ρ c)⟩)

end Cert.KernelIdeal.KRun

end
-- ==== Proof.LibMatmulAt.lean ====
/-
  A plain matrix product read at an element.

  A contraction whose dimension numbers are those of an [R, K] × [K, C] matrix product (the left operand contracted on
  its axis 1, the right on its axis 0, no batch axis), accumulated into the zero splat, read at the element (p, q) is
  ∑ k, l(p, k) * r(k, q) over the extended reals. The statement is over ANY record of dimension numbers with those six
  lists, so that it applies to every record of that kind a program names, whatever its extents.
-/
import Idealize.ShloMosaic.PureOps.Ideal.Laws
import Idealize.ShloMosaic.Lib.ValueIdx

noncomputable section

namespace Cert.LibMatmulAt

open Idealize.ShloMosaic Idealize.ShloMosaic.ValueIdx

/-- The dimension numbers of an [R, K] × [K, C] matrix product, with its well-formedness proof a variable: every record
    with those six lists is this one. -/
abbrev plainOf {R K C : ℕ}
    (wf : DotDims.WF ⟨2, ![R, K]⟩ ⟨2, ![K, C]⟩ ⟨2, ![R, C]⟩ [1] [0] [0] [1] [] []) :
    DotDims ⟨2, ![R, K]⟩ ⟨2, ![K, C]⟩ ⟨2, ![R, C]⟩ :=
  ⟨[1], [0], [0], [1], [], [], wf⟩

/-- The sum over the one-axis contraction index, re-indexed by that axis's coordinate, reads the left operand at (p, k)
    and the right operand at (k, q). -/
theorem plainOf_sum {R K C : ℕ} (wf : DotDims.WF ⟨2, ![R, K]⟩ ⟨2, ![K, C]⟩ ⟨2, ![R, C]⟩ [1] [0] [0] [1] [] [])
    (l : (⟨2, ![R, K]⟩ : Shape).Idx → EReal) (r : (⟨2, ![K, C]⟩ : Shape).Idx → EReal) (p : Fin R) (q : Fin C) :
    (∑ k : (plainOf wf).contr.Idx, l ((plainOf wf).lhsIdx (ix2 p q) k) * r ((plainOf wf).rhsIdx (ix2 p q) k))
      = ∑ k : Fin K, l (ix2 p k) * r (ix2 k q) := by
  have l0 : ∀ kk : (plainOf wf).contr.Idx, ((plainOf wf).lhsIdx (ix2 p q) kk 0).val = p.val := fun kk => by
    unfold DotDims.lhsIdx
    rw [dif_neg (show ¬(0 : Fin (⟨2, ![R, K]⟩ : Shape).rank) ∈ (plainOf wf).lhsBatch from List.not_mem_nil),
      dif_pos (show (0 : Fin (⟨2, ![R, K]⟩ : Shape).rank) ∈ (plainOf wf).lhsNonContracting from List.mem_singleton.mpr rfl)]
    rfl
  have r1 : ∀ kk : (plainOf wf).contr.Idx, ((plainOf wf).rhsIdx (ix2 p q) kk 1).val = q.val := fun kk => by
    unfold DotDims.rhsIdx
    rw [dif_neg (show ¬(1 : Fin (⟨2, ![K, C]⟩ : Shape).rank) ∈ (plainOf wf).rhsBatch from List.not_mem_nil),
      dif_pos (show (1 : Fin (⟨2, ![K, C]⟩ : Shape).rank) ∈ (plainOf wf).rhsNonContracting from List.mem_singleton.mpr rfl)]
    rfl
  rw [← Equiv.sum_comp (contrEquiv1 (plainOf wf) K rfl rfl).symm]
  refine Finset.sum_congr rfl fun k _ => ?_
  have hk := contrEquiv1_symm_val (plainOf wf) K rfl rfl k
  have el : (plainOf wf).lhsIdx (ix2 p q) ((contrEquiv1 (plainOf wf) K rfl rfl).symm k) = ix2 p k :=
    funext fun a => Fin.ext (by
      match a with
      | ⟨0, _⟩ => exact l0 _
      | ⟨1, _⟩ => exact ((plainOf wf).lhsIdx_val_of_single rfl _ _).trans hk)
  have er : (plainOf wf).rhsIdx (ix2 p q) ((contrEquiv1 (plainOf wf) K rfl rfl).symm k) = ix2 k q :=
    funext fun a => Fin.ext (by
      match a with
      | ⟨0, _⟩ => exact ((plainOf wf).rhsIdx_val_of_single rfl _ _).trans hk
      | ⟨1, _⟩ => exact r1 _)
  rw [el, er]

/-- A matrix product into the zero accumulator, for any record of dimension numbers with the six lists of an
    [R, K] × [K, C] product, read at (p, q): the sum over k of the left operand at (p, k) times the right at (k, q). -/
theorem matmul_zero_apply {R K C : ℕ} {φ₁ φ₂ : FTy} (D : DotDims ⟨2, ![R, K]⟩ ⟨2, ![K, C]⟩ ⟨2, ![R, C]⟩)
    (hlc : D.lhsContracting = [1]) (hrc : D.rhsContracting = [0]) (hln : D.lhsNonContracting = [0])
    (hrn : D.rhsNonContracting = [1]) (hlb : D.lhsBatch = []) (hrb : D.rhsBatch = [])
    (prec : Option ContractPrecision) (l : FVec Ideal ⟨2, ![R, K]⟩ φ₁) (r : FVec Ideal ⟨2, ![K, C]⟩ φ₂)
    (p : Fin R) (q : Fin C) :
    matmul D prec l r (constant (F := Ideal) ⟨2, ![R, C]⟩ .f32 0x00000000#32) (ix2 p q)
      = ∑ k : Fin K, l (ix2 p k) * r (ix2 k q) := by
  obtain ⟨lc, rc, ln, rn, lb, rb, wf⟩ := D
  dsimp only at hlc hrc hln hrn hlb hrb
  subst hlc hrc hln hrn hlb hrb
  exact (Ideal.matmul_constant_zero_apply (plainOf wf) prec l r (ix2 p q)).trans (plainOf_sum wf l r p q)

end Cert.LibMatmulAt

end
-- ==== Proof.LibPlainDot.lean ====
/-
  A plain matrix product read at an index.

  The dimension numbers of the product of an `[R, K]` array with a `[K, C]` array into `[R, C]` — contract the
  left operand's axis 1 with the right operand's axis 0, no batch axes — are the record `plainDot` below, whose
  side condition is a parameter: any record with the same lists is one of them by unfolding. On the extended reals
  the product into a zero accumulator, read at `(p, q)`, is the sum over `k` of `lhs (p, k) * rhs (k, q)`.
-/
import Idealize.ShloMosaic.PureOps.Ideal
import Idealize.ShloMosaic.PureOps.Ideal.Laws
import Idealize.ShloMosaic.PureOps.Dims
import Idealize.ShloMosaic.PureOps.Contract
import Idealize.ShloMosaic.Lib.ValueIdx

noncomputable section

open scoped BigOperators

namespace Cert.LibPlainDot

open Idealize.ShloMosaic Idealize.ShloMosaic.ValueIdx

/-- The dimension numbers of a plain `[R, K] × [K, C] → [R, C]` product. -/
abbrev plainDot (R K C : Nat)
    (wf : DotDims.WF ⟨2, ![R, K]⟩ ⟨2, ![K, C]⟩ ⟨2, ![R, C]⟩ [1] [0] [0] [1] [] []) :
    DotDims ⟨2, ![R, K]⟩ ⟨2, ![K, C]⟩ ⟨2, ![R, C]⟩ where
  lhsContracting := [1]
  rhsContracting := [0]
  lhsNonContracting := [0]
  rhsNonContracting := [1]
  lhsBatch := []
  rhsBatch := []
  wf := wf

section
variable {R K C : Nat} (wf : DotDims.WF ⟨2, ![R, K]⟩ ⟨2, ![K, C]⟩ ⟨2, ![R, C]⟩ [1] [0] [0] [1] [] [])

/-- The left operand's index for output `(p, q)` and contraction coordinate `k` is `(p, k)`. -/
theorem plainDot_lhsIdx (p : Fin R) (q : Fin C) (k : Fin K) :
    (plainDot R K C wf).lhsIdx (ix2 p q) ((contrEquiv1 (plainDot R K C wf) K rfl rfl).symm k) = ix2 p k := by
  have hk := contrEquiv1_symm_val (plainDot R K C wf) K rfl rfl k
  funext a
  refine Fin.ext ?_
  match a with
  | ⟨0, _⟩ =>
    show ((plainDot R K C wf).lhsIdx (ix2 p q) ((contrEquiv1 (plainDot R K C wf) K rfl rfl).symm k) 0).val = p.val
    unfold DotDims.lhsIdx
    rw [dif_neg (show ¬(0 : Fin 2) ∈ (plainDot R K C wf).lhsBatch from List.not_mem_nil),
      dif_pos (show (0 : Fin 2) ∈ (plainDot R K C wf).lhsNonContracting from List.mem_singleton.mpr rfl)]
    rfl
  | ⟨1, _⟩ =>
    exact ((plainDot R K C wf).lhsIdx_val_of_single (cl := (1 : Fin 2)) rfl (ix2 p q) _).trans hk

/-- The right operand's index for output `(p, q)` and contraction coordinate `k` is `(k, q)`. -/
theorem plainDot_rhsIdx (p : Fin R) (q : Fin C) (k : Fin K) :
    (plainDot R K C wf).rhsIdx (ix2 p q) ((contrEquiv1 (plainDot R K C wf) K rfl rfl).symm k) = ix2 k q := by
  have hk := contrEquiv1_symm_val (plainDot R K C wf) K rfl rfl k
  funext a
  refine Fin.ext ?_
  match a with
  | ⟨0, _⟩ =>
    exact ((plainDot R K C wf).rhsIdx_val_of_single (cr := (0 : Fin 2)) rfl (ix2 p q) _).trans hk
  | ⟨1, _⟩ =>
    show ((plainDot R K C wf).rhsIdx (ix2 p q) ((contrEquiv1 (plainDot R K C wf) K rfl rfl).symm k) 1).val = q.val
    unfold DotDims.rhsIdx
    rw [dif_neg (show ¬(1 : Fin 2) ∈ (plainDot R K C wf).rhsBatch from List.not_mem_nil),
      dif_pos (show (1 : Fin 2) ∈ (plainDot R K C wf).rhsNonContracting from List.mem_singleton.mpr rfl)]
    rfl

/-- THE PLAIN PRODUCT INTO A ZERO ACCUMULATOR AT `(p, q)`: the sum over `k` of `lhs (p, k) * rhs (k, q)`. -/
theorem matmul_zero_apply {φ₁ φ₂ : FTy} (prec : Option ContractPrecision)
    (lhs : FVec Ideal ⟨2, ![R, K]⟩ φ₁) (rhs : FVec Ideal ⟨2, ![K, C]⟩ φ₂) (p : Fin R) (q : Fin C) :
    FloatOps.matmul (plainDot R K C wf) prec lhs rhs (constant ⟨2, ![R, C]⟩ .f32 0x00000000#32) (ix2 p q)
      = ∑ k : Fin K, lhs (ix2 p k) * rhs (ix2 k q) := by
  rw [Ideal.matmul_constant_zero_apply, ← Equiv.sum_comp (contrEquiv1 (plainDot R K C wf) K rfl rfl).symm]
  refine Finset.sum_congr rfl fun k _ => ?_
  rw [plainDot_lhsIdx wf p q k, plainDot_rhsIdx wf p q k]

end

end Cert.LibPlainDot

end
-- ==== Proof.LibHostDot.lean ====
/-
  The host's matrix product read at an index.

  For the dimension numbers of a plain `[R, K] × [K, C] → [R, C]` product (contract the left operand's axis 1 with
  the right operand's axis 0, no batch axes), the host's `dot_general` on the extended reals, read at `(p, q)`, is
  the sum over `k` of `lhs (p, k) * rhs (k, q)`: the same sum a product into a zero accumulator gives, whatever
  the number of rows. So a product computed row block by row block is the whole product.
-/
import proofs.«146808_j25752623907304_2_alg».proof.Proof.LibPlainDot
import Idealize.ShloMosaic.PureOps.Ideal
import Idealize.ShloMosaic.PureOps.Ideal.Laws
import Idealize.ShloMosaic.Lib.ValueIdx

noncomputable section

open scoped BigOperators

namespace Cert.LibHostDot

open Idealize.ShloMosaic Idealize.ShloMosaic.ValueIdx Cert.LibPlainDot

variable {R K C : Nat} (wf : DotDims.WF ⟨2, ![R, K]⟩ ⟨2, ![K, C]⟩ ⟨2, ![R, C]⟩ [1] [0] [0] [1] [] [])

/-- THE HOST'S PLAIN PRODUCT AT `(p, q)`: the sum over `k` of `lhs (p, k) * rhs (k, q)`. -/
theorem hostDot_apply {φ₁ φ₂ : FTy} (prec : Option ContractPrecision)
    (lhs : FVec Ideal ⟨2, ![R, K]⟩ φ₁) (rhs : FVec Ideal ⟨2, ![K, C]⟩ φ₂) (p : Fin R) (q : Fin C) :
    Host.dotGeneral (F := Ideal) (plainDot R K C wf) prec lhs rhs (ix2 p q)
      = ∑ k : Fin K, lhs (ix2 p k) * rhs (ix2 k q) := by
  simp only [Host.dotGeneral]
  rw [Ideal.dotGeneral_apply, ← Equiv.sum_comp (contrEquiv1 (plainDot R K C wf) K rfl rfl).symm]
  refine Finset.sum_congr rfl fun k _ => ?_
  rw [plainDot_lhsIdx wf p q k, plainDot_rhsIdx wf p q k]

end Cert.LibHostDot

end
-- ==== Proof.LibBlockDot.lean ====
/-
  A dense product computed row block by row block is the whole product.

  For a plain [R, K] × [K, C] product into a zero accumulator (contract the left operand's axis 1 with the right
  operand's axis 0, no batch axes) whose left operand is a block of rows of an [N, K] array, the entry (p, q) of the
  block's product is the entry (P, q) of the host's product of the whole [N, K] array with the same [K, C] array,
  when row p of the block is row P of the array: both are the sum over k of (row P)(k) · right(k, q) on the
  extended reals, and the sum is over the same K terms whatever the number of rows.
-/
import proofs.«146808_j25752623907304_2_alg».proof.Proof.LibMatmulAt
import proofs.«146808_j25752623907304_2_alg».proof.Proof.LibHostDot

noncomputable section

open scoped BigOperators

namespace Cert.LibBlockDot

open Idealize.ShloMosaic Idealize.ShloMosaic.ValueIdx Cert.LibPlainDot

/-- Entry (p, q) of a row block's product into the zero accumulator is entry (P, q) of the host's whole product,
    when the block's row p is the array's row P and the right operands agree in column q. The element formats of the
    four operands are free: on the extended reals a change of format is the identity. -/
theorem matmul_block_apply {R K C N : ℕ} (Dk : DotDims ⟨2, ![R, K]⟩ ⟨2, ![K, C]⟩ ⟨2, ![R, C]⟩)
    (hlc : Dk.lhsContracting = [1]) (hrc : Dk.rhsContracting = [0]) (hln : Dk.lhsNonContracting = [0])
    (hrn : Dk.rhsNonContracting = [1]) (hlb : Dk.lhsBatch = []) (hrb : Dk.rhsBatch = [])
    (wf : DotDims.WF ⟨2, ![N, K]⟩ ⟨2, ![K, C]⟩ ⟨2, ![N, C]⟩ [1] [0] [0] [1] [] [])
    {φ₁ φ₂ ψ₁ ψ₂ : FTy} (prec prec' : Option ContractPrecision)
    (x0 : FVec Ideal ⟨2, ![R, K]⟩ φ₁) (x1 : FVec Ideal ⟨2, ![K, C]⟩ φ₂)
    (X : FVec Ideal ⟨2, ![N, K]⟩ ψ₁) (W : FVec Ideal ⟨2, ![K, C]⟩ ψ₂)
    (p : Fin R) (P : Fin N) (q : Fin C)
    (h0 : ∀ k : Fin K, (x0 (ix2 p k) : EReal) = X (ix2 P k))
    (h1 : ∀ k : Fin K, (x1 (ix2 k q) : EReal) = W (ix2 k q)) :
    matmul Dk prec x0 x1 (constant (F := Ideal) ⟨2, ![R, C]⟩ .f32 0x00000000#32) (ix2 p q)
      = Host.dotGeneral (F := Ideal) (plainDot N K C wf) prec' X W (ix2 P q) := by
  rw [Cert.LibMatmulAt.matmul_zero_apply Dk hlc hrc hln hrn hlb hrb, Cert.LibHostDot.hostDot_apply wf]
  exact Finset.sum_congr rfl fun k _ => by rw [h0 k, h1 k]

end Cert.LibBlockDot

end
-- ==== Proof.Region0.lean ====
/-
  Region 0: the first dense layer's product, one block of 10000 rows per grid point.

  Grid point t loads rows 10000·t … 10000·t + 9999 of the 50000 × 64 input and the whole 64 × 64 weight, and writes
  their product into the same rows of the output. On the extended reals rounding an operand to a narrower format is
  the identity and entry (p, q) of the block's product is the sum over k of input(10000·t + p, k) · weight(k, q): entry
  (10000·t + p, q) of the product of the whole arrays. The five blocks tile the output, so the output array ends at
  the whole product.
-/
import proofs.«146808_j25752623907304_2_alg».proof.Proof.Gen.KernelIdeal.Frame
import proofs.«146808_j25752623907304_2_alg».proof.Proof.Gen.ReferenceIdeal.Read
import proofs.«146808_j25752623907304_2_alg».proof.Proof.LibBlockDot

set_option maxRecDepth 16384

noncomputable section

namespace Cert.KernelIdeal.Region0

open Cert.KernelIdeal Cert.KernelIdeal.Gen
open Idealize.ShloMosaic Idealize.ShloMosaic.TcCoe Idealize.ShloMosaic.ValueIdx Idealize.SL.Sem
open Idealize.ShloMosaic.Pipeline (Dat Cfg Window)

theorem hz : (![0, 0] : Fin 2 → Nat) = fun _ => 0 := funext fun a => by fin_cases a <;> rfl

/-- Entry (p, q) of a block's product is entry (P, q) of the whole product when the block's row p is the array's
    row P. -/
theorem pay_apply (b0 : Vec Ideal S10000x64 .f32) (b1 : Vec Ideal S64x64 .f32)
    (X : FVec Ideal Cert.ReferenceIdeal.S50000x64 .f32) (Wt : FVec Ideal Cert.ReferenceIdeal.S64x64 .f32)
    (p : Fin 10000) (q : Fin 64) (P : Fin 50000)
    (h0 : ∀ k : Fin 64, b0 (ix2 p k) = X (ix2 P k)) (h1 : ∀ k : Fin 64, b1 (ix2 k q) = Wt (ix2 k q)) :
    k0_pay1 (F := Ideal) b0 b1 (ix2 p q) = Cert.ReferenceIdeal.Read.val_main_v27 (F := Ideal) X Wt (ix2 P q) := by
  unfold k0_pay1 Cert.ReferenceIdeal.Read.val_main_v27
  exact Cert.LibBlockDot.matmul_block_apply (R := 10000) (K := 64) (C := 64) (N := 50000)
    dot_S10000x64_S64x64_S10000x64_1_0_0_1_n_n rfl rfl rfl rfl rfl rfl
    Cert.ReferenceIdeal.dot_S50000x64_S64x64_S50000x64_1_0_0_1_n_n.wf none none _ _ X Wt p P q h0 h1

/-- The index maps over the grid: the input's and the output's blocks move together along the rows, the weight's
    block stays. -/
theorem idx_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

variable (V : (c : Dev nD) → (b : Ref sig .tc) → Buf (Elt Ideal) ((c : Thread nD τ).loc b))

theorem flushed_eq (c : Dev nD) (x0 : FVec Ideal Cert.ReferenceIdeal.S50000x64 .f32) (x3 : FVec Ideal Cert.ReferenceIdeal.S64x64 .f32)
    (h0 : V c main_arg0 = x0) (h3 : V c main_arg3 = x3) (t : Fin cfg0.N) :
    (dat0 V c).flushed 2 t = ((cfg0.win 2).blk t).view.read (Elt Ideal) (Cert.ReferenceIdeal.Read.val_main_v27 (F := Ideal) x0 x3) := by
  show (cfg0.win 2).cut (grid0.coords t) ((dat0 V c).after 2 t) = _
  rw [after0_2]
  unfold out0_2
  rw [View.canon_unit_zero hz]
  simp only [View.ld_unit_zero (S := S10000x64) hz, View.ld_unit_zero (S := S64x64) hz]
  obtain ⟨e0, e1, e2, e3, e4, e5⟩ := idx_facts t
  funext j
  obtain ⟨p, q, rfl⟩ : ∃ (p : Fin 10000) (q : Fin 64), j = ix2 p q := ⟨j 0, j 1, eq_ix2 j⟩
  have hp : p.val < 10000 := p.isLt
  have ht : t.val < 5 := t.isLt
  show k0_pay1 (iblk0 V c 0 t) (iblk0 V c 1 t) (ix2 p q)
    = Cert.ReferenceIdeal.Read.val_main_v27 (F := Ideal) x0 x3 (((cfg0.win 2).blk t).view.emb (ix2 p q))
  have hemb : ((cfg0.win 2).blk t).view.emb (ix2 p q) = ix2 (⟨t.val * 10000 + p.val, by omega⟩ : Fin 50000) q := by
    funext a; apply Fin.ext
    match a with
    | ⟨0, _⟩ => show win0_2.index t (0 : Fin 2) * 10000 + 1 * p.val = t.val * 10000 + p.val; omega
    | ⟨1, _⟩ => show win0_2.index t (1 : Fin 2) * 64 + 1 * q.val = q.val; omega
  rw [hemb]
  refine pay_apply (iblk0 V c 0 t) (iblk0 V c 1 t) x0 x3 p q ⟨t.val * 10000 + p.val, by omega⟩ (fun k => ?_) (fun k => ?_)
  · show V c main_arg0 (((cfg0.win 0).blk t).view.emb (ix2 p k)) = _
    rw [h0]
    refine congrArg x0 ?_
    funext a; apply Fin.ext
    match a with
    | ⟨0, _⟩ => show win0_0.index t (0 : Fin 2) * 10000 + 1 * p.val = t.val * 10000 + p.val; omega
    | ⟨1, _⟩ => show win0_0.index t (1 : Fin 2) * 64 + 1 * k.val = k.val; omega
  · show V c main_arg3 (((cfg0.win 1).blk t).view.emb (ix2 k q)) = _
    rw [h3]
    refine congrArg x3 ?_
    funext a; apply Fin.ext
    match a with
    | ⟨0, _⟩ => show win0_1.index t (0 : Fin 2) * 64 + 1 * k.val = k.val; omega
    | ⟨1, _⟩ => show win0_1.index t (1 : Fin 2) * 64 + 1 * q.val = q.val; omega

/-- An index of the output array is in point t's block iff each coordinate is in the block's range. -/
theorem mem_blk (t : Fin cfg0.N) (i : S50000x64.Idx) :
    i ∈ ((cfg0.win 2).blk t).view.set ↔ ∀ a : Fin 2, win0_2.index t a * S10000x64.size a ≤ (i a).val ∧ (i a).val < win0_2.index t a * S10000x64.size a + S10000x64.size a := by
  show i ∈ ((View.whole main_v27).slice (win0_2.rect t)).set ↔ _
  rw [View.set_slice_whole, Rect.mem_set_unit]
  exact Iff.rfl

/-- The five row blocks tile the output: row r is in the block of point r / 10000. -/
theorem cover (i : S50000x64.Idx) : ∃ t : Fin cfg0.N, (cfg0.win 2).flush t = true ∧ i ∈ ((cfg0.win 2).blk t).view.set := by
  have hi0 : (i 0).val < 50000 := (i 0).isLt
  have hi1 : (i 1).val < 64 := (i 1).isLt
  refine ⟨⟨(i 0).val / 10000, by show (i 0).val / 10000 < 5; omega⟩, flush0_2 _, ?_⟩
  rw [mem_blk]
  obtain ⟨e0, e1, e2, e3, e4, e5⟩ := idx_facts ⟨(i 0).val / 10000, by show (i 0).val / 10000 < 5; omega⟩
  intro a
  match a with
  | ⟨0, _⟩ => show win0_2.index _ (0 : Fin 2) * 10000 ≤ (i 0).val ∧ (i 0).val < win0_2.index _ (0 : Fin 2) * 10000 + 10000; rw [e4]; show (i 0).val / 10000 * 10000 ≤ (i 0).val ∧ (i 0).val < (i 0).val / 10000 * 10000 + 10000; omega
  | ⟨1, _⟩ => show win0_2.index _ (1 : Fin 2) * 64 ≤ (i 1).val ∧ (i 1).val < win0_2.index _ (1 : Fin 2) * 64 + 64; rw [e5]; omega

/-- THE OUTPUT ARRAY after the region is the whole product of the arrays the region found. -/
theorem final (c : Dev nD) (x0 : FVec Ideal Cert.ReferenceIdeal.S50000x64 .f32) (x3 : FVec Ideal Cert.ReferenceIdeal.S64x64 .f32)
    (h0 : V c main_arg0 = x0) (h3 : V c main_arg3 = x3) :
    (dat0 V c).arrAt 2 cfg0.N = Cert.ReferenceIdeal.Read.val_main_v27 (F := Ideal) x0 x3 :=
  (dat0 V c).arrAt_eq_of_cover 2 (Cert.ReferenceIdeal.Read.val_main_v27 (F := Ideal) x0 x3)
    (fun t _ => flushed_eq V c x0 x3 h0 h3 t) cover

end Cert.KernelIdeal.Region0

end
-- ==== Proof.Stage1.lean ====
/-
  The buffer contents through the first stretch of host operations and the first region.

  The first stretch computes, from the edge list alone, its two rows (sources and destinations), each node's degree
  with the self loop, the inverse square roots, the per-edge weight (the product of the two endpoints' inverse square
  roots) and the per-node self-loop weight. The idealized reference computes the same operations in the same order, so
  each buffer holds the reference's stage of the same name's operations. Region 0 then leaves the first dense layer's
  product in its output array and every other buffer as it found it.
-/
import proofs.«146808_j25752623907304_2_alg».proof.Proof.Gen.KernelIdeal.Frame
import proofs.«146808_j25752623907304_2_alg».proof.Proof.Gen.ReferenceIdeal.Read
import proofs.«146808_j25752623907304_2_alg».proof.Proof.Region0
import Idealize.ShloMosaic.Lib.StableHlo.Run

set_option maxRecDepth 16384

noncomputable section

namespace Cert.KernelIdeal.Stage1

open Cert.KernelIdeal Cert.KernelIdeal.Gen
open Idealize.ShloMosaic Idealize.ShloMosaic.TcCoe Idealize.ShloMosaic.ValueIdx Idealize.SL.Sem Idealize.ShloMosaic.StableHlo
open Cert.ReferenceIdeal.Read (val_main_v1 val_main_v3 val_main_v25 val_main_v26 val_main_v27 val_main_v40 val_main_v53 val_main_v54 val_main_v67 val_main_v80 val_main_v81 val_main_v93 val_main_v107 val_main_v109)

variable (m : (ℓ : Loc nD τ sig) → Buf (Elt Ideal) ℓ) (ρ : Dev nD → PrngReg)

/-- The argument arrays as launched. -/
abbrev a0 (c : Dev nD) := m ((c : Thread nD τ).loc main_arg0)
abbrev a1 (c : Dev nD) := m ((c : Thread nD τ).loc main_arg1)
abbrev a3 (c : Dev nD) := m ((c : Thread nD τ).loc main_arg3)
abbrev a4 (c : Dev nD) := m ((c : Thread nD τ).loc main_arg4)
abbrev a5 (c : Dev nD) := m ((c : Thread nD τ).loc main_arg5)
abbrev a6 (c : Dev nD) := m ((c : Thread nD τ).loc main_arg6)
abbrev a7 (c : Dev nD) := m ((c : Thread nD τ).loc main_arg7)
abbrev a8 (c : Dev nD) := m ((c : Thread nD τ).loc main_arg8)

/-! ## After the first stretch -/

theorem W1_v1 (c : Dev nD) : W1 m ρ c (Proc.devRef .tc main_v1) = val_main_v1 (F := Ideal) (a1 m c) := by
  show StableHlo.after hostOps0 (W0 m ρ c) (Proc.devRef .tc main_v1) = _
  after_results_simp <;> rfl

theorem W1_v3 (c : Dev nD) : W1 m ρ c (Proc.devRef .tc main_v3) = val_main_v3 (F := Ideal) (a1 m c) := by
  show StableHlo.after hostOps0 (W0 m ρ c) (Proc.devRef .tc main_v3) = _
  after_results_simp <;> rfl

set_option maxHeartbeats 4000000 in
theorem W1_v25 (c : Dev nD) : W1 m ρ c (Proc.devRef .tc main_v25) = val_main_v25 (F := Ideal) (a1 m c) := by
  show StableHlo.after hostOps0 (W0 m ρ c) (Proc.devRef .tc main_v25) = _
  after_results_simp <;> rfl

set_option maxHeartbeats 4000000 in
theorem W1_v26 (c : Dev nD) : W1 m ρ c (Proc.devRef .tc main_v26) = val_main_v26 (F := Ideal) (a1 m c) := by
  show StableHlo.after hostOps0 (W0 m ρ c) (Proc.devRef .tc main_v26) = _
  after_results_simp <;> rfl

theorem W1_arg0 (c : Dev nD) : W1 m ρ c (Proc.devRef .tc main_arg0) = a0 m c := by
  show StableHlo.after hostOps0 (W0 m ρ c) (Proc.devRef .tc main_arg0) = _
  after_results_simp <;> rfl

theorem W1_arg3 (c : Dev nD) : W1 m ρ c (Proc.devRef .tc main_arg3) = a3 m c := by
  show StableHlo.after hostOps0 (W0 m ρ c) (Proc.devRef .tc main_arg3) = _
  after_results_simp <;> rfl

theorem W1_arg4 (c : Dev nD) : W1 m ρ c (Proc.devRef .tc main_arg4) = a4 m c := by
  show StableHlo.after hostOps0 (W0 m ρ c) (Proc.devRef .tc main_arg4) = _
  after_results_simp <;> rfl

theorem W1_arg5 (c : Dev nD) : W1 m ρ c (Proc.devRef .tc main_arg5) = a5 m c := by
  show StableHlo.after hostOps0 (W0 m ρ c) (Proc.devRef .tc main_arg5) = _
  after_results_simp <;> rfl

theorem W1_arg6 (c : Dev nD) : W1 m ρ c (Proc.devRef .tc main_arg6) = a6 m c := by
  show StableHlo.after hostOps0 (W0 m ρ c) (Proc.devRef .tc main_arg6) = _
  after_results_simp <;> rfl

theorem W1_arg7 (c : Dev nD) : W1 m ρ c (Proc.devRef .tc main_arg7) = a7 m c := by
  show StableHlo.after hostOps0 (W0 m ρ c) (Proc.devRef .tc main_arg7) = _
  after_results_simp <;> rfl

theorem W1_arg8 (c : Dev nD) : W1 m ρ c (Proc.devRef .tc main_arg8) = a8 m c := by
  show StableHlo.after hostOps0 (W0 m ρ c) (Proc.devRef .tc main_arg8) = _
  after_results_simp <;> rfl

/-! ## After region 0 -/

theorem W2_v27 (c : Dev nD) : W2 m ρ c (Proc.devRef .tc main_v27) = val_main_v27 (F := Ideal) (a0 m c) (a3 m c) :=
  (W2_arr m ρ c 2).trans (Region0.final (V1 m ρ) c (a0 m c) (a3 m c) (W1_arg0 m ρ c) (W1_arg3 m ρ c))

theorem W2_v1 (c : Dev nD) : W2 m ρ c (Proc.devRef .tc main_v1) = val_main_v1 (F := Ideal) (a1 m c) :=
  (W2_of_ne m ρ c main_v1 (by decide)).trans (W1_v1 m ρ c)

theorem W2_v3 (c : Dev nD) : W2 m ρ c (Proc.devRef .tc main_v3) = val_main_v3 (F := Ideal) (a1 m c) :=
  (W2_of_ne m ρ c main_v3 (by decide)).trans (W1_v3 m ρ c)

theorem W2_v25 (c : Dev nD) : W2 m ρ c (Proc.devRef .tc main_v25) = val_main_v25 (F := Ideal) (a1 m c) :=
  (W2_of_ne m ρ c main_v25 (by decide)).trans (W1_v25 m ρ c)

theorem W2_v26 (c : Dev nD) : W2 m ρ c (Proc.devRef .tc main_v26) = val_main_v26 (F := Ideal) (a1 m c) :=
  (W2_of_ne m ρ c main_v26 (by decide)).trans (W1_v26 m ρ c)

theorem W2_arg4 (c : Dev nD) : W2 m ρ c (Proc.devRef .tc main_arg4) = a4 m c :=
  (W2_of_ne m ρ c main_arg4 (by decide)).trans (W1_arg4 m ρ c)

theorem W2_arg5 (c : Dev nD) : W2 m ρ c (Proc.devRef .tc main_arg5) = a5 m c :=
  (W2_of_ne m ρ c main_arg5 (by decide)).trans (W1_arg5 m ρ c)

theorem W2_arg6 (c : Dev nD) : W2 m ρ c (Proc.devRef .tc main_arg6) = a6 m c :=
  (W2_of_ne m ρ c main_arg6 (by decide)).trans (W1_arg6 m ρ c)

theorem W2_arg7 (c : Dev nD) : W2 m ρ c (Proc.devRef .tc main_arg7) = a7 m c :=
  (W2_of_ne m ρ c main_arg7 (by decide)).trans (W1_arg7 m ρ c)

theorem W2_arg8 (c : Dev nD) : W2 m ρ c (Proc.devRef .tc main_arg8) = a8 m c :=
  (W2_of_ne m ρ c main_arg8 (by decide)).trans (W1_arg8 m ρ c)

end Cert.KernelIdeal.Stage1

end
-- ==== Proof.LibColumn.lean ====
/-
  Columns and rows of small shapes read at an index.

  A column `[a, 1]` stretched along its unit axis to `[a, b]` reads, at `(p, c)`, its entry `(p, 0)`; a row
  `[1, b]` stretched to `[a, b]` reads its entry `(0, c)`; a vector `[a]` set up as a column `[a, 1]` (by a cast, or by
  a broadcast that names its one axis) or as a row `[1, a]` reads its entry `p`; a scalar stretched to any shape reads
  its one entry.  These are the host's `broadcast_in_dim` and the vector unit's `broadcast` / `shape_cast` in the
  forms a "keep the axis" reduction or a bias produces.
-/
import Idealize.ShloMosaic.Lib.Pipeline.Value
import Idealize.ShloMosaic.Lib.ValueIdx
import Idealize.ShloMosaic.Lib.ValueLayout

namespace Cert.LibColumn

open Idealize.ShloMosaic Idealize.ShloMosaic.ValueIdx

variable {α : Type}

/-- A column `[a, 1]` broadcast (vector unit) to `[a, b]` reads, at `(p, c)`, the column's entry `p`. -/
theorem broadcastTo_a1_ab_apply {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- A column `[a, 1]` broadcast (host) along axes `[0, 1]` to `[a, b]` reads, at `(p, c)`, the column's entry `p`. -/
theorem bcastInDim_a1_ab_apply {a b : ℕ} (v : (⟨2, ![a, 1]⟩ : Shape).Idx → α)
    (h : (⟨2, ![a, 1]⟩ : Shape).BroadcastsInDim ⟨2, ![a, b]⟩ ![0, 1]) (p : Fin a) (c : Fin b) :
    broadcastInDim ⟨2, ![a, b]⟩ ![0, 1] h v (ix2 p c) = v (ix2 p (0 : Fin 1)) := by
  refine broadcastInDim_apply ![0, 1] h v (ix2 p c) (ix2 p (0 : Fin 1)) fun ax => ?_
  match ax with
  | ⟨0, _⟩ =>
    show p.val = if a = 1 then 0 else p.val
    split
    · have := p.isLt; omega
    · rfl
  | ⟨1, _⟩ => rfl

/-- A row `[1, b]` broadcast (host) along axes `[0, 1]` to `[a, b]` reads, at `(p, c)`, the row's entry `c`. -/
theorem bcastInDim_1b_ab_apply {a b : ℕ} (v : (⟨2, ![1, b]⟩ : Shape).Idx → α)
    (h : (⟨2, ![1, b]⟩ : Shape).BroadcastsInDim ⟨2, ![a, b]⟩ ![0, 1]) (p : Fin a) (c : Fin b) :
    broadcastInDim ⟨2, ![a, b]⟩ ![0, 1] h v (ix2 p c) = v (ix2 (0 : Fin 1) c) := by
  refine broadcastInDim_apply ![0, 1] h v (ix2 p c) (ix2 (0 : Fin 1) c) fun ax => ?_
  match ax with
  | ⟨0, _⟩ => rfl
  | ⟨1, _⟩ =>
    show c.val = if b = 1 then 0 else c.val
    split
    · have := c.isLt; omega
    · rfl

/-- A vector `[b]` broadcast (host) along axis `[1]` to a row `[1, b]` reads, at `(u, c)`, the vector's entry `c`. -/
theorem bcastInDim_b_1b_apply {b : ℕ} (v : (⟨1, ![b]⟩ : Shape).Idx → α)
    (h : (⟨1, ![b]⟩ : Shape).BroadcastsInDim ⟨2, ![1, b]⟩ ![1]) (u : Fin 1) (c : Fin b) :
    broadcastInDim ⟨2, ![1, b]⟩ ![1] h v (ix2 u c) = v (ix1 c) := by
  refine broadcastInDim_apply ![1] h v (ix2 u c) (ix1 c) fun ax => ?_
  match ax with
  | ⟨0, _⟩ =>
    show c.val = if b = 1 then 0 else c.val
    split
    · have := c.isLt; omega
    · rfl

/-- A vector `[a]` broadcast (host) along axis `[0]` to a column `[a, 1]` reads, at `(p, u)`, the vector's entry `p`. -/
theorem bcastInDim_a_a1_apply {a : ℕ} (v : (⟨1, ![a]⟩ : Shape).Idx → α)
    (h : (⟨1, ![a]⟩ : Shape).BroadcastsInDim ⟨2, ![a, 1]⟩ ![0]) (p : Fin a) (u : Fin 1) :
    broadcastInDim ⟨2, ![a, 1]⟩ ![0] h v (ix2 p u) = v (ix1 p) := by
  refine broadcastInDim_apply ![0] h v (ix2 p u) (ix1 p) fun ax => ?_
  match ax with
  | ⟨0, _⟩ =>
    show p.val = if a = 1 then 0 else p.val
    split
    · have := p.isLt; omega
    · rfl

/-- A vector `[a]` cast to a column `[a, 1]` reads, at `(p, u)`, the vector's entry `p`. -/
theorem shapeCast_a_a1_apply {a : ℕ} (v : (⟨1, ![a]⟩ : Shape).Idx → α)
    (h : (⟨1, ![a]⟩ : Shape).ShapeCasts ⟨2, ![a, 1]⟩) (p : Fin a) (u : Fin 1) :
    shapeCast ⟨2, ![a, 1]⟩ v h (ix2 p u) = v (ix1 p) :=
  shapeCast_apply v h _ _ (by
    have hu : u.val = 0 := by omega
    rw [Shape.rowMajor_val_two, Shape.rowMajor_val_one]
    show p.val = p.val * 1 + u.val
    rw [hu]; omega)

/-- So the cast of a vector to a column and its broadcast to a column are one array. -/
theorem shapeCast_a_a1_eq_bcastInDim {a : ℕ} (v : (⟨1, ![a]⟩ : Shape).Idx → α)
    (h : (⟨1, ![a]⟩ : Shape).ShapeCasts ⟨2, ![a, 1]⟩) (h' : (⟨1, ![a]⟩ : Shape).BroadcastsInDim ⟨2, ![a, 1]⟩ ![0]) :
    shapeCast ⟨2, ![a, 1]⟩ v h = broadcastInDim ⟨2, ![a, 1]⟩ ![0] h' v := by
  funext j
  obtain ⟨p, u, rfl⟩ : ∃ (p : Fin a) (u : Fin 1), j = ix2 p u := ⟨j 0, j 1, eq_ix2 j⟩
  rw [shapeCast_a_a1_apply, bcastInDim_a_a1_apply]

/-- A scalar broadcast (host) to any shape reads its one entry everywhere. -/
theorem bcastInDim_scalar_apply {t : Shape} (v : (⟨0, ![]⟩ : Shape).Idx → α)
    (h : (⟨0, ![]⟩ : Shape).BroadcastsInDim t (![] : Fin 0 → Fin t.rank)) (j : t.Idx) (k : (⟨0, ![]⟩ : Shape).Idx) :
    broadcastInDim t ![] h v j = v k :=
  broadcastInDim_apply ![] h v j k fun ax => ax.elim0

end Cert.LibColumn
-- ==== Proof.Combine.lean ====
/-
  The combine step of one graph-convolution layer, as a function of whole arrays and read at an entry.

  With A the aggregated neighbour term, S the per-node self-loop weight, H the layer's linear transform and B the
  bias, the layer's output at node n and column q is the logistic function of A(n, q) + S(n) · H(n, q) + B(q). The
  host program spells the logistic function out as 1 / (1 + exp(−x)); the vector unit has it as one operation, which
  on the extended reals is that same expression, and multiplies its argument by the constant one first, which
  changes nothing. The last layer (one output column) also divides by the constant one on the host side.
-/
import proofs.«146808_j25752623907304_2_alg».proof.Proof.Gen.ReferenceIdeal.Read
import proofs.«146808_j25752623907304_2_alg».proof.Proof.LibColumn
import Idealize.ShloMosaic.PureOps.Ideal
import Idealize.ShloMosaic.Lib.ValueIdx

noncomputable section

namespace Cert.Combine

open Idealize.ShloMosaic Idealize.ShloMosaic.ValueIdx Cert.ReferenceIdeal Cert.ReferenceIdeal.Gen

/-! ## Scalars -/

/-- The f32 word 0x3F800000 is the real number one. -/
theorem one_bits : Ideal.ofBits .f32 0x3F800000#32 = 1 := by
  simp [Ideal.ofBits, Ideal.ieee, -EReal.coe_mul]; norm_num

/-- Dividing an extended real by one leaves it. -/
theorem div_one (x : EReal) : Ideal.div x 1 = x := by
  have h := Ideal.div_coe (y := 1) one_ne_zero x
  rw [EReal.coe_one] at h
  rw [h]; norm_num

/-- The vector unit's logistic of x · 1 is the host's spelt-out 1 / (1 + exp(−x)). -/
theorem logistic_mul_one (x : EReal) :
    Ideal.logistic (x * Ideal.ofBits .f32 0x3F800000#32) = Ideal.div (Ideal.ofBits .f32 0x3F800000#32) (Ideal.ofBits .f32 0x3F800000#32 + Ideal.exp (-x)) := by
  rw [one_bits, mul_one]; rfl

/-! ## The wide layers: 50000 nodes, 64 columns -/

/-- The host's combine step on 64 columns. -/
def ref64 (A : FVec Ideal S50000x64 .f32) (S : FVec Ideal S50000 .f32) (H : FVec Ideal S50000x64 .f32) (B : FVec Ideal S64 .f32) :
    FVec Ideal S50000x64 .f32 :=
  Host.divf (broadcastInDim S50000x64 ![] bcast_S_S50000x64 (constant S_ .f32 0x3F800000#32))
    (addf (broadcastInDim S50000x64 ![] bcast_S_S50000x64 (constant S_ .f32 0x3F800000#32))
      (Host.exp (Host.negf (addf (addf A (mulf (broadcastInDim S50000x64 ![0, 1] bcast_S50000x1_S50000x64_0_1
          (broadcastInDim S50000x1 ![0] bcast_S50000_S50000x1_0 S)) H))
        (broadcastInDim S50000x64 ![0, 1] bcast_S1x64_S50000x64_0_1 (broadcastInDim S1x64 ![1] bcast_S64_S1x64_1 B))))))

/-- The host's combine step at node P and column q. -/
theorem ref64_apply (A : FVec Ideal S50000x64 .f32) (S : FVec Ideal S50000 .f32) (H : FVec Ideal S50000x64 .f32) (B : FVec Ideal S64 .f32)
    (P : Fin 50000) (q : Fin 64) :
    ref64 A S H B (ix2 P q) = Ideal.div (Ideal.ofBits .f32 0x3F800000#32)
      (Ideal.ofBits .f32 0x3F800000#32 + Ideal.exp (-(A (ix2 P q) + S (ix1 P) * H (ix2 P q) + B (ix1 q)))) := by
  unfold ref64
  show Ideal.div (broadcastInDim S50000x64 ![] bcast_S_S50000x64 (constant (F := Ideal) S_ .f32 0x3F800000#32) (ix2 P q))
      (broadcastInDim S50000x64 ![] bcast_S_S50000x64 (constant (F := Ideal) S_ .f32 0x3F800000#32) (ix2 P q)
        + Ideal.exp (-(A (ix2 P q)
          + broadcastInDim S50000x64 ![0, 1] bcast_S50000x1_S50000x64_0_1 (broadcastInDim S50000x1 ![0] bcast_S50000_S50000x1_0 S) (ix2 P q) * H (ix2 P q)
          + broadcastInDim S50000x64 ![0, 1] bcast_S1x64_S50000x64_0_1 (broadcastInDim S1x64 ![1] bcast_S64_S1x64_1 B) (ix2 P q)))) = _
  rw [Cert.LibColumn.bcastInDim_scalar_apply _ _ (ix2 P q) ix0,
    Cert.LibColumn.bcastInDim_a1_ab_apply, Cert.LibColumn.bcastInDim_a_a1_apply,
    Cert.LibColumn.bcastInDim_1b_ab_apply, Cert.LibColumn.bcastInDim_b_1b_apply]
  rfl

/-! ## The last layer: 50000 nodes, one column, the host's division by the temperature one -/

/-- The vector unit's logistic of x · 1 is the host's 1 / (1 + exp(−(x / 1))). -/
theorem logistic_mul_one_div (x : EReal) :
    Ideal.logistic (x * Ideal.ofBits .f32 0x3F800000#32)
      = Ideal.div (Ideal.ofBits .f32 0x3F800000#32) (Ideal.ofBits .f32 0x3F800000#32 + Ideal.exp (-(Ideal.div x (Ideal.ofBits .f32 0x3F800000#32)))) := by
  rw [one_bits, mul_one, div_one]; rfl

/-- The host's combine step on one column. -/
def ref1 (A : FVec Ideal S50000x1 .f32) (S : FVec Ideal S50000 .f32) (H : FVec Ideal S50000x1 .f32) (B : FVec Ideal S1 .f32) :
    FVec Ideal S50000x1 .f32 :=
  Host.divf (broadcastInDim S50000x1 ![] bcast_S_S50000x1 (constant S_ .f32 0x3F800000#32))
    (addf (broadcastInDim S50000x1 ![] bcast_S_S50000x1 (constant S_ .f32 0x3F800000#32))
      (Host.exp (Host.negf (Host.divf (addf (addf A (mulf (broadcastInDim S50000x1 ![0] bcast_S50000_S50000x1_0 S) H))
          (broadcastInDim S50000x1 ![0, 1] bcast_S1x1_S50000x1_0_1 (broadcastInDim S1x1 ![1] bcast_S1_S1x1_1 B)))
        (broadcastInDim S50000x1 ![] bcast_S_S50000x1 (constant S_ .f32 0x3F800000#32))))))

/-- The host's combine step on one column at node P. -/
theorem ref1_apply (A : FVec Ideal S50000x1 .f32) (S : FVec Ideal S50000 .f32) (H : FVec Ideal S50000x1 .f32) (B : FVec Ideal S1 .f32)
    (P : Fin 50000) (q : Fin 1) :
    ref1 A S H B (ix2 P q) = Ideal.div (Ideal.ofBits .f32 0x3F800000#32)
      (Ideal.ofBits .f32 0x3F800000#32 + Ideal.exp (-(Ideal.div (A (ix2 P q) + S (ix1 P) * H (ix2 P q) + B (ix1 q)) (Ideal.ofBits .f32 0x3F800000#32)))) := by
  unfold ref1
  show Ideal.div (broadcastInDim S50000x1 ![] bcast_S_S50000x1 (constant (F := Ideal) S_ .f32 0x3F800000#32) (ix2 P q))
      (broadcastInDim S50000x1 ![] bcast_S_S50000x1 (constant (F := Ideal) S_ .f32 0x3F800000#32) (ix2 P q)
        + Ideal.exp (-(Ideal.div (A (ix2 P q)
          + broadcastInDim S50000x1 ![0] bcast_S50000_S50000x1_0 S (ix2 P q) * H (ix2 P q)
          + broadcastInDim S50000x1 ![0, 1] bcast_S1x1_S50000x1_0_1 (broadcastInDim S1x1 ![1] bcast_S1_S1x1_1 B) (ix2 P q))
          (broadcastInDim S50000x1 ![] bcast_S_S50000x1 (constant (F := Ideal) S_ .f32 0x3F800000#32) (ix2 P q))))) = _
  rw [Cert.LibColumn.bcastInDim_scalar_apply _ _ (ix2 P q) ix0,
    Cert.LibColumn.bcastInDim_a_a1_apply,
    Cert.LibColumn.bcastInDim_1b_ab_apply, Cert.LibColumn.bcastInDim_b_1b_apply]
  rfl

end Cert.Combine

end
-- ==== Proof.Region1.lean ====
/-
  Region 1: the first layer's combine step, one block of 10000 nodes per grid point.

  Grid point t loads rows 10000·t … 10000·t + 9999 of the aggregated neighbour term, of the layer's linear transform
  and of the self-loop weights (a column), and the bias (a row), and writes into the same rows of the output the
  logistic function of aggregate + weight · transform + bias, the weight stretched along the columns and the bias
  along the rows. Entry (p, q) of the block is the host's combine step at node 10000·t + p and column q; the five blocks
  tile the output.
-/
import proofs.«146808_j25752623907304_2_alg».proof.Proof.Gen.KernelIdeal.Frame
import proofs.«146808_j25752623907304_2_alg».proof.Proof.Gen.ReferenceIdeal.Read
import proofs.«146808_j25752623907304_2_alg».proof.Proof.Combine
import Idealize.ShloMosaic.Lib.ValueLayout

set_option maxRecDepth 16384

noncomputable section

namespace Cert.KernelIdeal.Region1

open Cert.KernelIdeal Cert.KernelIdeal.Gen
open Idealize.ShloMosaic Idealize.ShloMosaic.TcCoe Idealize.ShloMosaic.ValueIdx Idealize.SL.Sem
open Idealize.ShloMosaic.Pipeline (Dat Cfg Window)

theorem hz : (![0, 0] : Fin 2 → Nat) = fun _ => 0 := funext fun a => by fin_cases a <;> rfl

/-- Entry (p, q) of a block's result is the host's combine step at (P, q) when the blocks' entries are the arrays'
    at node P. -/
theorem pay_apply (b0 : Vec Ideal S10000x64 .f32) (b2 : Vec Ideal S10000x1 .f32) (b4 : Vec Ideal S10000x64 .f32) (b9 : Vec Ideal S1x64 .f32)
    (A : FVec Ideal Cert.ReferenceIdeal.S50000x64 .f32) (S : FVec Ideal Cert.ReferenceIdeal.S50000 .f32)
    (H : FVec Ideal Cert.ReferenceIdeal.S50000x64 .f32) (B : FVec Ideal Cert.ReferenceIdeal.S64 .f32)
    (p : Fin 10000) (q : Fin 64) (P : Fin 50000)
    (hA : b0 (ix2 p q) = A (ix2 P q)) (hS : b2 (ix2 p (0 : Fin 1)) = S (ix1 P))
    (hH : b4 (ix2 p q) = H (ix2 P q)) (hB : b9 (ix2 (0 : Fin 1) q) = B (ix1 q)) :
    k1_pay1 (F := Ideal) b0 b2 b4 b9 (ix2 p q) = Cert.Combine.ref64 A S H B (ix2 P q) := by
  rw [Cert.Combine.ref64_apply]
  unfold k1_pay1
  show Ideal.logistic ((shapeCast S10000x64 b0 shapeCasts_S10000x64_S10000x64 (ix2 p q)
      + broadcastTo S10000x64 (shapeCast S10000x1 b2 shapeCasts_S10000x1_S10000x1) broadcasts_S10000x1_S10000x64 (ix2 p q)
        * shapeCast S10000x64 b4 shapeCasts_S10000x64_S10000x64 (ix2 p q)
      + broadcastTo S10000x64 (shapeCast S1x64 b9 shapeCasts_S1x64_S1x64) broadcasts_S1x64_S10000x64 (ix2 p q))
      * Ideal.ofBits .f32 0x3F800000#32) = _
  rw [shapeCast_self, shapeCast_self, shapeCast_self, shapeCast_self, Cert.LibColumn.broadcastTo_a1_ab_apply,
    broadcastTo_1b_ab_apply, hA, hS, hH, hB]
  exact Cert.Combine.logistic_mul_one _

/-- The index maps over the grid: the three row-blocked inputs and the output move together along the rows, the
    bias row stays. -/
theorem idx_facts : ∀ t : Fin cfg1.N, win1_0.index t (0 : Fin 2) = t.val ∧ win1_0.index t (1 : Fin 2) = 0
    ∧ win1_1.index t (0 : Fin 2) = t.val ∧ win1_1.index t (1 : Fin 2) = 0
    ∧ win1_2.index t (0 : Fin 2) = t.val ∧ win1_2.index t (1 : Fin 2) = 0
    ∧ win1_3.index t (0 : Fin 2) = 0 ∧ win1_3.index t (1 : Fin 2) = 0
    ∧ win1_4.index t (0 : Fin 2) = t.val ∧ win1_4.index t (1 : Fin 2) = 0 :=
  (by decide +kernel : ∀ t : Fin grid1.N, _)

variable (V : (c : Dev nD) → (b : Ref sig .tc) → Buf (Elt Ideal) ((c : Thread nD τ).loc b))

theorem flushed_eq (c : Dev nD) (A : FVec Ideal Cert.ReferenceIdeal.S50000x64 .f32) (S : FVec Ideal Cert.ReferenceIdeal.S50000 .f32)
    (H : FVec Ideal Cert.ReferenceIdeal.S50000x64 .f32) (B : FVec Ideal Cert.ReferenceIdeal.S64 .f32)
    (hA : V c main_v40 = A) (hH : V c main_v27 = H)
    (hS : ∀ P : Fin 50000, V c main_v41 (ix2 P (0 : Fin 1)) = S (ix1 P))
    (hB : ∀ q : Fin 64, V c main_v42 (ix2 (0 : Fin 1) q) = B (ix1 q)) (t : Fin cfg1.N) :
    (dat1 V c).flushed 4 t = ((cfg1.win 4).blk t).view.read (Elt Ideal) (Cert.Combine.ref64 A S H B) := by
  show (cfg1.win 4).cut (grid1.coords t) ((dat1 V c).after 4 t) = _
  rw [after1_4]
  unfold out1_4
  rw [View.canon_unit_zero hz]
  simp only [View.ld_unit_zero (S := S10000x64) hz, View.ld_unit_zero (S := S10000x1) hz, View.ld_unit_zero (S := S1x64) hz]
  obtain ⟨e0, e1, e2, e3, e4, e5, e6, e7, e8, e9⟩ := idx_facts t
  funext j
  obtain ⟨p, q, rfl⟩ : ∃ (p : Fin 10000) (q : Fin 64), j = ix2 p q := ⟨j 0, j 1, eq_ix2 j⟩
  have hp : p.val < 10000 := p.isLt
  have ht : t.val < 5 := t.isLt
  show k1_pay1 (iblk1 V c 0 t) (iblk1 V c 2 t) (iblk1 V c 1 t) (iblk1 V c 3 t) (ix2 p q)
    = Cert.Combine.ref64 A S H B (((cfg1.win 4).blk t).view.emb (ix2 p q))
  have hemb : ((cfg1.win 4).blk t).view.emb (ix2 p q) = ix2 (⟨t.val * 10000 + p.val, by omega⟩ : Fin 50000) q := by
    funext a; apply Fin.ext
    match a with
    | ⟨0, _⟩ => show win1_4.index t (0 : Fin 2) * 10000 + 1 * p.val = t.val * 10000 + p.val; omega
    | ⟨1, _⟩ => show win1_4.index t (1 : Fin 2) * 64 + 1 * q.val = q.val; omega
  rw [hemb]
  refine pay_apply (iblk1 V c 0 t) (iblk1 V c 2 t) (iblk1 V c 1 t) (iblk1 V c 3 t) A S H B p q ⟨t.val * 10000 + p.val, by omega⟩ ?_ ?_ ?_ ?_
  · show V c main_v40 (((cfg1.win 0).blk t).view.emb (ix2 p q)) = _
    rw [hA]
    refine congrArg A ?_
    funext a; apply Fin.ext
    match a with
    | ⟨0, _⟩ => show win1_0.index t (0 : Fin 2) * 10000 + 1 * p.val = t.val * 10000 + p.val; omega
    | ⟨1, _⟩ => show win1_0.index t (1 : Fin 2) * 64 + 1 * q.val = q.val; omega
  · show V c main_v41 (((cfg1.win 2).blk t).view.emb (ix2 p (0 : Fin 1))) = _
    rw [← hS]
    refine congrArg (V c main_v41) ?_
    funext a; apply Fin.ext
    match a with
    | ⟨0, _⟩ => show win1_2.index t (0 : Fin 2) * 10000 + 1 * p.val = t.val * 10000 + p.val; omega
    | ⟨1, _⟩ => show win1_2.index t (1 : Fin 2) * 1 + 1 * 0 = 0; omega
  · show V c main_v27 (((cfg1.win 1).blk t).view.emb (ix2 p q)) = _
    rw [hH]
    refine congrArg H ?_
    funext a; apply Fin.ext
    match a with
    | ⟨0, _⟩ => show win1_1.index t (0 : Fin 2) * 10000 + 1 * p.val = t.val * 10000 + p.val; omega
    | ⟨1, _⟩ => show win1_1.index t (1 : Fin 2) * 64 + 1 * q.val = q.val; omega
  · show V c main_v42 (((cfg1.win 3).blk t).view.emb (ix2 (0 : Fin 1) q)) = _
    rw [← hB]
    refine congrArg (V c main_v42) ?_
    funext a; apply Fin.ext
    match a with
    | ⟨0, _⟩ => show win1_3.index t (0 : Fin 2) * 1 + 1 * 0 = 0; omega
    | ⟨1, _⟩ => show win1_3.index t (1 : Fin 2) * 64 + 1 * q.val = q.val; omega

/-- An index of the output array is in point t's block iff each coordinate is in the block's range. -/
theorem mem_blk (t : Fin cfg1.N) (i : S50000x64.Idx) :
    i ∈ ((cfg1.win 4).blk t).view.set ↔ ∀ a : Fin 2, win1_4.index t a * S10000x64.size a ≤ (i a).val ∧ (i a).val < win1_4.index t a * S10000x64.size a + S10000x64.size a := by
  show i ∈ ((View.whole main_v43).slice (win1_4.rect t)).set ↔ _
  rw [View.set_slice_whole, Rect.mem_set_unit]
  exact Iff.rfl

/-- The five row blocks tile the output: row r is in the block of point r / 10000. -/
theorem cover (i : S50000x64.Idx) : ∃ t : Fin cfg1.N, (cfg1.win 4).flush t = true ∧ i ∈ ((cfg1.win 4).blk t).view.set := by
  have hi0 : (i 0).val < 50000 := (i 0).isLt
  have hi1 : (i 1).val < 64 := (i 1).isLt
  refine ⟨⟨(i 0).val / 10000, by show (i 0).val / 10000 < 5; omega⟩, flush1_4 _, ?_⟩
  rw [mem_blk]
  obtain ⟨e0, e1, e2, e3, e4, e5, e6, e7, e8, e9⟩ := idx_facts ⟨(i 0).val / 10000, by show (i 0).val / 10000 < 5; omega⟩
  intro a
  match a with
  | ⟨0, _⟩ => show win1_4.index _ (0 : Fin 2) * 10000 ≤ (i 0).val ∧ (i 0).val < win1_4.index _ (0 : Fin 2) * 10000 + 10000; rw [e8]; show (i 0).val / 10000 * 10000 ≤ (i 0).val ∧ (i 0).val < (i 0).val / 10000 * 10000 + 10000; omega
  | ⟨1, _⟩ => show win1_4.index _ (1 : Fin 2) * 64 ≤ (i 1).val ∧ (i 1).val < win1_4.index _ (1 : Fin 2) * 64 + 64; rw [e9]; omega

/-- THE OUTPUT ARRAY after the region is the host's combine step of the arrays the region found. -/
theorem final (c : Dev nD) (A : FVec Ideal Cert.ReferenceIdeal.S50000x64 .f32) (S : FVec Ideal Cert.ReferenceIdeal.S50000 .f32)
    (H : FVec Ideal Cert.ReferenceIdeal.S50000x64 .f32) (B : FVec Ideal Cert.ReferenceIdeal.S64 .f32)
    (hA : V c main_v40 = A) (hH : V c main_v27 = H)
    (hS : ∀ P : Fin 50000, V c main_v41 (ix2 P (0 : Fin 1)) = S (ix1 P))
    (hB : ∀ q : Fin 64, V c main_v42 (ix2 (0 : Fin 1) q) = B (ix1 q)) :
    (dat1 V c).arrAt 4 cfg1.N = Cert.Combine.ref64 A S H B :=
  (dat1 V c).arrAt_eq_of_cover 4 (Cert.Combine.ref64 A S H B)
    (fun t _ => flushed_eq V c A S H B hA hH hS hB t) cover

end Cert.KernelIdeal.Region1

end
-- ==== Proof.Region2.lean ====
/-
  Region 2: the second dense layer's product, one block of 10000 rows per grid point.

  Grid point t loads rows 10000·t … 10000·t + 9999 of the 50000 × 64 input and the whole 64 × 64 weight, and writes
  their product into the same rows of the output. On the extended reals rounding an operand to a narrower format, and
  a cast to its own shape, are the identity, and entry (p, q) of the block's product is the sum over k of
  input(10000·t + p, k) · weight(k, q): entry (10000·t + p, q) of the product of the whole arrays. The five blocks tile
  the output, so the output array ends at the whole product.
-/
import proofs.«146808_j25752623907304_2_alg».proof.Proof.Gen.KernelIdeal.Frame
import proofs.«146808_j25752623907304_2_alg».proof.Proof.Gen.ReferenceIdeal.Read
import proofs.«146808_j25752623907304_2_alg».proof.Proof.LibBlockDot

set_option maxRecDepth 16384

noncomputable section

namespace Cert.KernelIdeal.Region2

open Cert.KernelIdeal Cert.KernelIdeal.Gen
open Idealize.ShloMosaic Idealize.ShloMosaic.TcCoe Idealize.ShloMosaic.ValueIdx Idealize.SL.Sem
open Idealize.ShloMosaic.Pipeline (Dat Cfg Window)

theorem hz : (![0, 0] : Fin 2 → Nat) = fun _ => 0 := funext fun a => by fin_cases a <;> rfl

/-- Entry (p, q) of a block's product is entry (P, q) of the whole product when the block's row p is the array's
    row P. -/
theorem pay_apply (b0 : Vec Ideal S10000x64 .f32) (b1 : Vec Ideal S64x64 .f32)
    (X : FVec Ideal Cert.ReferenceIdeal.S50000x64 .f32) (Wt : FVec Ideal Cert.ReferenceIdeal.S64x64 .f32)
    (p : Fin 10000) (q : Fin 64) (P : Fin 50000)
    (h0 : ∀ k : Fin 64, b0 (ix2 p k) = X (ix2 P k)) (h1 : ∀ k : Fin 64, b1 (ix2 k q) = Wt (ix2 k q)) :
    k2_pay1 (F := Ideal) b0 b1 (ix2 p q) = Cert.ReferenceIdeal.Read.val_main_v27 (F := Ideal) X Wt (ix2 P q) := by
  unfold k2_pay1 Cert.ReferenceIdeal.Read.val_main_v27
  exact Cert.LibBlockDot.matmul_block_apply (R := 10000) (K := 64) (C := 64) (N := 50000)
    dot_S10000x64_S64x64_S10000x64_1_0_0_1_n_n rfl rfl rfl rfl rfl rfl
    Cert.ReferenceIdeal.dot_S50000x64_S64x64_S50000x64_1_0_0_1_n_n.wf none none _ _ X Wt p P q
    (fun k => (congrFun (shapeCast_self b0 shapeCasts_S10000x64_S10000x64) (ix2 p k)).trans (h0 k)) h1

/-- The index maps over the grid: the input's and the output's blocks move together along the rows, the weight's
    block stays. -/
theorem idx_facts : ∀ t : Fin cfg2.N, win2_0.index t (0 : Fin 2) = t.val ∧ win2_0.index t (1 : Fin 2) = 0
    ∧ win2_1.index t (0 : Fin 2) = 0 ∧ win2_1.index t (1 : Fin 2) = 0
    ∧ win2_2.index t (0 : Fin 2) = t.val ∧ win2_2.index t (1 : Fin 2) = 0 :=
  (by decide +kernel : ∀ t : Fin grid2.N, _)

variable (V : (c : Dev nD) → (b : Ref sig .tc) → Buf (Elt Ideal) ((c : Thread nD τ).loc b))

theorem flushed_eq (c : Dev nD) (x0 : FVec Ideal Cert.ReferenceIdeal.S50000x64 .f32) (x3 : FVec Ideal Cert.ReferenceIdeal.S64x64 .f32)
    (h0 : V c main_v43 = x0) (h3 : V c main_arg5 = x3) (t : Fin cfg2.N) :
    (dat2 V c).flushed 2 t = ((cfg2.win 2).blk t).view.read (Elt Ideal) (Cert.ReferenceIdeal.Read.val_main_v27 (F := Ideal) x0 x3) := by
  show (cfg2.win 2).cut (grid2.coords t) ((dat2 V c).after 2 t) = _
  rw [after2_2]
  unfold out2_2
  rw [View.canon_unit_zero hz]
  simp only [View.ld_unit_zero (S := S10000x64) hz, View.ld_unit_zero (S := S64x64) hz]
  obtain ⟨e0, e1, e2, e3, e4, e5⟩ := idx_facts t
  funext j
  obtain ⟨p, q, rfl⟩ : ∃ (p : Fin 10000) (q : Fin 64), j = ix2 p q := ⟨j 0, j 1, eq_ix2 j⟩
  have hp : p.val < 10000 := p.isLt
  have ht : t.val < 5 := t.isLt
  show k2_pay1 (iblk2 V c 0 t) (iblk2 V c 1 t) (ix2 p q)
    = Cert.ReferenceIdeal.Read.val_main_v27 (F := Ideal) x0 x3 (((cfg2.win 2).blk t).view.emb (ix2 p q))
  have hemb : ((cfg2.win 2).blk t).view.emb (ix2 p q) = ix2 (⟨t.val * 10000 + p.val, by omega⟩ : Fin 50000) q := by
    funext a; apply Fin.ext
    match a with
    | ⟨0, _⟩ => show win2_2.index t (0 : Fin 2) * 10000 + 1 * p.val = t.val * 10000 + p.val; omega
    | ⟨1, _⟩ => show win2_2.index t (1 : Fin 2) * 64 + 1 * q.val = q.val; omega
  rw [hemb]
  refine pay_apply (iblk2 V c 0 t) (iblk2 V c 1 t) x0 x3 p q ⟨t.val * 10000 + p.val, by omega⟩ (fun k => ?_) (fun k => ?_)
  · show V c main_v43 (((cfg2.win 0).blk t).view.emb (ix2 p k)) = _
    rw [h0]
    refine congrArg x0 ?_
    funext a; apply Fin.ext
    match a with
    | ⟨0, _⟩ => show win2_0.index t (0 : Fin 2) * 10000 + 1 * p.val = t.val * 10000 + p.val; omega
    | ⟨1, _⟩ => show win2_0.index t (1 : Fin 2) * 64 + 1 * k.val = k.val; omega
  · show V c main_arg5 (((cfg2.win 1).blk t).view.emb (ix2 k q)) = _
    rw [h3]
    refine congrArg x3 ?_
    funext a; apply Fin.ext
    match a with
    | ⟨0, _⟩ => show win2_1.index t (0 : Fin 2) * 64 + 1 * k.val = k.val; omega
    | ⟨1, _⟩ => show win2_1.index t (1 : Fin 2) * 64 + 1 * q.val = q.val; omega

/-- An index of the output array is in point t's block iff each coordinate is in the block's range. -/
theorem mem_blk (t : Fin cfg2.N) (i : S50000x64.Idx) :
    i ∈ ((cfg2.win 2).blk t).view.set ↔ ∀ a : Fin 2, win2_2.index t a * S10000x64.size a ≤ (i a).val ∧ (i a).val < win2_2.index t a * S10000x64.size a + S10000x64.size a := by
  show i ∈ ((View.whole main_v44).slice (win2_2.rect t)).set ↔ _
  rw [View.set_slice_whole, Rect.mem_set_unit]
  exact Iff.rfl

/-- The five row blocks tile the output: row r is in the block of point r / 10000. -/
theorem cover (i : S50000x64.Idx) : ∃ t : Fin cfg2.N, (cfg2.win 2).flush t = true ∧ i ∈ ((cfg2.win 2).blk t).view.set := by
  have hi0 : (i 0).val < 50000 := (i 0).isLt
  have hi1 : (i 1).val < 64 := (i 1).isLt
  refine ⟨⟨(i 0).val / 10000, by show (i 0).val / 10000 < 5; omega⟩, flush2_2 _, ?_⟩
  rw [mem_blk]
  obtain ⟨e0, e1, e2, e3, e4, e5⟩ := idx_facts ⟨(i 0).val / 10000, by show (i 0).val / 10000 < 5; omega⟩
  intro a
  match a with
  | ⟨0, _⟩ => show win2_2.index _ (0 : Fin 2) * 10000 ≤ (i 0).val ∧ (i 0).val < win2_2.index _ (0 : Fin 2) * 10000 + 10000; rw [e4]; show (i 0).val / 10000 * 10000 ≤ (i 0).val ∧ (i 0).val < (i 0).val / 10000 * 10000 + 10000; omega
  | ⟨1, _⟩ => show win2_2.index _ (1 : Fin 2) * 64 ≤ (i 1).val ∧ (i 1).val < win2_2.index _ (1 : Fin 2) * 64 + 64; rw [e5]; omega

/-- THE OUTPUT ARRAY after the region is the whole product of the arrays the region found. -/
theorem final (c : Dev nD) (x0 : FVec Ideal Cert.ReferenceIdeal.S50000x64 .f32) (x3 : FVec Ideal Cert.ReferenceIdeal.S64x64 .f32)
    (h0 : V c main_v43 = x0) (h3 : V c main_arg5 = x3) :
    (dat2 V c).arrAt 2 cfg2.N = Cert.ReferenceIdeal.Read.val_main_v27 (F := Ideal) x0 x3 :=
  (dat2 V c).arrAt_eq_of_cover 2 (Cert.ReferenceIdeal.Read.val_main_v27 (F := Ideal) x0 x3)
    (fun t _ => flushed_eq V c x0 x3 h0 h3 t) cover

end Cert.KernelIdeal.Region2

end
-- ==== Proof.RefSteps.lean ====
/-
  The reference's stages, layer by layer.

  The idealized reference's stages are nested definitions over the argument arrays. Grouped by layer they are: a
  dense product, then the combine step of the aggregate, the self-loop weight, the product and the bias. These
  equations only regroup the definitions; nothing is computed.
-/
import proofs.«146808_j25752623907304_2_alg».proof.Proof.Gen.ReferenceIdeal.Read
import proofs.«146808_j25752623907304_2_alg».proof.Proof.Combine

noncomputable section

namespace Cert.RefSteps

open Idealize.ShloMosaic Cert.ReferenceIdeal Cert.ReferenceIdeal.Gen Cert.ReferenceIdeal.Read

variable (x0 : FVec Ideal S50000x64 .f32) (x1 : IVec S2x800000 32) (x3 : FVec Ideal S64x64 .f32) (x4 : FVec Ideal S64 .f32)
  (x5 : FVec Ideal S64x64 .f32) (x6 : FVec Ideal S64 .f32) (x7 : FVec Ideal S64x1 .f32) (x8 : FVec Ideal S1 .f32)

/-- Layer 1's output is the combine step of its aggregate, the self-loop weight, its product and its bias. -/
theorem v53_eq : val_main_v53 (F := Ideal) x0 x1 x3 x4
    = Cert.Combine.ref64 (val_main_v40 (F := Ideal) x0 x1 x3) (val_main_v26 (F := Ideal) x1) (val_main_v27 (F := Ideal) x0 x3) x4 := rfl

/-- Layer 2's product is the dense product of layer 1's output with the second weight. -/
theorem v54_eq : val_main_v54 (F := Ideal) x0 x1 x3 x4 x5 = val_main_v27 (F := Ideal) (val_main_v53 (F := Ideal) x0 x1 x3 x4) x5 := rfl

/-- Layer 2's output. -/
theorem v80_eq : val_main_v80 (F := Ideal) x0 x1 x3 x4 x5 x6
    = Cert.Combine.ref64 (val_main_v67 (F := Ideal) x0 x1 x3 x4 x5) (val_main_v26 (F := Ideal) x1) (val_main_v54 (F := Ideal) x0 x1 x3 x4 x5) x6 := rfl

/-- Layer 3's product is the dense product of layer 2's output with the third weight (one column). -/
theorem v81_eq : val_main_v81 (F := Ideal) x0 x1 x3 x4 x5 x6 x7
    = Host.dotGeneral (F := Ideal) (φ₁ := .f32) dot_S50000x64_S64x1_S50000x1_1_0_0_1_n_n none (val_main_v80 (F := Ideal) x0 x1 x3 x4 x5 x6) x7 := rfl

/-- Layer 3's output before the final shift. -/
theorem v107_eq : val_main_v107 (F := Ideal) x0 x1 x3 x4 x5 x6 x7 x8
    = Cert.Combine.ref1 (val_main_v93 (F := Ideal) x0 x1 x3 x4 x5 x6 x7) (val_main_v26 (F := Ideal) x1) (val_main_v81 (F := Ideal) x0 x1 x3 x4 x5 x6 x7) x8 := rfl

end Cert.RefSteps

end
-- ==== Proof.Stage2.lean ====
/-
  The buffer contents through the second stretch of host operations and regions 1 and 2.

  The second stretch gathers the first product's rows at the edges' sources, scales each by its edge weight and adds
  them up at the edges' destinations (the reference's operations, on the reference's stages), and lays the self-loop
  weights out as a column and the bias as a row. Region 1 leaves the layer's combine step in its output, region 2 the
  next dense product.
-/
import proofs.«146808_j25752623907304_2_alg».proof.Proof.Gen.KernelIdeal.Frame
import proofs.«146808_j25752623907304_2_alg».proof.Proof.Gen.ReferenceIdeal.Read
import proofs.«146808_j25752623907304_2_alg».proof.Proof.Stage1
import proofs.«146808_j25752623907304_2_alg».proof.Proof.Region1
import proofs.«146808_j25752623907304_2_alg».proof.Proof.Region2
import proofs.«146808_j25752623907304_2_alg».proof.Proof.RefSteps
import proofs.«146808_j25752623907304_2_alg».proof.Proof.LibColumn
import Idealize.ShloMosaic.Lib.StableHlo.Run

set_option maxRecDepth 16384

noncomputable section

namespace Cert.KernelIdeal.Stage2

open Cert.KernelIdeal Cert.KernelIdeal.Gen
open Idealize.ShloMosaic Idealize.ShloMosaic.TcCoe Idealize.ShloMosaic.ValueIdx Idealize.SL.Sem Idealize.ShloMosaic.StableHlo
open Cert.KernelIdeal.Stage1
open Cert.ReferenceIdeal.Read (val_main_v1 val_main_v3 val_main_v25 val_main_v26 val_main_v27 val_main_v40 val_main_v53 val_main_v54 val_main_v67 val_main_v80 val_main_v81 val_main_v93 val_main_v107 val_main_v109)

variable (m : (ℓ : Loc nD τ sig) → Buf (Elt Ideal) ℓ) (ρ : Dev nD → PrngReg)

/-! ## After the second stretch -/

set_option maxHeartbeats 4000000 in
theorem W3_v40 (c : Dev nD) : W3 m ρ c (Proc.devRef .tc main_v40) = val_main_v40 (F := Ideal) (a0 m c) (a1 m c) (a3 m c) := by
  show StableHlo.after hostOps1 (W2 m ρ c) (Proc.devRef .tc main_v40) = _
  after_results_simp
  rw [W2_v27 m ρ c, W2_v1 m ρ c, W2_v3 m ρ c, W2_v25 m ρ c]
  rfl

/-- The self-loop weights as a column. -/
theorem W3_v41 (c : Dev nD) : W3 m ρ c (Proc.devRef .tc main_v41) = shapeCast S50000x1 (val_main_v26 (F := Ideal) (a1 m c)) shapeCasts_S50000_S50000x1 := by
  show StableHlo.after hostOps1 (W2 m ρ c) (Proc.devRef .tc main_v41) = _
  after_results_simp
  rw [W2_v26 m ρ c]
  rfl

theorem W3_v41_at (c : Dev nD) (P : Fin 50000) : V3 m ρ c main_v41 (ix2 P (0 : Fin 1)) = (val_main_v26 (F := Ideal) (a1 m c)) (ix1 P) := by
  show W3 m ρ c (Proc.devRef .tc main_v41) (ix2 P (0 : Fin 1)) = _
  rw [W3_v41 m ρ c]
  exact Cert.LibColumn.shapeCast_a_a1_apply _ _ P 0

/-- The bias as a row. -/
theorem W3_v42 (c : Dev nD) : W3 m ρ c (Proc.devRef .tc main_v42) = shapeCast S1x64 (a4 m c) shapeCasts_S64_S1x64 := by
  show StableHlo.after hostOps1 (W2 m ρ c) (Proc.devRef .tc main_v42) = _
  after_results_simp
  rw [W2_arg4 m ρ c]
  rfl

theorem W3_v42_at (c : Dev nD) (q : Fin 64) : V3 m ρ c main_v42 (ix2 (0 : Fin 1) q) = (a4 m c) (ix1 q) := by
  show W3 m ρ c (Proc.devRef .tc main_v42) (ix2 (0 : Fin 1) q) = _
  rw [W3_v42 m ρ c]
  exact shapeCast_a_1a_apply _ _ 0 q

theorem W3_v27 (c : Dev nD) : W3 m ρ c (Proc.devRef .tc main_v27) = val_main_v27 (F := Ideal) (a0 m c) (a3 m c) := by
  show StableHlo.after hostOps1 (W2 m ρ c) (Proc.devRef .tc main_v27) = _
  after_results_simp <;> exact W2_v27 m ρ c

theorem W3_v1 (c : Dev nD) : W3 m ρ c (Proc.devRef .tc main_v1) = val_main_v1 (F := Ideal) (a1 m c) := by
  show StableHlo.after hostOps1 (W2 m ρ c) (Proc.devRef .tc main_v1) = _
  after_results_simp <;> exact W2_v1 m ρ c

theorem W3_v3 (c : Dev nD) : W3 m ρ c (Proc.devRef .tc main_v3) = val_main_v3 (F := Ideal) (a1 m c) := by
  show StableHlo.after hostOps1 (W2 m ρ c) (Proc.devRef .tc main_v3) = _
  after_results_simp <;> exact W2_v3 m ρ c

theorem W3_v25 (c : Dev nD) : W3 m ρ c (Proc.devRef .tc main_v25) = val_main_v25 (F := Ideal) (a1 m c) := by
  show StableHlo.after hostOps1 (W2 m ρ c) (Proc.devRef .tc main_v25) = _
  after_results_simp <;> exact W2_v25 m ρ c

theorem W3_v26 (c : Dev nD) : W3 m ρ c (Proc.devRef .tc main_v26) = val_main_v26 (F := Ideal) (a1 m c) := by
  show StableHlo.after hostOps1 (W2 m ρ c) (Proc.devRef .tc main_v26) = _
  after_results_simp <;> exact W2_v26 m ρ c

theorem W3_arg5 (c : Dev nD) : W3 m ρ c (Proc.devRef .tc main_arg5) = a5 m c := by
  show StableHlo.after hostOps1 (W2 m ρ c) (Proc.devRef .tc main_arg5) = _
  after_results_simp <;> exact W2_arg5 m ρ c

theorem W3_arg6 (c : Dev nD) : W3 m ρ c (Proc.devRef .tc main_arg6) = a6 m c := by
  show StableHlo.after hostOps1 (W2 m ρ c) (Proc.devRef .tc main_arg6) = _
  after_results_simp <;> exact W2_arg6 m ρ c

theorem W3_arg7 (c : Dev nD) : W3 m ρ c (Proc.devRef .tc main_arg7) = a7 m c := by
  show StableHlo.after hostOps1 (W2 m ρ c) (Proc.devRef .tc main_arg7) = _
  after_results_simp <;> exact W2_arg7 m ρ c

theorem W3_arg8 (c : Dev nD) : W3 m ρ c (Proc.devRef .tc main_arg8) = a8 m c := by
  show StableHlo.after hostOps1 (W2 m ρ c) (Proc.devRef .tc main_arg8) = _
  after_results_simp <;> exact W2_arg8 m ρ c

/-! ## After region 1 -/

theorem W4_v43 (c : Dev nD) : W4 m ρ c (Proc.devRef .tc main_v43) = val_main_v53 (F := Ideal) (a0 m c) (a1 m c) (a3 m c) (a4 m c) :=
  ((W4_arr m ρ c 4).trans (Region1.final (V3 m ρ) c (val_main_v40 (F := Ideal) (a0 m c) (a1 m c) (a3 m c)) (val_main_v26 (F := Ideal) (a1 m c)) (val_main_v27 (F := Ideal) (a0 m c) (a3 m c)) (a4 m c)
    (W3_v40 m ρ c) (W3_v27 m ρ c) (W3_v41_at m ρ c) (W3_v42_at m ρ c))).trans
    (Cert.RefSteps.v53_eq (a0 m c) (a1 m c) (a3 m c) (a4 m c)).symm

theorem W4_v1 (c : Dev nD) : W4 m ρ c (Proc.devRef .tc main_v1) = val_main_v1 (F := Ideal) (a1 m c) :=
  (W4_of_ne m ρ c main_v1 (by decide)).trans (W3_v1 m ρ c)

theorem W4_v3 (c : Dev nD) : W4 m ρ c (Proc.devRef .tc main_v3) = val_main_v3 (F := Ideal) (a1 m c) :=
  (W4_of_ne m ρ c main_v3 (by decide)).trans (W3_v3 m ρ c)

theorem W4_v25 (c : Dev nD) : W4 m ρ c (Proc.devRef .tc main_v25) = val_main_v25 (F := Ideal) (a1 m c) :=
  (W4_of_ne m ρ c main_v25 (by decide)).trans (W3_v25 m ρ c)

theorem W4_v26 (c : Dev nD) : W4 m ρ c (Proc.devRef .tc main_v26) = val_main_v26 (F := Ideal) (a1 m c) :=
  (W4_of_ne m ρ c main_v26 (by decide)).trans (W3_v26 m ρ c)

theorem W4_arg5 (c : Dev nD) : W4 m ρ c (Proc.devRef .tc main_arg5) = a5 m c :=
  (W4_of_ne m ρ c main_arg5 (by decide)).trans (W3_arg5 m ρ c)

theorem W4_arg6 (c : Dev nD) : W4 m ρ c (Proc.devRef .tc main_arg6) = a6 m c :=
  (W4_of_ne m ρ c main_arg6 (by decide)).trans (W3_arg6 m ρ c)

theorem W4_arg7 (c : Dev nD) : W4 m ρ c (Proc.devRef .tc main_arg7) = a7 m c :=
  (W4_of_ne m ρ c main_arg7 (by decide)).trans (W3_arg7 m ρ c)

theorem W4_arg8 (c : Dev nD) : W4 m ρ c (Proc.devRef .tc main_arg8) = a8 m c :=
  (W4_of_ne m ρ c main_arg8 (by decide)).trans (W3_arg8 m ρ c)

/-! ## After region 2 -/

theorem W5_v44 (c : Dev nD) : W5 m ρ c (Proc.devRef .tc main_v44) = val_main_v54 (F := Ideal) (a0 m c) (a1 m c) (a3 m c) (a4 m c) (a5 m c) :=
  ((W5_arr m ρ c 2).trans (Region2.final (V4 m ρ) c (val_main_v53 (F := Ideal) (a0 m c) (a1 m c) (a3 m c) (a4 m c)) (a5 m c) (W4_v43 m ρ c) (W4_arg5 m ρ c))).trans
    (Cert.RefSteps.v54_eq (a0 m c) (a1 m c) (a3 m c) (a4 m c) (a5 m c)).symm

theorem W5_v1 (c : Dev nD) : W5 m ρ c (Proc.devRef .tc main_v1) = val_main_v1 (F := Ideal) (a1 m c) :=
  (W5_of_ne m ρ c main_v1 (by decide)).trans (W4_v1 m ρ c)

theorem W5_v3 (c : Dev nD) : W5 m ρ c (Proc.devRef .tc main_v3) = val_main_v3 (F := Ideal) (a1 m c) :=
  (W5_of_ne m ρ c main_v3 (by decide)).trans (W4_v3 m ρ c)

theorem W5_v25 (c : Dev nD) : W5 m ρ c (Proc.devRef .tc main_v25) = val_main_v25 (F := Ideal) (a1 m c) :=
  (W5_of_ne m ρ c main_v25 (by decide)).trans (W4_v25 m ρ c)

theorem W5_v26 (c : Dev nD) : W5 m ρ c (Proc.devRef .tc main_v26) = val_main_v26 (F := Ideal) (a1 m c) :=
  (W5_of_ne m ρ c main_v26 (by decide)).trans (W4_v26 m ρ c)

theorem W5_arg6 (c : Dev nD) : W5 m ρ c (Proc.devRef .tc main_arg6) = a6 m c :=
  (W5_of_ne m ρ c main_arg6 (by decide)).trans (W4_arg6 m ρ c)

theorem W5_arg7 (c : Dev nD) : W5 m ρ c (Proc.devRef .tc main_arg7) = a7 m c :=
  (W5_of_ne m ρ c main_arg7 (by decide)).trans (W4_arg7 m ρ c)

theorem W5_arg8 (c : Dev nD) : W5 m ρ c (Proc.devRef .tc main_arg8) = a8 m c :=
  (W5_of_ne m ρ c main_arg8 (by decide)).trans (W4_arg8 m ρ c)

end Cert.KernelIdeal.Stage2

end
-- ==== Proof.Region3.lean ====
/-
  Region 3: the second layer's combine step, one block of 10000 nodes per grid point.

  Grid point t loads rows 10000·t … 10000·t + 9999 of the aggregated neighbour term, of the layer's linear transform
  and of the self-loop weights (a column), and the bias (a row), and writes into the same rows of the output the
  logistic function of aggregate + weight · transform + bias, the weight stretched along the columns and the bias
  along the rows. Entry (p, q) of the block is the host's combine step at node 10000·t + p and column q; the five blocks
  tile the output.
-/
import proofs.«146808_j25752623907304_2_alg».proof.Proof.Gen.KernelIdeal.Frame
import proofs.«146808_j25752623907304_2_alg».proof.Proof.Gen.ReferenceIdeal.Read
import proofs.«146808_j25752623907304_2_alg».proof.Proof.Combine
import Idealize.ShloMosaic.Lib.ValueLayout

set_option maxRecDepth 16384

noncomputable section

namespace Cert.KernelIdeal.Region3

open Cert.KernelIdeal Cert.KernelIdeal.Gen
open Idealize.ShloMosaic Idealize.ShloMosaic.TcCoe Idealize.ShloMosaic.ValueIdx Idealize.SL.Sem
open Idealize.ShloMosaic.Pipeline (Dat Cfg Window)

theorem hz : (![0, 0] : Fin 2 → Nat) = fun _ => 0 := funext fun a => by fin_cases a <;> rfl

/-- Entry (p, q) of a block's result is the host's combine step at (P, q) when the blocks' entries are the arrays'
    at node P. -/
theorem pay_apply (b0 : Vec Ideal S10000x64 .f32) (b2 : Vec Ideal S10000x1 .f32) (b4 : Vec Ideal S10000x64 .f32) (b9 : Vec Ideal S1x64 .f32)
    (A : FVec Ideal Cert.ReferenceIdeal.S50000x64 .f32) (S : FVec Ideal Cert.ReferenceIdeal.S50000 .f32)
    (H : FVec Ideal Cert.ReferenceIdeal.S50000x64 .f32) (B : FVec Ideal Cert.ReferenceIdeal.S64 .f32)
    (p : Fin 10000) (q : Fin 64) (P : Fin 50000)
    (hA : b0 (ix2 p q) = A (ix2 P q)) (hS : b2 (ix2 p (0 : Fin 1)) = S (ix1 P))
    (hH : b4 (ix2 p q) = H (ix2 P q)) (hB : b9 (ix2 (0 : Fin 1) q) = B (ix1 q)) :
    k3_pay1 (F := Ideal) b0 b2 b4 b9 (ix2 p q) = Cert.Combine.ref64 A S H B (ix2 P q) := by
  rw [Cert.Combine.ref64_apply]
  unfold k3_pay1
  show Ideal.logistic ((shapeCast S10000x64 b0 shapeCasts_S10000x64_S10000x64 (ix2 p q)
      + broadcastTo S10000x64 (shapeCast S10000x1 b2 shapeCasts_S10000x1_S10000x1) broadcasts_S10000x1_S10000x64 (ix2 p q)
        * shapeCast S10000x64 b4 shapeCasts_S10000x64_S10000x64 (ix2 p q)
      + broadcastTo S10000x64 (shapeCast S1x64 b9 shapeCasts_S1x64_S1x64) broadcasts_S1x64_S10000x64 (ix2 p q))
      * Ideal.ofBits .f32 0x3F800000#32) = _
  rw [shapeCast_self, shapeCast_self, shapeCast_self, shapeCast_self, Cert.LibColumn.broadcastTo_a1_ab_apply,
    broadcastTo_1b_ab_apply, hA, hS, hH, hB]
  exact Cert.Combine.logistic_mul_one _

/-- The index maps over the grid: the three row-blocked inputs and the output move together along the rows, the
    bias row stays. -/
theorem idx_facts : ∀ t : Fin cfg3.N, win3_0.index t (0 : Fin 2) = t.val ∧ win3_0.index t (1 : Fin 2) = 0
    ∧ win3_1.index t (0 : Fin 2) = t.val ∧ win3_1.index t (1 : Fin 2) = 0
    ∧ win3_2.index t (0 : Fin 2) = t.val ∧ win3_2.index t (1 : Fin 2) = 0
    ∧ win3_3.index t (0 : Fin 2) = 0 ∧ win3_3.index t (1 : Fin 2) = 0
    ∧ win3_4.index t (0 : Fin 2) = t.val ∧ win3_4.index t (1 : Fin 2) = 0 :=
  (by decide +kernel : ∀ t : Fin grid3.N, _)

variable (V : (c : Dev nD) → (b : Ref sig .tc) → Buf (Elt Ideal) ((c : Thread nD τ).loc b))

theorem flushed_eq (c : Dev nD) (A : FVec Ideal Cert.ReferenceIdeal.S50000x64 .f32) (S : FVec Ideal Cert.ReferenceIdeal.S50000 .f32)
    (H : FVec Ideal Cert.ReferenceIdeal.S50000x64 .f32) (B : FVec Ideal Cert.ReferenceIdeal.S64 .f32)
    (hA : V c main_v57 = A) (hH : V c main_v44 = H)
    (hS : ∀ P : Fin 50000, V c main_v58 (ix2 P (0 : Fin 1)) = S (ix1 P))
    (hB : ∀ q : Fin 64, V c main_v59 (ix2 (0 : Fin 1) q) = B (ix1 q)) (t : Fin cfg3.N) :
    (dat3 V c).flushed 4 t = ((cfg3.win 4).blk t).view.read (Elt Ideal) (Cert.Combine.ref64 A S H B) := by
  show (cfg3.win 4).cut (grid3.coords t) ((dat3 V c).after 4 t) = _
  rw [after3_4]
  unfold out3_4
  rw [View.canon_unit_zero hz]
  simp only [View.ld_unit_zero (S := S10000x64) hz, View.ld_unit_zero (S := S10000x1) hz, View.ld_unit_zero (S := S1x64) hz]
  obtain ⟨e0, e1, e2, e3, e4, e5, e6, e7, e8, e9⟩ := idx_facts t
  funext j
  obtain ⟨p, q, rfl⟩ : ∃ (p : Fin 10000) (q : Fin 64), j = ix2 p q := ⟨j 0, j 1, eq_ix2 j⟩
  have hp : p.val < 10000 := p.isLt
  have ht : t.val < 5 := t.isLt
  show k3_pay1 (iblk3 V c 0 t) (iblk3 V c 2 t) (iblk3 V c 1 t) (iblk3 V c 3 t) (ix2 p q)
    = Cert.Combine.ref64 A S H B (((cfg3.win 4).blk t).view.emb (ix2 p q))
  have hemb : ((cfg3.win 4).blk t).view.emb (ix2 p q) = ix2 (⟨t.val * 10000 + p.val, by omega⟩ : Fin 50000) q := by
    funext a; apply Fin.ext
    match a with
    | ⟨0, _⟩ => show win3_4.index t (0 : Fin 2) * 10000 + 1 * p.val = t.val * 10000 + p.val; omega
    | ⟨1, _⟩ => show win3_4.index t (1 : Fin 2) * 64 + 1 * q.val = q.val; omega
  rw [hemb]
  refine pay_apply (iblk3 V c 0 t) (iblk3 V c 2 t) (iblk3 V c 1 t) (iblk3 V c 3 t) A S H B p q ⟨t.val * 10000 + p.val, by omega⟩ ?_ ?_ ?_ ?_
  · show V c main_v57 (((cfg3.win 0).blk t).view.emb (ix2 p q)) = _
    rw [hA]
    refine congrArg A ?_
    funext a; apply Fin.ext
    match a with
    | ⟨0, _⟩ => show win3_0.index t (0 : Fin 2) * 10000 + 1 * p.val = t.val * 10000 + p.val; omega
    | ⟨1, _⟩ => show win3_0.index t (1 : Fin 2) * 64 + 1 * q.val = q.val; omega
  · show V c main_v58 (((cfg3.win 2).blk t).view.emb (ix2 p (0 : Fin 1))) = _
    rw [← hS]
    refine congrArg (V c main_v58) ?_
    funext a; apply Fin.ext
    match a with
    | ⟨0, _⟩ => show win3_2.index t (0 : Fin 2) * 10000 + 1 * p.val = t.val * 10000 + p.val; omega
    | ⟨1, _⟩ => show win3_2.index t (1 : Fin 2) * 1 + 1 * 0 = 0; omega
  · show V c main_v44 (((cfg3.win 1).blk t).view.emb (ix2 p q)) = _
    rw [hH]
    refine congrArg H ?_
    funext a; apply Fin.ext
    match a with
    | ⟨0, _⟩ => show win3_1.index t (0 : Fin 2) * 10000 + 1 * p.val = t.val * 10000 + p.val; omega
    | ⟨1, _⟩ => show win3_1.index t (1 : Fin 2) * 64 + 1 * q.val = q.val; omega
  · show V c main_v59 (((cfg3.win 3).blk t).view.emb (ix2 (0 : Fin 1) q)) = _
    rw [← hB]
    refine congrArg (V c main_v59) ?_
    funext a; apply Fin.ext
    match a with
    | ⟨0, _⟩ => show win3_3.index t (0 : Fin 2) * 1 + 1 * 0 = 0; omega
    | ⟨1, _⟩ => show win3_3.index t (1 : Fin 2) * 64 + 1 * q.val = q.val; omega

/-- An index of the output array is in point t's block iff each coordinate is in the block's range. -/
theorem mem_blk (t : Fin cfg3.N) (i : S50000x64.Idx) :
    i ∈ ((cfg3.win 4).blk t).view.set ↔ ∀ a : Fin 2, win3_4.index t a * S10000x64.size a ≤ (i a).val ∧ (i a).val < win3_4.index t a * S10000x64.size a + S10000x64.size a := by
  show i ∈ ((View.whole main_v60).slice (win3_4.rect t)).set ↔ _
  rw [View.set_slice_whole, Rect.mem_set_unit]
  exact Iff.rfl

/-- The five row blocks tile the output: row r is in the block of point r / 10000. -/
theorem cover (i : S50000x64.Idx) : ∃ t : Fin cfg3.N, (cfg3.win 4).flush t = true ∧ i ∈ ((cfg3.win 4).blk t).view.set := by
  have hi0 : (i 0).val < 50000 := (i 0).isLt
  have hi1 : (i 1).val < 64 := (i 1).isLt
  refine ⟨⟨(i 0).val / 10000, by show (i 0).val / 10000 < 5; omega⟩, flush3_4 _, ?_⟩
  rw [mem_blk]
  obtain ⟨e0, e1, e2, e3, e4, e5, e6, e7, e8, e9⟩ := idx_facts ⟨(i 0).val / 10000, by show (i 0).val / 10000 < 5; omega⟩
  intro a
  match a with
  | ⟨0, _⟩ => show win3_4.index _ (0 : Fin 2) * 10000 ≤ (i 0).val ∧ (i 0).val < win3_4.index _ (0 : Fin 2) * 10000 + 10000; rw [e8]; show (i 0).val / 10000 * 10000 ≤ (i 0).val ∧ (i 0).val < (i 0).val / 10000 * 10000 + 10000; omega
  | ⟨1, _⟩ => show win3_4.index _ (1 : Fin 2) * 64 ≤ (i 1).val ∧ (i 1).val < win3_4.index _ (1 : Fin 2) * 64 + 64; rw [e9]; omega

/-- THE OUTPUT ARRAY after the region is the host's combine step of the arrays the region found. -/
theorem final (c : Dev nD) (A : FVec Ideal Cert.ReferenceIdeal.S50000x64 .f32) (S : FVec Ideal Cert.ReferenceIdeal.S50000 .f32)
    (H : FVec Ideal Cert.ReferenceIdeal.S50000x64 .f32) (B : FVec Ideal Cert.ReferenceIdeal.S64 .f32)
    (hA : V c main_v57 = A) (hH : V c main_v44 = H)
    (hS : ∀ P : Fin 50000, V c main_v58 (ix2 P (0 : Fin 1)) = S (ix1 P))
    (hB : ∀ q : Fin 64, V c main_v59 (ix2 (0 : Fin 1) q) = B (ix1 q)) :
    (dat3 V c).arrAt 4 cfg3.N = Cert.Combine.ref64 A S H B :=
  (dat3 V c).arrAt_eq_of_cover 4 (Cert.Combine.ref64 A S H B)
    (fun t _ => flushed_eq V c A S H B hA hH hS hB t) cover

end Cert.KernelIdeal.Region3

end
-- ==== Proof.Region4.lean ====
/-
  Region 4: the third dense layer's product (one output column), one block of 10000 rows per grid point.

  Grid point t loads rows 10000·t … 10000·t + 9999 of the 50000 × 64 input and the whole 64 × 1 weight, and writes
  their product into the same rows of the one-column output. On the extended reals rounding an operand to a narrower
  format, and a cast to its own shape, are the identity, and entry (p, 0) of the block's product is the sum over k of
  input(10000·t + p, k) · weight(k, 0): entry (10000·t + p, 0) of the product of the whole arrays. The five blocks tile
  the output, so the output array ends at the whole product.
-/
import proofs.«146808_j25752623907304_2_alg».proof.Proof.Gen.KernelIdeal.Frame
import proofs.«146808_j25752623907304_2_alg».proof.Proof.Gen.ReferenceIdeal.Read
import proofs.«146808_j25752623907304_2_alg».proof.Proof.LibBlockDot

set_option maxRecDepth 16384

noncomputable section

namespace Cert.KernelIdeal.Region4

open Cert.KernelIdeal Cert.KernelIdeal.Gen
open Idealize.ShloMosaic Idealize.ShloMosaic.TcCoe Idealize.ShloMosaic.ValueIdx Idealize.SL.Sem
open Idealize.ShloMosaic.Pipeline (Dat Cfg Window)

theorem hz : (![0, 0] : Fin 2 → Nat) = fun _ => 0 := funext fun a => by fin_cases a <;> rfl

/-- Entry (p, q) of a block's product is entry (P, q) of the whole product when the block's row p is the array's
    row P. -/
theorem pay_apply (b0 : Vec Ideal S10000x64 .f32) (b1 : Vec Ideal S64x1 .f32)
    (X : FVec Ideal Cert.ReferenceIdeal.S50000x64 .f32) (Wt : FVec Ideal Cert.ReferenceIdeal.S64x1 .f32)
    (p : Fin 10000) (q : Fin 1) (P : Fin 50000)
    (h0 : ∀ k : Fin 64, b0 (ix2 p k) = X (ix2 P k)) (h1 : ∀ k : Fin 64, b1 (ix2 k q) = Wt (ix2 k q)) :
    k4_pay1 (F := Ideal) b0 b1 (ix2 p q) = Host.dotGeneral (F := Ideal) Cert.ReferenceIdeal.dot_S50000x64_S64x1_S50000x1_1_0_0_1_n_n none X Wt (ix2 P q) := by
  unfold k4_pay1
  exact Cert.LibBlockDot.matmul_block_apply (R := 10000) (K := 64) (C := 1) (N := 50000)
    dot_S10000x64_S64x1_S10000x1_1_0_0_1_n_n rfl rfl rfl rfl rfl rfl
    Cert.ReferenceIdeal.dot_S50000x64_S64x1_S50000x1_1_0_0_1_n_n.wf none none _ _ X Wt p P q
    (fun k => (congrFun (shapeCast_self b0 shapeCasts_S10000x64_S10000x64) (ix2 p k)).trans (h0 k)) h1

/-- The index maps over the grid: the input's and the output's blocks move together along the rows, the weight's
    block stays. -/
theorem idx_facts : ∀ t : Fin cfg4.N, win4_0.index t (0 : Fin 2) = t.val ∧ win4_0.index t (1 : Fin 2) = 0
    ∧ win4_1.index t (0 : Fin 2) = 0 ∧ win4_1.index t (1 : Fin 2) = 0
    ∧ win4_2.index t (0 : Fin 2) = t.val ∧ win4_2.index t (1 : Fin 2) = 0 :=
  (by decide +kernel : ∀ t : Fin grid4.N, _)

variable (V : (c : Dev nD) → (b : Ref sig .tc) → Buf (Elt Ideal) ((c : Thread nD τ).loc b))

theorem flushed_eq (c : Dev nD) (x0 : FVec Ideal Cert.ReferenceIdeal.S50000x64 .f32) (x3 : FVec Ideal Cert.ReferenceIdeal.S64x1 .f32)
    (h0 : V c main_v60 = x0) (h3 : V c main_arg7 = x3) (t : Fin cfg4.N) :
    (dat4 V c).flushed 2 t = ((cfg4.win 2).blk t).view.read (Elt Ideal) (Host.dotGeneral (F := Ideal) Cert.ReferenceIdeal.dot_S50000x64_S64x1_S50000x1_1_0_0_1_n_n none x0 x3) := by
  show (cfg4.win 2).cut (grid4.coords t) ((dat4 V c).after 2 t) = _
  rw [after4_2]
  unfold out4_2
  rw [View.canon_unit_zero hz]
  simp only [View.ld_unit_zero (S := S10000x64) hz, View.ld_unit_zero (S := S64x1) hz]
  obtain ⟨e0, e1, e2, e3, e4, e5⟩ := idx_facts t
  funext j
  obtain ⟨p, q, rfl⟩ : ∃ (p : Fin 10000) (q : Fin 1), j = ix2 p q := ⟨j 0, j 1, eq_ix2 j⟩
  have hp : p.val < 10000 := p.isLt
  have ht : t.val < 5 := t.isLt
  show k4_pay1 (iblk4 V c 0 t) (iblk4 V c 1 t) (ix2 p q)
    = Host.dotGeneral (F := Ideal) Cert.ReferenceIdeal.dot_S50000x64_S64x1_S50000x1_1_0_0_1_n_n none x0 x3 (((cfg4.win 2).blk t).view.emb (ix2 p q))
  have hemb : ((cfg4.win 2).blk t).view.emb (ix2 p q) = ix2 (⟨t.val * 10000 + p.val, by omega⟩ : Fin 50000) q := by
    funext a; apply Fin.ext
    match a with
    | ⟨0, _⟩ => show win4_2.index t (0 : Fin 2) * 10000 + 1 * p.val = t.val * 10000 + p.val; omega
    | ⟨1, _⟩ => show win4_2.index t (1 : Fin 2) * 1 + 1 * q.val = q.val; omega
  rw [hemb]
  refine pay_apply (iblk4 V c 0 t) (iblk4 V c 1 t) x0 x3 p q ⟨t.val * 10000 + p.val, by omega⟩ (fun k => ?_) (fun k => ?_)
  · show V c main_v60 (((cfg4.win 0).blk t).view.emb (ix2 p k)) = _
    rw [h0]
    refine congrArg x0 ?_
    funext a; apply Fin.ext
    match a with
    | ⟨0, _⟩ => show win4_0.index t (0 : Fin 2) * 10000 + 1 * p.val = t.val * 10000 + p.val; omega
    | ⟨1, _⟩ => show win4_0.index t (1 : Fin 2) * 64 + 1 * k.val = k.val; omega
  · show V c main_arg7 (((cfg4.win 1).blk t).view.emb (ix2 k q)) = _
    rw [h3]
    refine congrArg x3 ?_
    funext a; apply Fin.ext
    match a with
    | ⟨0, _⟩ => show win4_1.index t (0 : Fin 2) * 64 + 1 * k.val = k.val; omega
    | ⟨1, _⟩ => show win4_1.index t (1 : Fin 2) * 1 + 1 * q.val = q.val; omega

/-- An index of the output array is in point t's block iff each coordinate is in the block's range. -/
theorem mem_blk (t : Fin cfg4.N) (i : S50000x1.Idx) :
    i ∈ ((cfg4.win 2).blk t).view.set ↔ ∀ a : Fin 2, win4_2.index t a * S10000x1.size a ≤ (i a).val ∧ (i a).val < win4_2.index t a * S10000x1.size a + S10000x1.size a := by
  show i ∈ ((View.whole main_v61).slice (win4_2.rect t)).set ↔ _
  rw [View.set_slice_whole, Rect.mem_set_unit]
  exact Iff.rfl

/-- The five row blocks tile the output: row r is in the block of point r / 10000. -/
theorem cover (i : S50000x1.Idx) : ∃ t : Fin cfg4.N, (cfg4.win 2).flush t = true ∧ i ∈ ((cfg4.win 2).blk t).view.set := by
  have hi0 : (i 0).val < 50000 := (i 0).isLt
  have hi1 : (i 1).val < 1 := (i 1).isLt
  refine ⟨⟨(i 0).val / 10000, by show (i 0).val / 10000 < 5; omega⟩, flush4_2 _, ?_⟩
  rw [mem_blk]
  obtain ⟨e0, e1, e2, e3, e4, e5⟩ := idx_facts ⟨(i 0).val / 10000, by show (i 0).val / 10000 < 5; omega⟩
  intro a
  match a with
  | ⟨0, _⟩ => show win4_2.index _ (0 : Fin 2) * 10000 ≤ (i 0).val ∧ (i 0).val < win4_2.index _ (0 : Fin 2) * 10000 + 10000; rw [e4]; show (i 0).val / 10000 * 10000 ≤ (i 0).val ∧ (i 0).val < (i 0).val / 10000 * 10000 + 10000; omega
  | ⟨1, _⟩ => show win4_2.index _ (1 : Fin 2) * 1 ≤ (i 1).val ∧ (i 1).val < win4_2.index _ (1 : Fin 2) * 1 + 1; rw [e5]; omega

/-- THE OUTPUT ARRAY after the region is the whole product of the arrays the region found. -/
theorem final (c : Dev nD) (x0 : FVec Ideal Cert.ReferenceIdeal.S50000x64 .f32) (x3 : FVec Ideal Cert.ReferenceIdeal.S64x1 .f32)
    (h0 : V c main_v60 = x0) (h3 : V c main_arg7 = x3) :
    (dat4 V c).arrAt 2 cfg4.N = Host.dotGeneral (F := Ideal) Cert.ReferenceIdeal.dot_S50000x64_S64x1_S50000x1_1_0_0_1_n_n none x0 x3 :=
  (dat4 V c).arrAt_eq_of_cover 2 (Host.dotGeneral (F := Ideal) Cert.ReferenceIdeal.dot_S50000x64_S64x1_S50000x1_1_0_0_1_n_n none x0 x3)
    (fun t _ => flushed_eq V c x0 x3 h0 h3 t) cover

end Cert.KernelIdeal.Region4

end
-- ==== Proof.Stage3.lean ====
/-
  The buffer contents through the third stretch of host operations and regions 3 and 4.

  The third stretch aggregates the second product over the edges as the second stretch did the first, and lays out the
  self-loop weights and the second bias. Region 3 leaves the second layer's combine step in its output, region 4 the
  third dense product (one column).
-/
import proofs.«146808_j25752623907304_2_alg».proof.Proof.Gen.KernelIdeal.Frame
import proofs.«146808_j25752623907304_2_alg».proof.Proof.Gen.ReferenceIdeal.Read
import proofs.«146808_j25752623907304_2_alg».proof.Proof.Stage2
import proofs.«146808_j25752623907304_2_alg».proof.Proof.Region3
import proofs.«146808_j25752623907304_2_alg».proof.Proof.Region4
import proofs.«146808_j25752623907304_2_alg».proof.Proof.RefSteps
import proofs.«146808_j25752623907304_2_alg».proof.Proof.LibColumn
import Idealize.ShloMosaic.Lib.StableHlo.Run

set_option maxRecDepth 16384

noncomputable section

namespace Cert.KernelIdeal.Stage3

open Cert.KernelIdeal Cert.KernelIdeal.Gen
open Idealize.ShloMosaic Idealize.ShloMosaic.TcCoe Idealize.ShloMosaic.ValueIdx Idealize.SL.Sem Idealize.ShloMosaic.StableHlo
open Cert.KernelIdeal.Stage1 Cert.KernelIdeal.Stage2
open Cert.ReferenceIdeal.Read (val_main_v1 val_main_v3 val_main_v25 val_main_v26 val_main_v27 val_main_v40 val_main_v53 val_main_v54 val_main_v67 val_main_v80 val_main_v81 val_main_v93 val_main_v107 val_main_v109)

variable (m : (ℓ : Loc nD τ sig) → Buf (Elt Ideal) ℓ) (ρ : Dev nD → PrngReg)

/-! ## After the third stretch -/

set_option maxHeartbeats 4000000 in
theorem W6_v57 (c : Dev nD) : W6 m ρ c (Proc.devRef .tc main_v57) = val_main_v67 (F := Ideal) (a0 m c) (a1 m c) (a3 m c) (a4 m c) (a5 m c) := by
  show StableHlo.after hostOps3 (W5 m ρ c) (Proc.devRef .tc main_v57) = _
  after_results_simp
  rw [W5_v44 m ρ c, W5_v1 m ρ c, W5_v3 m ρ c, W5_v25 m ρ c]
  rfl

/-- The self-loop weights as a column. -/
theorem W6_v58 (c : Dev nD) : W6 m ρ c (Proc.devRef .tc main_v58) = shapeCast S50000x1 (val_main_v26 (F := Ideal) (a1 m c)) shapeCasts_S50000_S50000x1 := by
  show StableHlo.after hostOps3 (W5 m ρ c) (Proc.devRef .tc main_v58) = _
  after_results_simp
  rw [W5_v26 m ρ c]
  rfl

theorem W6_v58_at (c : Dev nD) (P : Fin 50000) : V6 m ρ c main_v58 (ix2 P (0 : Fin 1)) = (val_main_v26 (F := Ideal) (a1 m c)) (ix1 P) := by
  show W6 m ρ c (Proc.devRef .tc main_v58) (ix2 P (0 : Fin 1)) = _
  rw [W6_v58 m ρ c]
  exact Cert.LibColumn.shapeCast_a_a1_apply _ _ P 0

/-- The second bias as a row. -/
theorem W6_v59 (c : Dev nD) : W6 m ρ c (Proc.devRef .tc main_v59) = shapeCast S1x64 (a6 m c) shapeCasts_S64_S1x64 := by
  show StableHlo.after hostOps3 (W5 m ρ c) (Proc.devRef .tc main_v59) = _
  after_results_simp
  rw [W5_arg6 m ρ c]
  rfl

theorem W6_v59_at (c : Dev nD) (q : Fin 64) : V6 m ρ c main_v59 (ix2 (0 : Fin 1) q) = (a6 m c) (ix1 q) := by
  show W6 m ρ c (Proc.devRef .tc main_v59) (ix2 (0 : Fin 1) q) = _
  rw [W6_v59 m ρ c]
  exact shapeCast_a_1a_apply _ _ 0 q

theorem W6_v44 (c : Dev nD) : W6 m ρ c (Proc.devRef .tc main_v44) = val_main_v54 (F := Ideal) (a0 m c) (a1 m c) (a3 m c) (a4 m c) (a5 m c) := by
  show StableHlo.after hostOps3 (W5 m ρ c) (Proc.devRef .tc main_v44) = _
  after_results_simp <;> exact W5_v44 m ρ c

theorem W6_v1 (c : Dev nD) : W6 m ρ c (Proc.devRef .tc main_v1) = val_main_v1 (F := Ideal) (a1 m c) := by
  show StableHlo.after hostOps3 (W5 m ρ c) (Proc.devRef .tc main_v1) = _
  after_results_simp <;> exact W5_v1 m ρ c

theorem W6_v3 (c : Dev nD) : W6 m ρ c (Proc.devRef .tc main_v3) = val_main_v3 (F := Ideal) (a1 m c) := by
  show StableHlo.after hostOps3 (W5 m ρ c) (Proc.devRef .tc main_v3) = _
  after_results_simp <;> exact W5_v3 m ρ c

theorem W6_v25 (c : Dev nD) : W6 m ρ c (Proc.devRef .tc main_v25) = val_main_v25 (F := Ideal) (a1 m c) := by
  show StableHlo.after hostOps3 (W5 m ρ c) (Proc.devRef .tc main_v25) = _
  after_results_simp <;> exact W5_v25 m ρ c

theorem W6_v26 (c : Dev nD) : W6 m ρ c (Proc.devRef .tc main_v26) = val_main_v26 (F := Ideal) (a1 m c) := by
  show StableHlo.after hostOps3 (W5 m ρ c) (Proc.devRef .tc main_v26) = _
  after_results_simp <;> exact W5_v26 m ρ c

theorem W6_arg7 (c : Dev nD) : W6 m ρ c (Proc.devRef .tc main_arg7) = a7 m c := by
  show StableHlo.after hostOps3 (W5 m ρ c) (Proc.devRef .tc main_arg7) = _
  after_results_simp <;> exact W5_arg7 m ρ c

theorem W6_arg8 (c : Dev nD) : W6 m ρ c (Proc.devRef .tc main_arg8) = a8 m c := by
  show StableHlo.after hostOps3 (W5 m ρ c) (Proc.devRef .tc main_arg8) = _
  after_results_simp <;> exact W5_arg8 m ρ c

/-! ## After region 3 -/

theorem W7_v60 (c : Dev nD) : W7 m ρ c (Proc.devRef .tc main_v60) = val_main_v80 (F := Ideal) (a0 m c) (a1 m c) (a3 m c) (a4 m c) (a5 m c) (a6 m c) :=
  ((W7_arr m ρ c 4).trans (Region3.final (V6 m ρ) c (val_main_v67 (F := Ideal) (a0 m c) (a1 m c) (a3 m c) (a4 m c) (a5 m c)) (val_main_v26 (F := Ideal) (a1 m c)) (val_main_v54 (F := Ideal) (a0 m c) (a1 m c) (a3 m c) (a4 m c) (a5 m c)) (a6 m c)
    (W6_v57 m ρ c) (W6_v44 m ρ c) (W6_v58_at m ρ c) (W6_v59_at m ρ c))).trans
    (Cert.RefSteps.v80_eq (a0 m c) (a1 m c) (a3 m c) (a4 m c) (a5 m c) (a6 m c)).symm

theorem W7_v1 (c : Dev nD) : W7 m ρ c (Proc.devRef .tc main_v1) = val_main_v1 (F := Ideal) (a1 m c) :=
  (W7_of_ne m ρ c main_v1 (by decide)).trans (W6_v1 m ρ c)

theorem W7_v3 (c : Dev nD) : W7 m ρ c (Proc.devRef .tc main_v3) = val_main_v3 (F := Ideal) (a1 m c) :=
  (W7_of_ne m ρ c main_v3 (by decide)).trans (W6_v3 m ρ c)

theorem W7_v25 (c : Dev nD) : W7 m ρ c (Proc.devRef .tc main_v25) = val_main_v25 (F := Ideal) (a1 m c) :=
  (W7_of_ne m ρ c main_v25 (by decide)).trans (W6_v25 m ρ c)

theorem W7_v26 (c : Dev nD) : W7 m ρ c (Proc.devRef .tc main_v26) = val_main_v26 (F := Ideal) (a1 m c) :=
  (W7_of_ne m ρ c main_v26 (by decide)).trans (W6_v26 m ρ c)

theorem W7_arg7 (c : Dev nD) : W7 m ρ c (Proc.devRef .tc main_arg7) = a7 m c :=
  (W7_of_ne m ρ c main_arg7 (by decide)).trans (W6_arg7 m ρ c)

theorem W7_arg8 (c : Dev nD) : W7 m ρ c (Proc.devRef .tc main_arg8) = a8 m c :=
  (W7_of_ne m ρ c main_arg8 (by decide)).trans (W6_arg8 m ρ c)

/-! ## After region 4 -/

theorem W8_v61 (c : Dev nD) : W8 m ρ c (Proc.devRef .tc main_v61) = val_main_v81 (F := Ideal) (a0 m c) (a1 m c) (a3 m c) (a4 m c) (a5 m c) (a6 m c) (a7 m c) :=
  ((W8_arr m ρ c 2).trans (Region4.final (V7 m ρ) c (val_main_v80 (F := Ideal) (a0 m c) (a1 m c) (a3 m c) (a4 m c) (a5 m c) (a6 m c)) (a7 m c) (W7_v60 m ρ c) (W7_arg7 m ρ c))).trans
    (Cert.RefSteps.v81_eq (a0 m c) (a1 m c) (a3 m c) (a4 m c) (a5 m c) (a6 m c) (a7 m c)).symm

theorem W8_v1 (c : Dev nD) : W8 m ρ c (Proc.devRef .tc main_v1) = val_main_v1 (F := Ideal) (a1 m c) :=
  (W8_of_ne m ρ c main_v1 (by decide)).trans (W7_v1 m ρ c)

theorem W8_v3 (c : Dev nD) : W8 m ρ c (Proc.devRef .tc main_v3) = val_main_v3 (F := Ideal) (a1 m c) :=
  (W8_of_ne m ρ c main_v3 (by decide)).trans (W7_v3 m ρ c)

theorem W8_v25 (c : Dev nD) : W8 m ρ c (Proc.devRef .tc main_v25) = val_main_v25 (F := Ideal) (a1 m c) :=
  (W8_of_ne m ρ c main_v25 (by decide)).trans (W7_v25 m ρ c)

theorem W8_v26 (c : Dev nD) : W8 m ρ c (Proc.devRef .tc main_v26) = val_main_v26 (F := Ideal) (a1 m c) :=
  (W8_of_ne m ρ c main_v26 (by decide)).trans (W7_v26 m ρ c)

theorem W8_arg8 (c : Dev nD) : W8 m ρ c (Proc.devRef .tc main_arg8) = a8 m c :=
  (W8_of_ne m ρ c main_arg8 (by decide)).trans (W7_arg8 m ρ c)

end Cert.KernelIdeal.Stage3

end
-- ==== Proof.Region5.lean ====
/-
  Region 5: the last layer's combine step (one column), one block of 10000 nodes per grid point.

  Grid point t loads rows 10000·t … 10000·t + 9999 of the aggregated neighbour term, of the layer's linear transform
  and of the self-loop weights (all three one column wide), and the one-entry bias, and writes into the same rows of
  the output the logistic function of aggregate + weight · transform + bias, the bias stretched along the rows. Entry
  (p, 0) of the block is the host's combine step at node 10000·t + p (the host also divides by the constant one,
  which changes nothing); the five blocks tile the output.
-/
import proofs.«146808_j25752623907304_2_alg».proof.Proof.Gen.KernelIdeal.Frame
import proofs.«146808_j25752623907304_2_alg».proof.Proof.Gen.ReferenceIdeal.Read
import proofs.«146808_j25752623907304_2_alg».proof.Proof.Combine
import Idealize.ShloMosaic.Lib.ValueLayout

set_option maxRecDepth 16384

noncomputable section

namespace Cert.KernelIdeal.Region5

open Cert.KernelIdeal Cert.KernelIdeal.Gen
open Idealize.ShloMosaic Idealize.ShloMosaic.TcCoe Idealize.ShloMosaic.ValueIdx Idealize.SL.Sem
open Idealize.ShloMosaic.Pipeline (Dat Cfg Window)

theorem hz : (![0, 0] : Fin 2 → Nat) = fun _ => 0 := funext fun a => by fin_cases a <;> rfl

/-- Entry (p, q) of a block's result is the host's combine step at (P, q) when the blocks' entries are the arrays'
    at node P. -/
theorem pay_apply (b0 : Vec Ideal S10000x1 .f32) (b2 : Vec Ideal S10000x1 .f32) (b4 : Vec Ideal S10000x1 .f32) (b9 : Vec Ideal S1x1 .f32)
    (A : FVec Ideal Cert.ReferenceIdeal.S50000x1 .f32) (S : FVec Ideal Cert.ReferenceIdeal.S50000 .f32)
    (H : FVec Ideal Cert.ReferenceIdeal.S50000x1 .f32) (B : FVec Ideal Cert.ReferenceIdeal.S1 .f32)
    (p : Fin 10000) (q : Fin 1) (P : Fin 50000)
    (hA : b0 (ix2 p q) = A (ix2 P q)) (hS : b2 (ix2 p q) = S (ix1 P))
    (hH : b4 (ix2 p q) = H (ix2 P q)) (hB : b9 (ix2 (0 : Fin 1) q) = B (ix1 q)) :
    k5_pay1 (F := Ideal) b0 b2 b4 b9 (ix2 p q) = Cert.Combine.ref1 A S H B (ix2 P q) := by
  rw [Cert.Combine.ref1_apply]
  unfold k5_pay1
  show Ideal.logistic ((shapeCast S10000x1 b0 shapeCasts_S10000x1_S10000x1 (ix2 p q)
      + shapeCast S10000x1 b2 shapeCasts_S10000x1_S10000x1 (ix2 p q)
        * shapeCast S10000x1 b4 shapeCasts_S10000x1_S10000x1 (ix2 p q)
      + broadcastTo S10000x1 (shapeCast S1x1 b9 shapeCasts_S1x1_S1x1) broadcasts_S1x1_S10000x1 (ix2 p q))
      * Ideal.ofBits .f32 0x3F800000#32) = _
  rw [shapeCast_self, shapeCast_self, shapeCast_self, shapeCast_self,
    broadcastTo_1b_ab_apply, hA, hS, hH, hB]
  exact Cert.Combine.logistic_mul_one_div _

/-- The index maps over the grid: the three row-blocked inputs and the output move together along the rows, the
    bias row stays. -/
theorem idx_facts : ∀ t : Fin cfg5.N, win5_0.index t (0 : Fin 2) = t.val ∧ win5_0.index t (1 : Fin 2) = 0
    ∧ win5_1.index t (0 : Fin 2) = t.val ∧ win5_1.index t (1 : Fin 2) = 0
    ∧ win5_2.index t (0 : Fin 2) = t.val ∧ win5_2.index t (1 : Fin 2) = 0
    ∧ win5_3.index t (0 : Fin 2) = 0 ∧ win5_3.index t (1 : Fin 2) = 0
    ∧ win5_4.index t (0 : Fin 2) = t.val ∧ win5_4.index t (1 : Fin 2) = 0 :=
  (by decide +kernel : ∀ t : Fin grid5.N, _)

variable (V : (c : Dev nD) → (b : Ref sig .tc) → Buf (Elt Ideal) ((c : Thread nD τ).loc b))

theorem flushed_eq (c : Dev nD) (A : FVec Ideal Cert.ReferenceIdeal.S50000x1 .f32) (S : FVec Ideal Cert.ReferenceIdeal.S50000 .f32)
    (H : FVec Ideal Cert.ReferenceIdeal.S50000x1 .f32) (B : FVec Ideal Cert.ReferenceIdeal.S1 .f32)
    (hA : V c main_v73 = A) (hH : V c main_v61 = H)
    (hS : ∀ P : Fin 50000, V c main_v74 (ix2 P (0 : Fin 1)) = S (ix1 P))
    (hB : ∀ q : Fin 1, V c main_v75 (ix2 (0 : Fin 1) q) = B (ix1 q)) (t : Fin cfg5.N) :
    (dat5 V c).flushed 4 t = ((cfg5.win 4).blk t).view.read (Elt Ideal) (Cert.Combine.ref1 A S H B) := by
  show (cfg5.win 4).cut (grid5.coords t) ((dat5 V c).after 4 t) = _
  rw [after5_4]
  unfold out5_4
  rw [View.canon_unit_zero hz]
  simp only [View.ld_unit_zero (S := S10000x1) hz, View.ld_unit_zero (S := S1x1) hz]
  obtain ⟨e0, e1, e2, e3, e4, e5, e6, e7, e8, e9⟩ := idx_facts t
  funext j
  obtain ⟨p, q, rfl⟩ : ∃ (p : Fin 10000) (q : Fin 1), j = ix2 p q := ⟨j 0, j 1, eq_ix2 j⟩
  have hp : p.val < 10000 := p.isLt
  have ht : t.val < 5 := t.isLt
  have hq : q.val < 1 := q.isLt
  show k5_pay1 (iblk5 V c 0 t) (iblk5 V c 2 t) (iblk5 V c 1 t) (iblk5 V c 3 t) (ix2 p q)
    = Cert.Combine.ref1 A S H B (((cfg5.win 4).blk t).view.emb (ix2 p q))
  have hemb : ((cfg5.win 4).blk t).view.emb (ix2 p q) = ix2 (⟨t.val * 10000 + p.val, by omega⟩ : Fin 50000) q := by
    funext a; apply Fin.ext
    match a with
    | ⟨0, _⟩ => show win5_4.index t (0 : Fin 2) * 10000 + 1 * p.val = t.val * 10000 + p.val; omega
    | ⟨1, _⟩ => show win5_4.index t (1 : Fin 2) * 1 + 1 * q.val = q.val; omega
  rw [hemb]
  refine pay_apply (iblk5 V c 0 t) (iblk5 V c 2 t) (iblk5 V c 1 t) (iblk5 V c 3 t) A S H B p q ⟨t.val * 10000 + p.val, by omega⟩ ?_ ?_ ?_ ?_
  · show V c main_v73 (((cfg5.win 0).blk t).view.emb (ix2 p q)) = _
    rw [hA]
    refine congrArg A ?_
    funext a; apply Fin.ext
    match a with
    | ⟨0, _⟩ => show win5_0.index t (0 : Fin 2) * 10000 + 1 * p.val = t.val * 10000 + p.val; omega
    | ⟨1, _⟩ => show win5_0.index t (1 : Fin 2) * 1 + 1 * q.val = q.val; omega
  · show V c main_v74 (((cfg5.win 2).blk t).view.emb (ix2 p q)) = _
    rw [← hS]
    refine congrArg (V c main_v74) ?_
    funext a; apply Fin.ext
    match a with
    | ⟨0, _⟩ => show win5_2.index t (0 : Fin 2) * 10000 + 1 * p.val = t.val * 10000 + p.val; omega
    | ⟨1, _⟩ => show win5_2.index t (1 : Fin 2) * 1 + 1 * q.val = 0; omega
  · show V c main_v61 (((cfg5.win 1).blk t).view.emb (ix2 p q)) = _
    rw [hH]
    refine congrArg H ?_
    funext a; apply Fin.ext
    match a with
    | ⟨0, _⟩ => show win5_1.index t (0 : Fin 2) * 10000 + 1 * p.val = t.val * 10000 + p.val; omega
    | ⟨1, _⟩ => show win5_1.index t (1 : Fin 2) * 1 + 1 * q.val = q.val; omega
  · show V c main_v75 (((cfg5.win 3).blk t).view.emb (ix2 (0 : Fin 1) q)) = _
    rw [← hB]
    refine congrArg (V c main_v75) ?_
    funext a; apply Fin.ext
    match a with
    | ⟨0, _⟩ => show win5_3.index t (0 : Fin 2) * 1 + 1 * 0 = 0; omega
    | ⟨1, _⟩ => show win5_3.index t (1 : Fin 2) * 1 + 1 * q.val = q.val; omega

/-- An index of the output array is in point t's block iff each coordinate is in the block's range. -/
theorem mem_blk (t : Fin cfg5.N) (i : S50000x1.Idx) :
    i ∈ ((cfg5.win 4).blk t).view.set ↔ ∀ a : Fin 2, win5_4.index t a * S10000x1.size a ≤ (i a).val ∧ (i a).val < win5_4.index t a * S10000x1.size a + S10000x1.size a := by
  show i ∈ ((View.whole main_v76).slice (win5_4.rect t)).set ↔ _
  rw [View.set_slice_whole, Rect.mem_set_unit]
  exact Iff.rfl

/-- The five row blocks tile the output: row r is in the block of point r / 10000. -/
theorem cover (i : S50000x1.Idx) : ∃ t : Fin cfg5.N, (cfg5.win 4).flush t = true ∧ i ∈ ((cfg5.win 4).blk t).view.set := by
  have hi0 : (i 0).val < 50000 := (i 0).isLt
  have hi1 : (i 1).val < 1 := (i 1).isLt
  refine ⟨⟨(i 0).val / 10000, by show (i 0).val / 10000 < 5; omega⟩, flush5_4 _, ?_⟩
  rw [mem_blk]
  obtain ⟨e0, e1, e2, e3, e4, e5, e6, e7, e8, e9⟩ := idx_facts ⟨(i 0).val / 10000, by show (i 0).val / 10000 < 5; omega⟩
  intro a
  match a with
  | ⟨0, _⟩ => show win5_4.index _ (0 : Fin 2) * 10000 ≤ (i 0).val ∧ (i 0).val < win5_4.index _ (0 : Fin 2) * 10000 + 10000; rw [e8]; show (i 0).val / 10000 * 10000 ≤ (i 0).val ∧ (i 0).val < (i 0).val / 10000 * 10000 + 10000; omega
  | ⟨1, _⟩ => show win5_4.index _ (1 : Fin 2) * 1 ≤ (i 1).val ∧ (i 1).val < win5_4.index _ (1 : Fin 2) * 1 + 1; rw [e9]; omega

/-- THE OUTPUT ARRAY after the region is the host's combine step of the arrays the region found. -/
theorem final (c : Dev nD) (A : FVec Ideal Cert.ReferenceIdeal.S50000x1 .f32) (S : FVec Ideal Cert.ReferenceIdeal.S50000 .f32)
    (H : FVec Ideal Cert.ReferenceIdeal.S50000x1 .f32) (B : FVec Ideal Cert.ReferenceIdeal.S1 .f32)
    (hA : V c main_v73 = A) (hH : V c main_v61 = H)
    (hS : ∀ P : Fin 50000, V c main_v74 (ix2 P (0 : Fin 1)) = S (ix1 P))
    (hB : ∀ q : Fin 1, V c main_v75 (ix2 (0 : Fin 1) q) = B (ix1 q)) :
    (dat5 V c).arrAt 4 cfg5.N = Cert.Combine.ref1 A S H B :=
  (dat5 V c).arrAt_eq_of_cover 4 (Cert.Combine.ref1 A S H B)
    (fun t _ => flushed_eq V c A S H B hA hH hS hB t) cover

end Cert.KernelIdeal.Region5

end
-- ==== Proof.Stage4.lean ====
/-
  The buffer contents through the last two stretches of host operations and region 5: the result.

  The fourth stretch aggregates the third product (one column) over the edges and lays out the self-loop weights and
  the one-entry bias. Region 5 leaves the last layer's combine step in its output, and the last stretch adds the
  constant shift. The result buffer ends at the reference's last stage of the argument arrays.
-/
import proofs.«146808_j25752623907304_2_alg».proof.Proof.Gen.KernelIdeal.Frame
import proofs.«146808_j25752623907304_2_alg».proof.Proof.Gen.ReferenceIdeal.Read
import proofs.«146808_j25752623907304_2_alg».proof.Proof.Stage3
import proofs.«146808_j25752623907304_2_alg».proof.Proof.Region5
import proofs.«146808_j25752623907304_2_alg».proof.Proof.RefSteps
import proofs.«146808_j25752623907304_2_alg».proof.Proof.LibColumn
import Idealize.ShloMosaic.Lib.StableHlo.Run

set_option maxRecDepth 16384

noncomputable section

namespace Cert.KernelIdeal.Stage4

open Cert.KernelIdeal Cert.KernelIdeal.Gen
open Idealize.ShloMosaic Idealize.ShloMosaic.TcCoe Idealize.ShloMosaic.ValueIdx Idealize.SL.Sem Idealize.ShloMosaic.StableHlo
open Cert.KernelIdeal.Stage1 Cert.KernelIdeal.Stage2 Cert.KernelIdeal.Stage3
open Cert.ReferenceIdeal.Read (val_main_v1 val_main_v3 val_main_v25 val_main_v26 val_main_v27 val_main_v40 val_main_v53 val_main_v54 val_main_v67 val_main_v80 val_main_v81 val_main_v93 val_main_v107 val_main_v109)

variable (m : (ℓ : Loc nD τ sig) → Buf (Elt Ideal) ℓ) (ρ : Dev nD → PrngReg)

/-! ## After the fourth stretch -/

set_option maxHeartbeats 4000000 in
theorem W9_v73 (c : Dev nD) : W9 m ρ c (Proc.devRef .tc main_v73) = val_main_v93 (F := Ideal) (a0 m c) (a1 m c) (a3 m c) (a4 m c) (a5 m c) (a6 m c) (a7 m c) := by
  show StableHlo.after hostOps5 (W8 m ρ c) (Proc.devRef .tc main_v73) = _
  after_results_simp
  rw [W8_v61 m ρ c, W8_v1 m ρ c, W8_v3 m ρ c, W8_v25 m ρ c]
  rfl

/-- The self-loop weights as a column. -/
theorem W9_v74 (c : Dev nD) : W9 m ρ c (Proc.devRef .tc main_v74) = shapeCast S50000x1 (val_main_v26 (F := Ideal) (a1 m c)) shapeCasts_S50000_S50000x1 := by
  show StableHlo.after hostOps5 (W8 m ρ c) (Proc.devRef .tc main_v74) = _
  after_results_simp
  rw [W8_v26 m ρ c]
  rfl

theorem W9_v74_at (c : Dev nD) (P : Fin 50000) : V9 m ρ c main_v74 (ix2 P (0 : Fin 1)) = (val_main_v26 (F := Ideal) (a1 m c)) (ix1 P) := by
  show W9 m ρ c (Proc.devRef .tc main_v74) (ix2 P (0 : Fin 1)) = _
  rw [W9_v74 m ρ c]
  exact Cert.LibColumn.shapeCast_a_a1_apply _ _ P 0

/-- The one-entry bias as a 1 × 1 array. -/
theorem W9_v75 (c : Dev nD) : W9 m ρ c (Proc.devRef .tc main_v75) = shapeCast S1x1 (a8 m c) shapeCasts_S1_S1x1 := by
  show StableHlo.after hostOps5 (W8 m ρ c) (Proc.devRef .tc main_v75) = _
  after_results_simp
  rw [W8_arg8 m ρ c]
  rfl

theorem W9_v75_at (c : Dev nD) (q : Fin 1) : V9 m ρ c main_v75 (ix2 (0 : Fin 1) q) = (a8 m c) (ix1 q) := by
  show W9 m ρ c (Proc.devRef .tc main_v75) (ix2 (0 : Fin 1) q) = _
  rw [W9_v75 m ρ c]
  exact shapeCast_a_1a_apply _ _ 0 q

theorem W9_v61 (c : Dev nD) : W9 m ρ c (Proc.devRef .tc main_v61) = val_main_v81 (F := Ideal) (a0 m c) (a1 m c) (a3 m c) (a4 m c) (a5 m c) (a6 m c) (a7 m c) := by
  show StableHlo.after hostOps5 (W8 m ρ c) (Proc.devRef .tc main_v61) = _
  after_results_simp <;> exact W8_v61 m ρ c

/-! ## After region 5 -/

theorem W10_v76 (c : Dev nD) : W10 m ρ c (Proc.devRef .tc main_v76) = val_main_v107 (F := Ideal) (a0 m c) (a1 m c) (a3 m c) (a4 m c) (a5 m c) (a6 m c) (a7 m c) (a8 m c) :=
  ((W10_arr m ρ c 4).trans (Region5.final (V9 m ρ) c (val_main_v93 (F := Ideal) (a0 m c) (a1 m c) (a3 m c) (a4 m c) (a5 m c) (a6 m c) (a7 m c)) (val_main_v26 (F := Ideal) (a1 m c)) (val_main_v81 (F := Ideal) (a0 m c) (a1 m c) (a3 m c) (a4 m c) (a5 m c) (a6 m c) (a7 m c)) (a8 m c)
    (W9_v73 m ρ c) (W9_v61 m ρ c) (W9_v74_at m ρ c) (W9_v75_at m ρ c))).trans
    (Cert.RefSteps.v107_eq (a0 m c) (a1 m c) (a3 m c) (a4 m c) (a5 m c) (a6 m c) (a7 m c) (a8 m c)).symm

/-! ## After the last stretch: the result -/

/-- THE RESULT BUFFER after the run holds the reference's last stage of the argument arrays. -/
theorem W11_v78 (c : Dev nD) : W11 m ρ c (Proc.devRef .tc main_v78) = val_main_v109 (F := Ideal) (a0 m c) (a1 m c) (a3 m c) (a4 m c) (a5 m c) (a6 m c) (a7 m c) (a8 m c) := by
  show StableHlo.after hostOps6 (W10 m ρ c) (Proc.devRef .tc main_v78) = _
  after_results_simp
  rw [W10_v76 m ρ c]
  rfl

end Cert.KernelIdeal.Stage4

end
-- ==== Proof.lean ====
/-
  A three-layer graph convolution (50000 nodes, 800000 edges, widths 64 → 64 → 64 → 1) whose dense products and
  combine steps run as six pipelined kernels, against the same network written with host operations only.

  Both programs compute, from the edge list, each node's degree with its self loop, d = 1 + (number of edges into the
  node), the weights d(src)^(-1/2) · d(dst)^(-1/2) per edge and d^(-1) per node, and then three times
      h ↦ logistic( Σ_{edges into n} weight · (h W)(src) + d(n)^(-1) · (h W)(n) + b ),
  and add a constant at the end. The gathers along the edges and the sums at the destinations are the same host
  operations in both programs, applied to the same operands once the dense product agrees. The kernels differ from
  the host only in three places, none of which matters on the extended reals: the product is taken 10000 rows at a
  time from operands rounded to a narrower format (the identity there; a row of a product depends on that row of the
  left operand only); the logistic function is one operation instead of 1 / (1 + exp(−x)) (the same expression), after
  a multiplication by the constant one (the host divides the last layer by the constant one instead); and the self-loop
  weights and the bias reach the kernel as a cast column and a cast row, where the host broadcasts them. No law
  used needs the inputs to be finite.

  The reference's result is its last stage as a function of the argument arrays; the kernel's run ends with the
  result buffer at the last segment boundary's contents, and following the boundaries through the five stretches of
  host operations and the six regions identifies those contents, stage by stage, with the reference's stages.
-/
import proofs.«146808_j25752623907304_2_alg».proof.Defs
import proofs.«146808_j25752623907304_2_alg».proof.Proof.Gen.Kernel
import proofs.«146808_j25752623907304_2_alg».proof.Proof.Gen.Kernel.Skeleton
import proofs.«146808_j25752623907304_2_alg».proof.Proof.Gen.Kernel.Launch
import proofs.«146808_j25752623907304_2_alg».proof.Proof.Gen.Kernel.Points
import proofs.«146808_j25752623907304_2_alg».proof.Proof.Gen.Kernel.Frame
import proofs.«146808_j25752623907304_2_alg».proof.Proof.Gen.KernelIdeal
import proofs.«146808_j25752623907304_2_alg».proof.Proof.Gen.KernelIdeal.Skeleton
import proofs.«146808_j25752623907304_2_alg».proof.Proof.Gen.KernelIdeal.Launch
import proofs.«146808_j25752623907304_2_alg».proof.Proof.Gen.KernelIdeal.Points
import proofs.«146808_j25752623907304_2_alg».proof.Proof.Gen.KernelIdeal.Frame
import proofs.«146808_j25752623907304_2_alg».proof.Proof.Gen.ReferenceIdeal
import proofs.«146808_j25752623907304_2_alg».proof.Proof.Gen.Pre_finite_inputs
import proofs.«146808_j25752623907304_2_alg».proof.Proof.Gen.ReferenceIdeal.Run
import proofs.«146808_j25752623907304_2_alg».proof.Proof.Gen.ReferenceIdeal.Read
import proofs.«146808_j25752623907304_2_alg».proof.Proof.KernelRun
import proofs.«146808_j25752623907304_2_alg».proof.Proof.Stage4
import Idealize.ShloMosaic.Adequacy
import Idealize.ShloMosaic.Init

noncomputable section

namespace Cert.Proof

open Idealize.ShloMosaic Idealize.SL.Sem

theorem frame_k : Cert.frame_Kernel := fun m ρ _ => Cert.Kernel.Gen.frame m ρ

theorem frame_ki : Cert.frame_KernelIdeal := fun m ρ _ => Cert.KernelIdeal.Gen.frame m ρ

/-- The reference has no kernel: its frame is its run with the result forgotten. -/
theorem frame_ri : Cert.frame_ReferenceIdeal := fun m ρ _ =>
  (θ_run Cert.ReferenceIdeal.defs _ _).mono (fun _ h c => (h c).2) (Cert.ReferenceIdeal.Value.run (F := Ideal) m ρ)

/-- The ideal pass rewrote nothing. -/
theorem preserves : Cert.preserves_Kernel_KernelIdeal := trivial

/-- Both programs end with the result at the reference's last stage of the argument arrays. -/
theorem algebraic : Cert.algebraic_KernelIdeal_ReferenceIdeal := by
  intro m ρ m' ρ' _ hagree
  refine ⟨fun c => Cert.ReferenceIdeal.Read.val_main_v109 (F := Ideal)
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5))
      (m ((c.tc : Thread Cert.KernelIdeal.nD Cert.KernelIdeal.τ).loc Cert.KernelIdeal.main_arg6))
      (m ((c.tc : Thread Cert.KernelIdeal.nD Cert.KernelIdeal.τ).loc Cert.KernelIdeal.main_arg7))
      (m ((c.tc : Thread Cert.KernelIdeal.nD Cert.KernelIdeal.τ).loc Cert.KernelIdeal.main_arg8)), ?_, ?_⟩
  · exact (θ_run Cert.KernelIdeal.defs _ _).mono
      (fun r h c => ⟨(h c).1.trans (Cert.KernelIdeal.Stage4.W11_v78 m ρ c), (h c).2⟩)
      (Cert.KernelIdeal.KRun.run_named (F := Ideal) m ρ)
  · refine (θ_run Cert.ReferenceIdeal.defs _ _).mono (fun r h c => ⟨(h c).1.trans ?_, (h c).2⟩)
      (Cert.ReferenceIdeal.Value.run (F := Ideal) m' ρ')
    obtain ⟨e0, e1, e2, e3, e4, e5, e6, e7, e8⟩ := hagree c
    rw [Cert.ReferenceIdeal.Read.val_main_v109_eq, e0, e1, e3, e4, e5, e6, e7, e8]

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
